-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S1024x1024 : Shape := ⟨2, ![1024, 1024]⟩
abbrev S1024 : Shape := ⟨1, ![1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S16x2048x1024 .f32) (main_arg1 : FVec F S16x2048x1024 .f32) (main_arg2 : FVec F S1024x1024 .f32) (main_arg3 : FVec F S1024x1024 .f32) (main_arg4 : FVec F S1024x1024 .f32) (main_arg5 : FVec F S1024x1024 .f32) (main_arg6 : FVec F S1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S16x2048x1024 .f32 := Host.absf main_arg1
  let main_cst_0 : FVec F S_ .f32 := constant S_ .f32 0x7F800000#32
  let main_v5 : FVec F S16x2048x1024 .f32 := broadcastInDim S16x2048x1024 ![] bcast_S_S16x2048x1024 main_cst_0
  let main_v6 : IVec S16x2048x1024 1 := cmpf .olt main_v4 main_v5
  let main_c_1 : IVec S_ 1 := constantI S_ 1 1#1
  let main_v7 : IVec S_ 1 := (fun x v => Host.reduce IntOp.andi x v reducesTo_S16x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S16x2048x1024 : Shape := ⟨3, ![16, 2048, 1024]⟩
abbrev S1024x1024 : Shape := ⟨2, ![1024, 1024]⟩
abbrev S1024 : Shape := ⟨1, ![1024]⟩
abbrev S16x2048x2048 : Shape := ⟨3, ![16, 2048, 2048]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S1024x2048 : Shape := ⟨2, ![1024, 2048]⟩
abbrev S2048x1024 : Shape := ⟨2, ![2048, 1024]⟩
abbrev S256x1024 : Shape := ⟨2, ![256, 1024]⟩
abbrev S1024x256 : Shape := ⟨2, ![1024, 256]⟩
abbrev S256x2048 : Shape := ⟨2, ![256, 2048]⟩
abbrev S256 : Shape := ⟨1, ![256]⟩
abbrev S256x1 : Shape := ⟨2, ![256, 1]⟩
abbrev S1x1024 : Shape := ⟨2, ![1, 1024]⟩

abbrev nBuf : Space → Nat
  | .hbm => 17
  | .vmem => 14
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S16x2048x1024, .f32⟩
  | .hbm, ⟨16, _⟩ => ⟨S16x2048x2048, .f32⟩
  | .local _ .vmem, ⟨0, _⟩ => ⟨S1x256x1024, .f32⟩
  | .local _ .vmem, ⟨1, _⟩ => ⟨S1x256x1024, .f32⟩
  | .local _ .vmem, ⟨2, _⟩ => ⟨S1x2048x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x2048, .f32⟩
  | .local _ .vmem, ⟨11, _⟩ => ⟨S1x256x2048, .f32⟩
  | .local _ .vmem, ⟨12, _⟩ => ⟨S1024x2048, .bf16⟩
  | .local _ .vmem, ⟨13, _⟩ => ⟨S2048x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  transposes_S1024x1024_S1024x1024_1_0 : S1024x1024.Transposes [1, 0] S1024x1024
  bitsLt_bf16_f32 : FTy.bits .bf16 < FTy.bits .f32
  inb_S1x2048x1024_S1x2048x1024_0_0_0 : ∀ a, (![0, 0, 0] : Fin 3 → Nat) a + S1x2048x1024.size a ≤ S1x2048x1024.size a
  squeezes_S1x2048x1024_S2048x1024 : S1x2048x1024.Squeezes S2048x1024
  inb_S2048x1024_S256x1024_0_0 : ∀ a, (![0, 0] : Fin 2 → Nat) a + S256x1024.size a ≤ S2048x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S256x1024_p1_0_S1024x256 : S256x1024.Transposes [1, 0] S1024x256
  inb_S1024x2048_S1024x256_0_0 : ∀ a, (![0, 0] : Fin 2 → Nat) a + S1024x256.size a ≤ S1024x2048.size a
  h_S1024x256 : 0 < S1024x256.numel
  shapeCasts_S1024x256_S1024x256 : S1024x256.ShapeCasts S1024x256
  packedbf16_S1024x2048_S1024x256_0_0 : (Rect.unit (s := S1024x2048) ![0, 0] S1024x256.size inb_S1024x2048_S1024x256_0_0).PackedRows (EltTy.packing .bf16)
  shapeCasts_S256x1024_S256x1024 : S256x1024.ShapeCasts S256x1024
  packedbf16_S2048x1024_S256x1024_0_0 : (Rect.unit (s := S2048x1024) ![0, 0] S256x1024.size inb_S2048x1024_S256x1024_0_0).PackedRows (EltTy.packing .bf16)
  inb_S2048x1024_S256x1024_256_0 : ∀ a, (![256, 0] : Fin 2 → Nat) a + S256x1024.size a ≤ S2048x1024.size a
  inb_S1024x2048_S1024x256_0_256 : ∀ a, (![0, 256] : Fin 2 → Nat) a + S1024x256.size a ≤ S1024x2048.size a
  packedbf16_S1024x2048_S1024x256_0_256 : (Rect.unit (s := S1024x2048) ![0, 256] S1024x256.size inb_S1024x2048_S1024x256_0_256).PackedRows (EltTy.packing .bf16)
  packedbf16_S2048x1024_S256x1024_256_0 : (Rect.unit (s := S2048x1024) ![256, 0] S256x1024.size inb_S2048x1024_S256x1024_256_0).PackedRows (EltTy.packing .bf16)
  inb_S2048x1024_S256x1024_512_0 : ∀ a, (![512, 0] : Fin 2 → Nat) a + S256x1024.size a ≤ S2048x1024.size a
  inb_S1024x2048_S1024x256_0_512 : ∀ a, (![0, 512] : Fin 2 → Nat) a + S1024x256.size a ≤ S1024x2048.size a
  packedbf16_S1024x2048_S1024x256_0_512 : (Rect.unit (s := S1024x2048) ![0, 512] S1024x256.size inb_S1024x2048_S1024x256_0_512).PackedRows (EltTy.packing .bf16)
  packedbf16_S2048x1024_S256x1024_512_0 : (Rect.unit (s := S2048x1024) ![512, 0] S256x1024.size inb_S2048x1024_S256x1024_512_0).PackedRows (EltTy.packing .bf16)
  inb_S2048x1024_S256x1024_768_0 : ∀ a, (![768, 0] : Fin 2 → Nat) a + S256x1024.size a ≤ S2048x1024.size a
  inb_S1024x2048_S1024x256_0_768 : ∀ a, (![0, 768] : Fin 2 → Nat) a + S1024x256.size a ≤ S1024x2048.size a
  packedbf16_S1024x2048_S1024x256_0_768 : (Rect.unit (s := S1024x2048) ![0, 768] S1024x256.size inb_S1024x2048_S1024x256_0_768).PackedRows (EltTy.packing .bf16)
  packedbf16_S2048x1024_S256x1024_768_0 : (Rect.unit (s := S2048x1024) ![768, 0] S256x1024.size inb_S2048x1024_S256x1024_768_0).PackedRows (EltTy.packing .bf16)
  inb_S2048x1024_S256x1024_1024_0 : ∀ a, (![1024, 0] : Fin 2 → Nat) a + S256x1024.size a ≤ S2048x1024.size a
  inb_S1024x2048_S1024x256_0_1024 : ∀ a, (![0, 1024] : Fin 2 → Nat) a + S1024x256.size a ≤ S1024x2048.size a
  packedbf16_S1024x2048_S1024x256_0_1024 : (Rect.unit (s := S1024x2048) ![0, 1024] S1024x256.size inb_S1024x2048_S1024x256_0_1024).PackedRows (EltTy.packing .bf16)
  packedbf16_S2048x1024_S256x1024_1024_0 : (Rect.unit (s := S2048x1024) ![1024, 0] S256x1024.size inb_S2048x1024_S256x1024_1024_0).PackedRows (EltTy.packing .bf16)
  inb_S2048x1024_S256x1024_1280_0 : ∀ a, (![1280, 0] : Fin 2 → Nat) a + S256x1024.size a ≤ S2048x1024.size a
  inb_S1024x2048_S1024x256_0_1280 : ∀ a, (![0, 1280] : Fin 2 → Nat) a + S1024x256.size a ≤ S1024x2048.size a
  packedbf16_S1024x2048_S1024x256_0_1280 : (Rect.unit (s := S1024x2048) ![0, 1280] S1024x256.size inb_S1024x2048_S1024x256_0_1280).PackedRows (EltTy.packing .bf16)
  packedbf16_S2048x1024_S256x1024_1280_0 : (Rect.unit (s := S2048x1024) ![1280, 0] S256x1024.size inb_S2048x1024_S256x1024_1280_0).PackedRows (EltTy.packing .bf16)
  inb_S2048x1024_S256x1024_1536_0 : ∀ a, (![1536, 0] : Fin 2 → Nat) a + S256x1024.size a ≤ S2048x1024.size a
  inb_S1024x2048_S1024x256_0_1536 : ∀ a, (![0, 1536] : Fin 2 → Nat) a + S1024x256.size a ≤ S1024x2048.size a
  packedbf16_S1024x2048_S1024x256_0_1536 : (Rect.unit (s := S1024x2048) ![0, 1536] S1024x256.size inb_S1024x2048_S1024x256_0_1536).PackedRows (EltTy.packing .bf16)
  packedbf16_S2048x1024_S256x1024_1536_0 : (Rect.unit (s := S2048x1024) ![1536, 0] S256x1024.size inb_S2048x1024_S256x1024_1536_0).PackedRows (EltTy.packing .bf16)
  inb_S2048x1024_S256x1024_1792_0 : ∀ a, (![1792, 0] : Fin 2 → Nat) a + S256x1024.size a ≤ S2048x1024.size a
  inb_S1024x2048_S1024x256_0_1792 : ∀ a, (![0, 1792] : Fin 2 → Nat) a + S1024x256.size a ≤ S1024x2048.size a
  packedbf16_S1024x2048_S1024x256_0_1792 : (Rect.unit (s := S1024x2048) ![0, 1792] S1024x256.size inb_S1024x2048_S1024x256_0_1792).PackedRows (EltTy.packing .bf16)
  packedbf16_S2048x1024_S256x1024_1792_0 : (Rect.unit (s := S2048x1024) ![1792, 0] S256x1024.size inb_S2048x1024_S256x1024_1792_0).PackedRows (EltTy.packing .bf16)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x2048_S1024x2048_0_0 : ∀ a, (![0, 0] : Fin 2 → Nat) a + S1024x2048.size a ≤ S1024x2048.size a
  h_S1024x2048 : 0 < S1024x2048.numel
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  inb_S2048x1024_S2048x1024_0_0 : ∀ a, (![0, 0] : Fin 2 → Nat) a + S2048x1024.size a ≤ S2048x1024.size a
  h_S2048x1024 : 0 < S2048x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  shapeCasts_S256x1024_S1x256x1024 : S256x1024.ShapeCasts S1x256x1024
  dot_S256x1024_S1024x1024_S256x1024_1_0_0_1_n_n_wf : DotDims.WF S256x1024 S1024x1024 S256x1024 [1] [0] [0] [1] [] []
  dot_S256x1024_S1024x2048_S256x2048_1_0_0_1_n_n_wf : DotDims.WF S256x1024 S1024x2048 S256x2048 [1] [0] [0] [1] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x2048x1024.size a
  hwx0_0 : ∀ i : grid0.Coords, EltTy.bits .f32 = 32 ∨ (Rect.block (s := S16x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S16x2048x1024.size a
  hwx0_1 : ∀ i : grid0.Coords, EltTy.bits .f32 = 32 ∨ (Rect.block (s := S16x2048x1024) S1x2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x1024.size a ≤ S16x2048x1024.size a
  hwx0_7 : ∀ i : grid0.Coords, EltTy.bits .f32 = 32 ∨ (Rect.block (s := S16x2048x1024) S1x256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x2048.size a ≤ S16x2048x2048.size a
  hwx0_8 : ∀ i : grid0.Coords, EltTy.bits .f32 = 32 ∨ (Rect.block (s := S16x2048x2048) S1x256x2048.size (cc0_transform_8 i) (hinb0_8 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg1) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8_0) S1x256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_1) S1x256x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16x2048x1024 : Shape := ⟨3, ![16, 2048, 1024]⟩
abbrev S1024x1024 : Shape := ⟨2, ![1024, 1024]⟩
abbrev S1024 : Shape := ⟨1, ![1024]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S16x2048x1024, .f32⟩
  | .hbm, ⟨8, _⟩ => ⟨S16x2048x1024, .f32⟩
  | .hbm, ⟨9, _⟩ => ⟨S16x2048x1024, .f32⟩
  | .hbm, ⟨10, _⟩ => ⟨S16x2048x2048, .f32⟩
  | .hbm, ⟨11, _⟩ => ⟨S_, .f32⟩
  | .hbm, ⟨12, _⟩ => ⟨S16x2048x2048, .f32⟩
  | .hbm, ⟨13, _⟩ => ⟨S16x2048x2048, .f32⟩
  | .hbm, ⟨14, _⟩ => ⟨S_, .f32⟩
  | .hbm, ⟨15, _⟩ => ⟨S16x2048, .f32⟩
  | .hbm, ⟨16, _⟩ => ⟨S_, .f32⟩
  | .hbm, ⟨17, _⟩ => ⟨S16x2048, .f32⟩
  | .hbm, ⟨18, _⟩ => ⟨S16x2048, .f32⟩
  | .hbm, ⟨19, _⟩ => ⟨S16x2048x1, .f32⟩
  | .hbm, ⟨20, _⟩ => ⟨S16x2048x2048, .f32⟩
  | .hbm, ⟨21, _⟩ => ⟨S16x2048x2048, .f32⟩
  | .hbm, ⟨22, _⟩ => ⟨S16x2048x2048, .f32⟩
  | .hbm, ⟨23, _⟩ => ⟨S_, .f32⟩
  | .hbm, ⟨24, _⟩ => ⟨S16x2048, .f32⟩
  | .hbm, ⟨25, _⟩ => ⟨S16x2048x1, .f32⟩
  | .hbm, ⟨26, _⟩ => ⟨S16x2048x2048, .f32⟩
  | .hbm, ⟨27, _⟩ => ⟨S16x2048x2048, .f32⟩
  | .hbm, ⟨28, _⟩ => ⟨S16x2048x1024, .f32⟩
  | .hbm, ⟨29, _⟩ => ⟨S16x2048x1024, .f32⟩
  | .hbm, ⟨30, _⟩ => ⟨S1x1x1024, .f32⟩
  | .hbm, ⟨31, _⟩ => ⟨S16x2048x1024, .f32⟩
  | .hbm, ⟨32, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  bcast_S1024_S1x1x1024_2 : S1024.BroadcastsInDim S1x1x1024 (![2] : Fin 1 → Fin S1x1x1024.rank)
  bcast_S1x1x1024_S16x2048x1024_0_1_2 : S1x1x1024.BroadcastsInDim S16x2048x1024 (![0, 1, 2] : Fin 3 → Fin S16x2048x1024.rank)
  dot_S16x2048x1024_S1024x1024_S16x2048x1024_2_1_01_0_n_n_wf : DotDims.WF S16x2048x1024 S1024x1024 S16x2048x1024 [2] [1] [0, 1] [0] [] []
  dot_S16x2048x1024_S16x2048x1024_S16x2048x2048_2_2_1_1_0_0_wf : DotDims.WF S16x2048x1024 S16x2048x1024 S16x2048x2048 [2] [2] [1] [1] [0] [0]
  dot_S16x2048x2048_S16x2048x1024_S16x2048x1024_2_1_1_2_0_0_wf : DotDims.WF S16x2048x2048 S16x2048x1024 S16x2048x1024 [2] [1] [1] [2] [0] [0]

variable [Facts₀]

def dot_S16x2048x1024_S1024x1024_S16x2048x1024_2_1_01_0_n_n : DotDims S16x2048x1024 S1024x1024 S16x2048x1024 where
  lhsContracting := [2]
  rhsContracting := [1]
  lhsNonContracting := [0, 1]
  rhsNonContracting := [0]
  lhsBatch := []
  rhsBatch := []
  wf := dot_S16x2048x1024_S1024x1024_S16x2048x1024_2_1_01_0_n_n_wf
def dot_S16x2048x1024_S16x2048x1024_S16x2048x2048_2_2_1_1_0_0 : DotDims S16x2048x1024 S16x2048x1024 S16x2048x2048 where
  lhsContracting := [2]
  rhsContracting := [2]
  lhsNonContracting := [1]
  rhsNonContracting := [1]
  lhsBatch := [0]
  rhsBatch := [0]
  wf := dot_S16x2048x1024_S16x2048x1024_S16x2048x2048_2_2_1_1_0_0_wf
def dot_S16x2048x2048_S16x2048x1024_S16x2048x1024_2_1_1_2_0_0 : DotDims S16x2048x2048 S16x2048x1024 S16x2048x1024 where
  lhsContracting := [2]
  rhsContracting := [1]
  lhsNonContracting := [1]
  rhsNonContracting := [2]
  lhsBatch := [0]
  rhsBatch := [0]
  wf := dot_S16x2048x2048_S16x2048x1024_S16x2048x1024_2_1_1_2_0_0_wf

class Facts : Prop extends Facts₀ where

variable [Facts]
-- ==== Proof.WordBody.Runs.lean ====
/-
  What the two runs of the attention kernel's body share.

  The grid is 16 batches × 8 tiles of 256 query rows, walked in order: point t is batch t / 8, tile t % 8. The body has one
  branch, on the tile coordinate being zero: at a batch's first tile it projects the batch's 2048 rows of x, 256 rows at a
  time, into two scratch buffers (the keys transposed, [1024, 2048], and the values, [2048, 1024]); at every tile it then
  reads both scratch buffers whole. So there are two cases: the first tile of a batch, where the scratch is rebuilt from
  the x block and what it held before does not matter, and the other seven, where the scratch holds what the point before
  left. Here: the branch condition decided over the grid, that no window is ever idle, and the names of the staging and
  scratch memrefs the runs are stated over.
-/
import proofs.«147508_j77403900608902_2_alg».proof.Proof.Gen.Kernel.Launch
import proofs.«147508_j77403900608902_2_alg».proof.Proof.Gen.Kernel.Skeleton
import proofs.«147508_j77403900608902_2_alg».proof.Proof.Gen.Kernel.Points
import proofs.«147508_j77403900608902_2_alg».proof.Proof.Gen.Kernel.Frame
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's one branch (the tile coordinate is zero), as the body computes it from the grid coordinates. -/
abbrev cond0 (i : grid0.Coords) : Prop :=
  (Scalar.cmpi .ne (Scalar.extui (Scalar.cmpi .eq (BitVec.ofNat 32 (i 1).val) 0#32)) 0#32) = 1#1

/-- It holds at the first tile of each batch: the points ≡ 0 (mod 8). -/
theorem hcond0 : ∀ t : Fin cfg0.N, cond0 (grid0.coords t) ↔ t.val % 8 = 0 :=
  (by decide +kernel : ∀ t : Fin grid0.N, cond0 (grid0.coords t) ↔ t.val % 8 = 0)

/-- No window is idle at any point: the body loads every input and stores both outputs at every point. -/
theorem liveAt (w : Fin cfg0.W) : ∀ t : Fin cfg0.N, cfg0.idle w (grid0.coords t) = false := by
  revert w; decide +kernel

/-- Each window's current staging memref at point `t`, spelled as the pipeline passes it, and its wholeness. -/
abbrev ms0 (t : Fin cfg0.N) : Memref sig .tc .vmem S1x256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1024 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1024 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x256x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x256x2048 .f32 := win0_8.stage (cfg0.slots t 8)
abbrev hs8 (t : Fin cfg0.N) : (ms8 t).IsWhole := hstage0_8 ((cfg0.slots t 8).cast nbuf0_8)

/-- The two scratch operands: the keys of the current batch, transposed, and its values. -/
abbrev scK : Memref sig .tc .vmem S1024x2048 .bf16 := Memref.whole cc0_scratch0
abbrev scV : Memref sig .tc .vmem S2048x1024 .bf16 := Memref.whole cc0_scratch1

/-- One staging buffer of each output window, and the scratch buffers, as views: what a list of stores leaves in a buffer
    is stated through them (the choice of staging buffer does not matter once the stores cover it). -/
abbrev VO7 : View sig .tc .vmem S1x256x1024 .f32 := (Memref.whole cc0_stg7_0 : Memref sig .tc .vmem S1x256x1024 .f32).view
abbrev VO8 : View sig .tc .vmem S1x256x2048 .f32 := (Memref.whole cc0_stg8_0 : Memref sig .tc .vmem S1x256x2048 .f32).view
abbrev VSK : View sig .tc .vmem S1024x2048 .bf16 := scK.view
abbrev VSV : View sig .tc .vmem S2048x1024 .bf16 := scV.view

/-- What the region's invariant hands the body when nothing is tracked: both scratch buffers at some contents, and the
    generator register at some state. -/
theorem PhiA0_eq (c : Dev nD) :
    (Pipeline.ΦA spec0 c : sProp 𝕄)
      = iprop(iprop((∃ d, owns (c : Thread nD τ) scK fullShare d) ∗ (∃ d, owns (c : Thread nD τ) scV fullShare d)) ∗ (∃ r, prngReg c r)) := by
  unfold Pipeline.ΦA; rw [scopedRest0_eq]; simp only [scK, scV, owns_whole]; try rfl

end Cert.Kernel.Body

end
-- ==== Proof.WordBody.RunA.lean ====
/-
  The body's run at the first tile of a batch (the branch taken): from the seven inputs' staging memrefs at their blocks
  and the two outputs' and the two scratch buffers at anything, the body runs to its return with the inputs as they were and
  each written buffer at a list of stores over what it held: eight stores of 1024 × 256 columns into the transposed keys,
  eight of 256 × 1024 rows into the values, one whole store into each output. The lists are the witnesses the run finds.
-/
import proofs.«147508_j77403900608902_2_alg».proof.Proof.WordBody.Runs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores each written buffer ends with at a batch's first tile, with the run that leaves them. -/
noncomputable def kernelRunA (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : cond0 i)
    (x0 : Vec F S1x256x1024 .f32) (x1 : Vec F S1x2048x1024 .f32) (x2 x3 x4 x5 : Vec F S1024x1024 .bf16) (x6 : Vec F S1024 .f32) :
    Σ' (L7 : List (View.Piece (Elt F) S1x256x1024 .f32)) (L8 : List (View.Piece (Elt F) S1x256x2048 .f32)) (LK : List (View.Piece (Elt F) S1024x2048 .bf16)), { LV : List (View.Piece (Elt F) S2048x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ (∃ d, owns (c : Thread nD τ) arg10 fullShare d)
            ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f L8)
                ∗ (∃ f, arg11.view.loc (c : Thread nD τ) ↦[arg11.view.set]{fullShare} arg11.view.writes (Elt F) f LK)
                ∗ (∃ f, arg12.view.loc (c : Thread nD τ) ↦[arg12.view.set]{fullShare} arg12.view.writes (Elt F) f LV)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %g7, -, H7⟩, ⟨%d8, %g8, -, H8⟩, ⟨%dK, %gK, -, HK⟩, ⟨%dV, %gV, -, HV⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [HK]; · iexists _; iexact HK
    iexists _; iexact HV

end Cert.Kernel.Body

end
-- ==== Proof.WordBody.RunB.lean ====
/-
  The body's run at a later tile of a batch (the branch not taken): from the seven inputs' staging memrefs at their blocks,
  the two scratch buffers at what the point before left in them, and the two outputs' at anything, the body runs to its
  return with the inputs and both scratch buffers as they were and each output's buffer at one whole store over what it held.
-/
import proofs.«147508_j77403900608902_2_alg».proof.Proof.WordBody.RunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores each output's buffer ends with at a later tile, with the run that leaves them. -/
noncomputable def kernelRunB (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : ¬cond0 i)
    (x0 : Vec F S1x256x1024 .f32) (x1 : Vec F S1x2048x1024 .f32) (x2 x3 x4 x5 : Vec F S1024x1024 .bf16) (x6 : Vec F S1024 .f32) (xK : Vec F S1024x2048 .bf16) (xV : Vec F S2048x1024 .bf16) :
    Σ' (L7 : List (View.Piece (Elt F) S1x256x1024 .f32)), { L8 : List (View.Piece (Elt F) S1x256x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ (∃ d, owns (c : Thread nD τ) arg10 fullShare d)
            ∗ owns (c : Thread nD τ) arg11 fullShare xK ∗ owns (c : Thread nD τ) arg12 fullShare xV
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f L8)
                ∗ owns (c : Thread nD τ) arg11 fullShare xK ∗ owns (c : Thread nD τ) arg12 fullShare xV) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %g7, -, H7⟩, ⟨%d8, %g8, -, H8⟩, ⟨%fK, %hfK, HK⟩, ⟨%fV, %hfV, HV⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg11.eq_unread hfK; obtain rfl := harg12.eq_unread hfV
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [HK]
    · iexists _; isplitr; · ipureintro; exact harg11.read_unread _
      iexact HK
    iexists _; isplitr; · ipureintro; exact harg12.read_unread _
    iexact HV

end Cert.Kernel.Body

end
-- ==== Proof.WordBody.Frame.lean ====
/-
  The attention kernel's frame: it runs to the end, faults nowhere, and leaves its argument arrays unchanged; and, for the
  value claim, what each output array holds after the run, named.

  What a case's stores leave in a buffer is read back over arbitrary contents, which is legitimate once the stores cover the
  buffer: the eight column blocks tile the transposed keys, the eight row blocks tile the values, one whole store covers each
  output block. What the buffers hold after point t is then defined by recursion on t: at a batch's first tile everything
  is computed from the point's input blocks; at a later tile the outputs are computed from the input blocks and from the
  two scratch buffers as the point before left them, and the scratch buffers are left as they were. The region's
  invariant tracks exactly that: before the first point the scratch holds anything, afterwards what the point before left.
-/
import proofs.«147508_j77403900608902_2_alg».proof.Proof.WordBody.RunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, and that its stores cover -/

/-- First tile: the output block, the attention block, the transposed keys and the values, each its stores read back. -/
def out7A (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : cond0 i) (x0 : Vec F S1x256x1024 .f32) (x1 : Vec F S1x2048x1024 .f32) (x2 x3 x4 x5 : Vec F S1024x1024 .bf16) (x6 : Vec F S1024 .f32) : Vec F S1x256x1024 .f32 :=
  VO7.read (Elt F) (VO7.writes (Elt F) VO7.junk (kernelRunA c i arg2 harg2 arg3 harg3 arg4 harg4 arg5 harg5 arg6 harg6 arg7 harg7 arg8 harg8 arg9 harg9 arg10 harg10 arg11 harg11 arg12 harg12 hc0 x0 x1 x2 x3 x4 x5 x6).1)
def out8A (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : cond0 i) (x0 : Vec F S1x256x1024 .f32) (x1 : Vec F S1x2048x1024 .f32) (x2 x3 x4 x5 : Vec F S1024x1024 .bf16) (x6 : Vec F S1024 .f32) : Vec F S1x256x2048 .f32 :=
  VO8.read (Elt F) (VO8.writes (Elt F) VO8.junk (kernelRunA c i arg2 harg2 arg3 harg3 arg4 harg4 arg5 harg5 arg6 harg6 arg7 harg7 arg8 harg8 arg9 harg9 arg10 harg10 arg11 harg11 arg12 harg12 hc0 x0 x1 x2 x3 x4 x5 x6).2.1)
def soutKA (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : cond0 i) (x0 : Vec F S1x256x1024 .f32) (x1 : Vec F S1x2048x1024 .f32) (x2 x3 x4 x5 : Vec F S1024x1024 .bf16) (x6 : Vec F S1024 .f32) : Vec F S1024x2048 .bf16 :=
  VSK.read (Elt F) (VSK.writes (Elt F) VSK.junk (kernelRunA c i arg2 harg2 arg3 harg3 arg4 harg4 arg5 harg5 arg6 harg6 arg7 harg7 arg8 harg8 arg9 harg9 arg10 harg10 arg11 harg11 arg12 harg12 hc0 x0 x1 x2 x3 x4 x5 x6).2.2.1)
def soutVA (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : cond0 i) (x0 : Vec F S1x256x1024 .f32) (x1 : Vec F S1x2048x1024 .f32) (x2 x3 x4 x5 : Vec F S1024x1024 .bf16) (x6 : Vec F S1024 .f32) : Vec F S2048x1024 .bf16 :=
  VSV.read (Elt F) (VSV.writes (Elt F) VSV.junk (kernelRunA c i arg2 harg2 arg3 harg3 arg4 harg4 arg5 harg5 arg6 harg6 arg7 harg7 arg8 harg8 arg9 harg9 arg10 harg10 arg11 harg11 arg12 harg12 hc0 x0 x1 x2 x3 x4 x5 x6).2.2.2.1)

theorem cover7A (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : cond0 i) (x0 : Vec F S1x256x1024 .f32) (x1 : Vec F S1x2048x1024 .f32) (x2 x3 x4 x5 : Vec F S1024x1024 .bf16) (x6 : Vec F S1024 .f32) (y : S1x256x1024.Idx) :
    ∃ pc ∈ (kernelRunA c i arg2 harg2 arg3 harg3 arg4 harg4 arg5 harg5 arg6 harg6 arg7 harg7 arg8 harg8 arg9 harg9 arg10 harg10 arg11 harg11 arg12 harg12 hc0 x0 x1 x2 x3 x4 x5 x6).1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 hc0 x0 x1 x2 x3 x4 x5 x6).1 S1x256x1024.size (by sl_kernel_rfl) y
theorem cover8A (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : cond0 i) (x0 : Vec F S1x256x1024 .f32) (x1 : Vec F S1x2048x1024 .f32) (x2 x3 x4 x5 : Vec F S1024x1024 .bf16) (x6 : Vec F S1024 .f32) (y : S1x256x2048.Idx) :
    ∃ pc ∈ (kernelRunA c i arg2 harg2 arg3 harg3 arg4 harg4 arg5 harg5 arg6 harg6 arg7 harg7 arg8 harg8 arg9 harg9 arg10 harg10 arg11 harg11 arg12 harg12 hc0 x0 x1 x2 x3 x4 x5 x6).2.1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 hc0 x0 x1 x2 x3 x4 x5 x6).2.1 S1x256x2048.size (by sl_kernel_rfl) y
theorem coverKA (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : cond0 i) (x0 : Vec F S1x256x1024 .f32) (x1 : Vec F S1x2048x1024 .f32) (x2 x3 x4 x5 : Vec F S1024x1024 .bf16) (x6 : Vec F S1024 .f32) (y : S1024x2048.Idx) :
    ∃ pc ∈ (kernelRunA c i arg2 harg2 arg3 harg3 arg4 harg4 arg5 harg5 arg6 harg6 arg7 harg7 arg8 harg8 arg9 harg9 arg10 harg10 arg11 harg11 arg12 harg12 hc0 x0 x1 x2 x3 x4 x5 x6).2.2.1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 hc0 x0 x1 x2 x3 x4 x5 x6).2.2.1 S1024x256.size (by sl_kernel_rfl) y
theorem coverVA (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : cond0 i) (x0 : Vec F S1x256x1024 .f32) (x1 : Vec F S1x2048x1024 .f32) (x2 x3 x4 x5 : Vec F S1024x1024 .bf16) (x6 : Vec F S1024 .f32) (y : S2048x1024.Idx) :
    ∃ pc ∈ (kernelRunA c i arg2 harg2 arg3 harg3 arg4 harg4 arg5 harg5 arg6 harg6 arg7 harg7 arg8 harg8 arg9 harg9 arg10 harg10 arg11 harg11 arg12 harg12 hc0 x0 x1 x2 x3 x4 x5 x6).2.2.2.1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 hc0 x0 x1 x2 x3 x4 x5 x6).2.2.2.1 S256x1024.size (by sl_kernel_rfl) y

/-- A later tile: the output block and the attention block, from the input blocks and the scratch contents. -/
def out7B (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : ¬cond0 i) (x0 : Vec F S1x256x1024 .f32) (x1 : Vec F S1x2048x1024 .f32) (x2 x3 x4 x5 : Vec F S1024x1024 .bf16) (x6 : Vec F S1024 .f32) (xK : Vec F S1024x2048 .bf16) (xV : Vec F S2048x1024 .bf16) : Vec F S1x256x1024 .f32 :=
  VO7.read (Elt F) (VO7.writes (Elt F) VO7.junk (kernelRunB c i arg2 harg2 arg3 harg3 arg4 harg4 arg5 harg5 arg6 harg6 arg7 harg7 arg8 harg8 arg9 harg9 arg10 harg10 arg11 harg11 arg12 harg12 hc0 x0 x1 x2 x3 x4 x5 x6 xK xV).1)
def out8B (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : ¬cond0 i) (x0 : Vec F S1x256x1024 .f32) (x1 : Vec F S1x2048x1024 .f32) (x2 x3 x4 x5 : Vec F S1024x1024 .bf16) (x6 : Vec F S1024 .f32) (xK : Vec F S1024x2048 .bf16) (xV : Vec F S2048x1024 .bf16) : Vec F S1x256x2048 .f32 :=
  VO8.read (Elt F) (VO8.writes (Elt F) VO8.junk (kernelRunB c i arg2 harg2 arg3 harg3 arg4 harg4 arg5 harg5 arg6 harg6 arg7 harg7 arg8 harg8 arg9 harg9 arg10 harg10 arg11 harg11 arg12 harg12 hc0 x0 x1 x2 x3 x4 x5 x6 xK xV).2.1)

theorem cover7B (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : ¬cond0 i) (x0 : Vec F S1x256x1024 .f32) (x1 : Vec F S1x2048x1024 .f32) (x2 x3 x4 x5 : Vec F S1024x1024 .bf16) (x6 : Vec F S1024 .f32) (xK : Vec F S1024x2048 .bf16) (xV : Vec F S2048x1024 .bf16) (y : S1x256x1024.Idx) :
    ∃ pc ∈ (kernelRunB c i arg2 harg2 arg3 harg3 arg4 harg4 arg5 harg5 arg6 harg6 arg7 harg7 arg8 harg8 arg9 harg9 arg10 harg10 arg11 harg11 arg12 harg12 hc0 x0 x1 x2 x3 x4 x5 x6 xK xV).1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 hc0 x0 x1 x2 x3 x4 x5 x6 xK xV).1 S1x256x1024.size (by sl_kernel_rfl) y
theorem cover8B (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : ¬cond0 i) (x0 : Vec F S1x256x1024 .f32) (x1 : Vec F S1x2048x1024 .f32) (x2 x3 x4 x5 : Vec F S1024x1024 .bf16) (x6 : Vec F S1024 .f32) (xK : Vec F S1024x2048 .bf16) (xV : Vec F S2048x1024 .bf16) (y : S1x256x2048.Idx) :
    ∃ pc ∈ (kernelRunB c i arg2 harg2 arg3 harg3 arg4 harg4 arg5 harg5 arg6 harg6 arg7 harg7 arg8 harg8 arg9 harg9 arg10 harg10 arg11 harg11 arg12 harg12 hc0 x0 x1 x2 x3 x4 x5 x6 xK xV).2.1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 hc0 x0 x1 x2 x3 x4 x5 x6 xK xV).2.1 S1x256x2048.size (by sl_kernel_rfl) y

/-! ## What the buffers hold after each point -/

/-- After the body at position `n`: the output block, the attention block, the transposed keys, the values. -/
def outsAt (c : Dev nD) : (n : ℕ) → n < cfg0.N → Vec F S1x256x1024 .f32 × Vec F S1x256x2048 .f32 × Vec F S1024x2048 .bf16 × Vec F S2048x1024 .bf16
  | 0, hn =>
    (out7A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scK (Memref.isWhole_whole _) scV (Memref.isWhole_whole _) ((hcond0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩),
     out8A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scK (Memref.isWhole_whole _) scV (Memref.isWhole_whole _) ((hcond0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩),
     soutKA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scK (Memref.isWhole_whole _) scV (Memref.isWhole_whole _) ((hcond0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩),
     soutVA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scK (Memref.isWhole_whole _) scV (Memref.isWhole_whole _) ((hcond0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 8 = 0 then
      (out7A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scK (Memref.isWhole_whole _) scV (Memref.isWhole_whole _) ((hcond0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩),
       out8A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scK (Memref.isWhole_whole _) scV (Memref.isWhole_whole _) ((hcond0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩),
       soutKA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scK (Memref.isWhole_whole _) scV (Memref.isWhole_whole _) ((hcond0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩),
       soutVA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scK (Memref.isWhole_whole _) scV (Memref.isWhole_whole _) ((hcond0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      (out7B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scK (Memref.isWhole_whole _) scV (Memref.isWhole_whole _) (fun h => h0 ((hcond0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn)).2.2.1 (outsAt c n (Nat.lt_of_succ_lt hn)).2.2.2,
       out8B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scK (Memref.isWhole_whole _) scV (Memref.isWhole_whole _) (fun h => h0 ((hcond0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn)).2.2.1 (outsAt c n (Nat.lt_of_succ_lt hn)).2.2.2,
       (outsAt c n (Nat.lt_of_succ_lt hn)).2.2.1,
       (outsAt c n (Nat.lt_of_succ_lt hn)).2.2.2)

/-- `outsAt` at a batch's first tile: computed from the point's input blocks alone. -/
theorem outsAt_A (c : Dev nD) (t : Fin cfg0.N) (h0 : t.val % 8 = 0) :
    outsAt m c t.val t.isLt =
      (out7A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) ((hcond0 t).mpr h0) (iblk m c 0 t) (iblk m c 1 t) (iblk m c 2 t) (iblk m c 3 t) (iblk m c 4 t) (iblk m c 5 t) (iblk m c 6 t),
       out8A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) ((hcond0 t).mpr h0) (iblk m c 0 t) (iblk m c 1 t) (iblk m c 2 t) (iblk m c 3 t) (iblk m c 4 t) (iblk m c 5 t) (iblk m c 6 t),
       soutKA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) ((hcond0 t).mpr h0) (iblk m c 0 t) (iblk m c 1 t) (iblk m c 2 t) (iblk m c 3 t) (iblk m c 4 t) (iblk m c 5 t) (iblk m c 6 t),
       soutVA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) ((hcond0 t).mpr h0) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans rfl

/-- `outsAt` at a later tile: the outputs from the input blocks and the scratch as the point before left it, the scratch kept. -/
theorem outsAt_B (c : Dev nD) (t : Fin cfg0.N) (h0 : ¬t.val % 8 = 0) :
    outsAt m c t.val t.isLt =
      (out7B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) (fun h => h0 ((hcond0 t).mp h)) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)).2.2.1 (outsAt m c (t.val - 1) (Nat.lt_of_le_of_lt (Nat.sub_le _ _) t.isLt)).2.2.2,
       out8B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) (fun h => h0 ((hcond0 t).mp h)) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)).2.2.1 (outsAt m c (t.val - 1) (Nat.lt_of_le_of_lt (Nat.sub_le _ _) t.isLt)).2.2.2,
       (outsAt m c (t.val - 1) (Nat.lt_of_le_of_lt (Nat.sub_le _ _) t.isLt)).2.2.1,
       (outsAt m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region's invariant before position `n`: before the first point both scratch buffers at anything; afterwards each at
    what the point before left in it; the generator register at some state throughout. -/
def PhiS (c : Dev nD) : (n : ℕ) → n ≤ cfg0.N → sProp 𝕄
  | 0, _ => Pipeline.ΦA spec0 c
  | n + 1, hn => iprop(iprop(owns (c : Thread nD τ) scK fullShare ((outsAt m c n hn).2.2.1) ∗ owns (c : Thread nD τ) scV fullShare ((outsAt m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scK fullShare ((outsAt m c n hn).2.2.1) ∗ owns (c : Thread nD τ) scV fullShare ((outsAt m c n hn).2.2.2)) ∗ (∃ r, prngReg c r)) := rfl

theorem PhiS_pos (c : Dev nD) (n : ℕ) (h : n ≤ cfg0.N) (hz : n ≠ 0) :
    PhiS m c n h = iprop(iprop(owns (c : Thread nD τ) scK fullShare ((outsAt m c (n - 1) (by omega)).2.2.1) ∗ owns (c : Thread nD τ) scV fullShare ((outsAt m c (n - 1) (by omega)).2.2.2)) ∗ (∃ r, prngReg c r)) := by
  cases n with
  | zero => exact absurd rfl hz
  | succ n => rfl

/-! ## The pipeline's proof data -/

/-- The arrays as the region finds them; after the body at point `t` each input's buffer at its block and the two outputs'
    at `outsAt`'s first two components; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t.val t.isLt).1
    | ⟨8, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = (outsAt m c t.val t.isLt).1 := by dsimp only [dats]
theorem after8 (c : Dev nD) (t : Fin cfg0.N) : (dats m 0 c).after 8 t = (outsAt m c t.val t.isLt).2.1 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t)

/-- A window that is never idle is left exactly at the proof data's contents. -/
theorem leaves_live (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [liveAt w t]

set_option maxHeartbeats 4800000 in
/-- The body at any point: the inputs' memrefs hold their blocks; the point is a batch's first tile or a later one; the
    invariant hands the body the scratch (at anything at a first tile, at what the point before left otherwise) and takes it
    back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ]
  simp only [leaves_live, after0, after1, after2, after3, after4, after5, after6, after7, after8]
  have hN : t.val < 128 := lt_of_lt_of_eq t.isLt (show cfg0.N = 128 from N_0)
  by_cases h0 : t.val % 8 = 0
  · rw [outsAt_A m c t h0]
    unfold out7A out8A soutKA soutVA; (try dsimp only)
    by_cases hz : t.val = 0
    · rw [PhiS_castSucc m c t, PhiS_zero m c _ _ hz, PhiA0_eq]
      iintro ⟨⟨⟨HK, HV⟩, Hg⟩, Ho, H0, H1, H2, H3, H4, H5, H6, ⟨%d7, H7⟩, ⟨%d8, H8⟩⟩
      iapply ((kernelRunA c (grid0.coords t) _ _ _ _ _ _ _ _ _ _ _ _ _ _ _ _ _ _ _ _ _ _ ((hcond0 t).mpr h0) (iblk m c 0 t) (iblk m c 1 t) (iblk m c 2 t) (iblk m c 3 t) (iblk m c 4 t) (iblk m c 5 t) (iblk m c 6 t)).2.2.2.2 Set.univ _)
      isplitl [H0]; · icases H0 with ⟨%d, H0⟩; iexact H0
      isplitl [H1]; · icases H1 with ⟨%d, H1⟩; iexact H1
      isplitl [H2]; · icases H2 with ⟨%d, H2⟩; iexact H2
      isplitl [H3]; · icases H3 with ⟨%d, H3⟩; iexact H3
      isplitl [H4]; · icases H4 with ⟨%d, H4⟩; iexact H4
      isplitl [H5]; · icases H5 with ⟨%d, H5⟩; iexact H5
      isplitl [H6]; · icases H6 with ⟨%d, H6⟩; iexact H6
      isplitl [H7]; · iexists _; iexact H7
      isplitl [H8]; · iexists _; iexact H8
      isplitl [HK]; · iexact HK
      isplitl [HV]; · iexact HV
      iintro ⟨H0, H1, H2, H3, H4, H5, H6, ⟨%e7, H7⟩, ⟨%e8, H8⟩, ⟨%eK, HK⟩, ⟨%eV, HV⟩⟩
      isplitl [HK HV Hg]
      · isplitl [HK HV]
        · isplitl [HK]
          · unfold owns; iexists _; isplitr
            swap; · iexact HK
            ipureintro; exact View.read_writes_of_cover _ _ _ _ _ (coverKA c _ _ _ _ _ _ _ _ _ _ _ _ _ _ _ _ _ _ _ _ _ _ _ _ _ _ _ _ _ _ _)
          · unfold owns; iexists _; isplitr
            swap; · iexact HV
            ipureintro; exact View.read_writes_of_cover _ _ _ _ _ (coverVA c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover7A c _ _ _ _ _ _ _ _ _ _ _ _ _ _ _ _ _ _ _ _ _ _ _ _ _ _ _ _ _ _ _)
      · unfold owns; iexists _; isplitr
        swap; · iexact H8
        ipureintro; exact View.read_writes_of_cover _ _ _ _ _ (cover8A c _ _ _ _ _ _ _ _ _ _ _ _ _ _ _ _ _ _ _ _ _ _ _ _ _ _ _ _ _ _ _)
    · rw [PhiS_castSucc m c t, PhiS_pos m c _ _ hz]
      iintro ⟨⟨⟨HK, HV⟩, Hg⟩, Ho, H0, H1, H2, H3, H4, H5, H6, ⟨%d7, H7⟩, ⟨%d8, H8⟩⟩
      iapply ((kernelRunA c (grid0.coords t) _ _ _ _ _ _ _ _ _ _ _ _ _ _ _ _ _ _ _ _ _ _ ((hcond0 t).mpr h0) (iblk m c 0 t) (iblk m c 1 t) (iblk m c 2 t) (iblk m c 3 t) (iblk m c 4 t) (iblk m c 5 t) (iblk m c 6 t)).2.2.2.2 Set.univ _)
      isplitl [H0]; · icases H0 with ⟨%d, H0⟩; iexact H0
      isplitl [H1]; · icases H1 with ⟨%d, H1⟩; iexact H1
      isplitl [H2]; · icases H2 with ⟨%d, H2⟩; iexact H2
      isplitl [H3]; · icases H3 with ⟨%d, H3⟩; iexact H3
      isplitl [H4]; · icases H4 with ⟨%d, H4⟩; iexact H4
      isplitl [H5]; · icases H5 with ⟨%d, H5⟩; iexact H5
      isplitl [H6]; · icases H6 with ⟨%d, H6⟩; iexact H6
      isplitl [H7]; · iexists _; iexact H7
      isplitl [H8]; · iexists _; iexact H8
      isplitl [HK]; · iexists _; iexact HK
      isplitl [HV]; · iexists _; iexact HV
      iintro ⟨H0, H1, H2, H3, H4, H5, H6, ⟨%e7, H7⟩, ⟨%e8, H8⟩, ⟨%eK, HK⟩, ⟨%eV, HV⟩⟩
      isplitl [HK HV Hg]
      · isplitl [HK HV]
        · isplitl [HK]
          · unfold owns; iexists _; isplitr
            swap; · iexact HK
            ipureintro; exact View.read_writes_of_cover _ _ _ _ _ (coverKA c _ _ _ _ _ _ _ _ _ _ _ _ _ _ _ _ _ _ _ _ _ _ _ _ _ _ _ _ _ _ _)
          · unfold owns; iexists _; isplitr
            swap; · iexact HV
            ipureintro; exact View.read_writes_of_cover _ _ _ _ _ (coverVA c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover7A c _ _ _ _ _ _ _ _ _ _ _ _ _ _ _ _ _ _ _ _ _ _ _ _ _ _ _ _ _ _ _)
      · unfold owns; iexists _; isplitr
        swap; · iexact H8
        ipureintro; exact View.read_writes_of_cover _ _ _ _ _ (cover8A c _ _ _ _ _ _ _ _ _ _ _ _ _ _ _ _ _ _ _ _ _ _ _ _ _ _ _ _ _ _ _)
  · have hz : t.val ≠ 0 := fun h => h0 (by rw [h])
    rw [outsAt_B m c t h0]
    unfold out7B out8B; (try dsimp only)
    rw [PhiS_castSucc m c t, PhiS_pos m c _ _ hz]
    iintro ⟨⟨⟨HK, HV⟩, Hg⟩, Ho, H0, H1, H2, H3, H4, H5, H6, ⟨%d7, H7⟩, ⟨%d8, H8⟩⟩
    iapply ((kernelRunB c (grid0.coords t) _ _ _ _ _ _ _ _ _ _ _ _ _ _ _ _ _ _ _ _ _ _ (fun h => h0 ((hcond0 t).mp h)) (iblk m c 0 t) (iblk m c 1 t) (iblk m c 2 t) (iblk m c 3 t) (iblk m c 4 t) (iblk m c 5 t) (iblk m c 6 t) _ _).2.2 Set.univ _)
    isplitl [H0]; · icases H0 with ⟨%d, H0⟩; iexact H0
    isplitl [H1]; · icases H1 with ⟨%d, H1⟩; iexact H1
    isplitl [H2]; · icases H2 with ⟨%d, H2⟩; iexact H2
    isplitl [H3]; · icases H3 with ⟨%d, H3⟩; iexact H3
    isplitl [H4]; · icases H4 with ⟨%d, H4⟩; iexact H4
    isplitl [H5]; · icases H5 with ⟨%d, H5⟩; iexact H5
    isplitl [H6]; · icases H6 with ⟨%d, H6⟩; iexact H6
    isplitl [H7]; · iexists _; iexact H7
    isplitl [H8]; · iexists _; iexact H8
    isplitl [HK]; · iexact HK
    isplitl [HV]; · iexact HV
    iintro ⟨H0, H1, H2, H3, H4, H5, H6, ⟨%e7, H7⟩, ⟨%e8, H8⟩, HK, HV⟩
    isplitl [HK HV Hg]
    · isplitl [HK HV]
      · isplitl [HK]; · iexact HK
        iexact HV
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover7B c _ _ _ _ _ _ _ _ _ _ _ _ _ _ _ _ _ _ _ _ _ _ _ _ _ _ _ _ _ _ _ _ _)
    · unfold owns; iexists _; isplitr
      swap; · iexact H8
      ipureintro; exact View.read_writes_of_cover _ _ _ _ _ (cover8B c _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HK, HV⟩, Hg⟩
  isplitl [HK HV]
  · isplitl [HK]; · iexists _; iexact HK
    iexists _; iexact HV
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- From any memory with zero counters every weakly fair execution of @main terminates, and every final state has each
    array of the pipeline at what the proof data computes and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Body

end
-- ==== Proof.IdealBody.Runs.lean ====
/-
  What the two runs of the attention kernel's body share.

  The grid is 16 batches × 8 tiles of 256 query rows, walked in order: point t is batch t / 8, tile t % 8. The body has one
  branch, on the tile coordinate being zero: at a batch's first tile it projects the batch's 2048 rows of x, 256 rows at a
  time, into two scratch buffers (the keys transposed, [1024, 2048], and the values, [2048, 1024]); at every tile it then
  reads both scratch buffers whole. So there are two cases: the first tile of a batch, where the scratch is rebuilt from
  the x block and what it held before does not matter, and the other seven, where the scratch holds what the point before
  left. Here: the branch condition decided over the grid, that no window is ever idle, and the names of the staging and
  scratch memrefs the runs are stated over.
-/
import proofs.«147508_j77403900608902_2_alg».proof.Proof.Gen.KernelIdeal.Launch
import proofs.«147508_j77403900608902_2_alg».proof.Proof.Gen.KernelIdeal.Skeleton
import proofs.«147508_j77403900608902_2_alg».proof.Proof.Gen.KernelIdeal.Points
import proofs.«147508_j77403900608902_2_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's one branch (the tile coordinate is zero), as the body computes it from the grid coordinates. -/
abbrev cond0 (i : grid0.Coords) : Prop :=
  (Scalar.cmpi .ne (Scalar.extui (Scalar.cmpi .eq (BitVec.ofNat 32 (i 1).val) 0#32)) 0#32) = 1#1

/-- It holds at the first tile of each batch: the points ≡ 0 (mod 8). -/
theorem hcond0 : ∀ t : Fin cfg0.N, cond0 (grid0.coords t) ↔ t.val % 8 = 0 :=
  (by decide +kernel : ∀ t : Fin grid0.N, cond0 (grid0.coords t) ↔ t.val % 8 = 0)

/-- No window is idle at any point: the body loads every input and stores both outputs at every point. -/
theorem liveAt (w : Fin cfg0.W) : ∀ t : Fin cfg0.N, cfg0.idle w (grid0.coords t) = false := by
  revert w; decide +kernel

/-- Each window's current staging memref at point `t`, spelled as the pipeline passes it, and its wholeness. -/
abbrev ms0 (t : Fin cfg0.N) : Memref sig .tc .vmem S1x256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1024 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1024 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x256x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x256x2048 .f32 := win0_8.stage (cfg0.slots t 8)
abbrev hs8 (t : Fin cfg0.N) : (ms8 t).IsWhole := hstage0_8 ((cfg0.slots t 8).cast nbuf0_8)

/-- The two scratch operands: the keys of the current batch, transposed, and its values. -/
abbrev scK : Memref sig .tc .vmem S1024x2048 .bf16 := Memref.whole cc0_scratch0
abbrev scV : Memref sig .tc .vmem S2048x1024 .bf16 := Memref.whole cc0_scratch1

/-- One staging buffer of each output window, and the scratch buffers, as views: what a list of stores leaves in a buffer
    is stated through them (the choice of staging buffer does not matter once the stores cover it). -/
abbrev VO7 : View sig .tc .vmem S1x256x1024 .f32 := (Memref.whole cc0_stg7_0 : Memref sig .tc .vmem S1x256x1024 .f32).view
abbrev VO8 : View sig .tc .vmem S1x256x2048 .f32 := (Memref.whole cc0_stg8_0 : Memref sig .tc .vmem S1x256x2048 .f32).view
abbrev VSK : View sig .tc .vmem S1024x2048 .bf16 := scK.view
abbrev VSV : View sig .tc .vmem S2048x1024 .bf16 := scV.view

/-- What the region's invariant hands the body when nothing is tracked: both scratch buffers at some contents, and the
    generator register at some state. -/
theorem PhiA0_eq (c : Dev nD) :
    (Pipeline.ΦA spec0 c : sProp 𝕄)
      = iprop(iprop((∃ d, owns (c : Thread nD τ) scK fullShare d) ∗ (∃ d, owns (c : Thread nD τ) scV fullShare d)) ∗ (∃ r, prngReg c r)) := by
  unfold Pipeline.ΦA; rw [scopedRest0_eq]; simp only [scK, scV, owns_whole]; try rfl

end Cert.KernelIdeal.Body

end
-- ==== Proof.IdealBody.RunA.lean ====
/-
  The body's run at the first tile of a batch (the branch taken): from the seven inputs' staging memrefs at their blocks
  and the two outputs' and the two scratch buffers at anything, the body runs to its return with the inputs as they were and
  each written buffer at a list of stores over what it held: eight stores of 1024 × 256 columns into the transposed keys,
  eight of 256 × 1024 rows into the values, one whole store into each output. The lists are the witnesses the run finds.
-/
import proofs.«147508_j77403900608902_2_alg».proof.Proof.IdealBody.Runs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores each written buffer ends with at a batch's first tile, with the run that leaves them. -/
noncomputable def kernelRunA (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : cond0 i)
    (x0 : Vec F S1x256x1024 .f32) (x1 : Vec F S1x2048x1024 .f32) (x2 x3 x4 x5 : Vec F S1024x1024 .bf16) (x6 : Vec F S1024 .f32) :
    Σ' (L7 : List (View.Piece (Elt F) S1x256x1024 .f32)) (L8 : List (View.Piece (Elt F) S1x256x2048 .f32)) (LK : List (View.Piece (Elt F) S1024x2048 .bf16)), { LV : List (View.Piece (Elt F) S2048x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ (∃ d, owns (c : Thread nD τ) arg10 fullShare d)
            ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f L8)
                ∗ (∃ f, arg11.view.loc (c : Thread nD τ) ↦[arg11.view.set]{fullShare} arg11.view.writes (Elt F) f LK)
                ∗ (∃ f, arg12.view.loc (c : Thread nD τ) ↦[arg12.view.set]{fullShare} arg12.view.writes (Elt F) f LV)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %g7, -, H7⟩, ⟨%d8, %g8, -, H8⟩, ⟨%dK, %gK, -, HK⟩, ⟨%dV, %gV, -, HV⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [HK]; · iexists _; iexact HK
    iexists _; iexact HV

end Cert.KernelIdeal.Body

end
-- ==== Proof.IdealBody.RunB.lean ====
/-
  The body's run at a later tile of a batch (the branch not taken): from the seven inputs' staging memrefs at their blocks,
  the two scratch buffers at what the point before left in them, and the two outputs' at anything, the body runs to its
  return with the inputs and both scratch buffers as they were and each output's buffer at one whole store over what it held.
-/
import proofs.«147508_j77403900608902_2_alg».proof.Proof.IdealBody.RunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores each output's buffer ends with at a later tile, with the run that leaves them. -/
noncomputable def kernelRunB (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : ¬cond0 i)
    (x0 : Vec F S1x256x1024 .f32) (x1 : Vec F S1x2048x1024 .f32) (x2 x3 x4 x5 : Vec F S1024x1024 .bf16) (x6 : Vec F S1024 .f32) (xK : Vec F S1024x2048 .bf16) (xV : Vec F S2048x1024 .bf16) :
    Σ' (L7 : List (View.Piece (Elt F) S1x256x1024 .f32)), { L8 : List (View.Piece (Elt F) S1x256x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ (∃ d, owns (c : Thread nD τ) arg10 fullShare d)
            ∗ owns (c : Thread nD τ) arg11 fullShare xK ∗ owns (c : Thread nD τ) arg12 fullShare xV
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f L8)
                ∗ owns (c : Thread nD τ) arg11 fullShare xK ∗ owns (c : Thread nD τ) arg12 fullShare xV) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %g7, -, H7⟩, ⟨%d8, %g8, -, H8⟩, ⟨%fK, %hfK, HK⟩, ⟨%fV, %hfV, HV⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg11.eq_unread hfK; obtain rfl := harg12.eq_unread hfV
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [HK]
    · iexists _; isplitr; · ipureintro; exact harg11.read_unread _
      iexact HK
    iexists _; isplitr; · ipureintro; exact harg12.read_unread _
    iexact HV

end Cert.KernelIdeal.Body

end
-- ==== Proof.IdealBody.Frame.lean ====
/-
  The attention kernel's frame: it runs to the end, faults nowhere, and leaves its argument arrays unchanged; and, for the
  value claim, what each output array holds after the run, named.

  What a case's stores leave in a buffer is read back over arbitrary contents, which is legitimate once the stores cover the
  buffer: the eight column blocks tile the transposed keys, the eight row blocks tile the values, one whole store covers each
  output block. What the buffers hold after point t is then defined by recursion on t: at a batch's first tile everything
  is computed from the point's input blocks; at a later tile the outputs are computed from the input blocks and from the
  two scratch buffers as the point before left them, and the scratch buffers are left as they were. The region's
  invariant tracks exactly that: before the first point the scratch holds anything, afterwards what the point before left.
-/
import proofs.«147508_j77403900608902_2_alg».proof.Proof.IdealBody.RunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, and that its stores cover -/

/-- First tile: the output block, the attention block, the transposed keys and the values, each its stores read back. -/
def out7A (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : cond0 i) (x0 : Vec F S1x256x1024 .f32) (x1 : Vec F S1x2048x1024 .f32) (x2 x3 x4 x5 : Vec F S1024x1024 .bf16) (x6 : Vec F S1024 .f32) : Vec F S1x256x1024 .f32 :=
  VO7.read (Elt F) (VO7.writes (Elt F) VO7.junk (kernelRunA c i arg2 harg2 arg3 harg3 arg4 harg4 arg5 harg5 arg6 harg6 arg7 harg7 arg8 harg8 arg9 harg9 arg10 harg10 arg11 harg11 arg12 harg12 hc0 x0 x1 x2 x3 x4 x5 x6).1)
def out8A (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : cond0 i) (x0 : Vec F S1x256x1024 .f32) (x1 : Vec F S1x2048x1024 .f32) (x2 x3 x4 x5 : Vec F S1024x1024 .bf16) (x6 : Vec F S1024 .f32) : Vec F S1x256x2048 .f32 :=
  VO8.read (Elt F) (VO8.writes (Elt F) VO8.junk (kernelRunA c i arg2 harg2 arg3 harg3 arg4 harg4 arg5 harg5 arg6 harg6 arg7 harg7 arg8 harg8 arg9 harg9 arg10 harg10 arg11 harg11 arg12 harg12 hc0 x0 x1 x2 x3 x4 x5 x6).2.1)
def soutKA (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : cond0 i) (x0 : Vec F S1x256x1024 .f32) (x1 : Vec F S1x2048x1024 .f32) (x2 x3 x4 x5 : Vec F S1024x1024 .bf16) (x6 : Vec F S1024 .f32) : Vec F S1024x2048 .bf16 :=
  VSK.read (Elt F) (VSK.writes (Elt F) VSK.junk (kernelRunA c i arg2 harg2 arg3 harg3 arg4 harg4 arg5 harg5 arg6 harg6 arg7 harg7 arg8 harg8 arg9 harg9 arg10 harg10 arg11 harg11 arg12 harg12 hc0 x0 x1 x2 x3 x4 x5 x6).2.2.1)
def soutVA (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : cond0 i) (x0 : Vec F S1x256x1024 .f32) (x1 : Vec F S1x2048x1024 .f32) (x2 x3 x4 x5 : Vec F S1024x1024 .bf16) (x6 : Vec F S1024 .f32) : Vec F S2048x1024 .bf16 :=
  VSV.read (Elt F) (VSV.writes (Elt F) VSV.junk (kernelRunA c i arg2 harg2 arg3 harg3 arg4 harg4 arg5 harg5 arg6 harg6 arg7 harg7 arg8 harg8 arg9 harg9 arg10 harg10 arg11 harg11 arg12 harg12 hc0 x0 x1 x2 x3 x4 x5 x6).2.2.2.1)

theorem cover7A (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : cond0 i) (x0 : Vec F S1x256x1024 .f32) (x1 : Vec F S1x2048x1024 .f32) (x2 x3 x4 x5 : Vec F S1024x1024 .bf16) (x6 : Vec F S1024 .f32) (y : S1x256x1024.Idx) :
    ∃ pc ∈ (kernelRunA c i arg2 harg2 arg3 harg3 arg4 harg4 arg5 harg5 arg6 harg6 arg7 harg7 arg8 harg8 arg9 harg9 arg10 harg10 arg11 harg11 arg12 harg12 hc0 x0 x1 x2 x3 x4 x5 x6).1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 hc0 x0 x1 x2 x3 x4 x5 x6).1 S1x256x1024.size (by sl_kernel_rfl) y
theorem cover8A (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : cond0 i) (x0 : Vec F S1x256x1024 .f32) (x1 : Vec F S1x2048x1024 .f32) (x2 x3 x4 x5 : Vec F S1024x1024 .bf16) (x6 : Vec F S1024 .f32) (y : S1x256x2048.Idx) :
    ∃ pc ∈ (kernelRunA c i arg2 harg2 arg3 harg3 arg4 harg4 arg5 harg5 arg6 harg6 arg7 harg7 arg8 harg8 arg9 harg9 arg10 harg10 arg11 harg11 arg12 harg12 hc0 x0 x1 x2 x3 x4 x5 x6).2.1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 hc0 x0 x1 x2 x3 x4 x5 x6).2.1 S1x256x2048.size (by sl_kernel_rfl) y
theorem coverKA (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : cond0 i) (x0 : Vec F S1x256x1024 .f32) (x1 : Vec F S1x2048x1024 .f32) (x2 x3 x4 x5 : Vec F S1024x1024 .bf16) (x6 : Vec F S1024 .f32) (y : S1024x2048.Idx) :
    ∃ pc ∈ (kernelRunA c i arg2 harg2 arg3 harg3 arg4 harg4 arg5 harg5 arg6 harg6 arg7 harg7 arg8 harg8 arg9 harg9 arg10 harg10 arg11 harg11 arg12 harg12 hc0 x0 x1 x2 x3 x4 x5 x6).2.2.1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 hc0 x0 x1 x2 x3 x4 x5 x6).2.2.1 S1024x256.size (by sl_kernel_rfl) y
theorem coverVA (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : cond0 i) (x0 : Vec F S1x256x1024 .f32) (x1 : Vec F S1x2048x1024 .f32) (x2 x3 x4 x5 : Vec F S1024x1024 .bf16) (x6 : Vec F S1024 .f32) (y : S2048x1024.Idx) :
    ∃ pc ∈ (kernelRunA c i arg2 harg2 arg3 harg3 arg4 harg4 arg5 harg5 arg6 harg6 arg7 harg7 arg8 harg8 arg9 harg9 arg10 harg10 arg11 harg11 arg12 harg12 hc0 x0 x1 x2 x3 x4 x5 x6).2.2.2.1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 hc0 x0 x1 x2 x3 x4 x5 x6).2.2.2.1 S256x1024.size (by sl_kernel_rfl) y

/-- A later tile: the output block and the attention block, from the input blocks and the scratch contents. -/
def out7B (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : ¬cond0 i) (x0 : Vec F S1x256x1024 .f32) (x1 : Vec F S1x2048x1024 .f32) (x2 x3 x4 x5 : Vec F S1024x1024 .bf16) (x6 : Vec F S1024 .f32) (xK : Vec F S1024x2048 .bf16) (xV : Vec F S2048x1024 .bf16) : Vec F S1x256x1024 .f32 :=
  VO7.read (Elt F) (VO7.writes (Elt F) VO7.junk (kernelRunB c i arg2 harg2 arg3 harg3 arg4 harg4 arg5 harg5 arg6 harg6 arg7 harg7 arg8 harg8 arg9 harg9 arg10 harg10 arg11 harg11 arg12 harg12 hc0 x0 x1 x2 x3 x4 x5 x6 xK xV).1)
def out8B (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : ¬cond0 i) (x0 : Vec F S1x256x1024 .f32) (x1 : Vec F S1x2048x1024 .f32) (x2 x3 x4 x5 : Vec F S1024x1024 .bf16) (x6 : Vec F S1024 .f32) (xK : Vec F S1024x2048 .bf16) (xV : Vec F S2048x1024 .bf16) : Vec F S1x256x2048 .f32 :=
  VO8.read (Elt F) (VO8.writes (Elt F) VO8.junk (kernelRunB c i arg2 harg2 arg3 harg3 arg4 harg4 arg5 harg5 arg6 harg6 arg7 harg7 arg8 harg8 arg9 harg9 arg10 harg10 arg11 harg11 arg12 harg12 hc0 x0 x1 x2 x3 x4 x5 x6 xK xV).2.1)

theorem cover7B (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : ¬cond0 i) (x0 : Vec F S1x256x1024 .f32) (x1 : Vec F S1x2048x1024 .f32) (x2 x3 x4 x5 : Vec F S1024x1024 .bf16) (x6 : Vec F S1024 .f32) (xK : Vec F S1024x2048 .bf16) (xV : Vec F S2048x1024 .bf16) (y : S1x256x1024.Idx) :
    ∃ pc ∈ (kernelRunB c i arg2 harg2 arg3 harg3 arg4 harg4 arg5 harg5 arg6 harg6 arg7 harg7 arg8 harg8 arg9 harg9 arg10 harg10 arg11 harg11 arg12 harg12 hc0 x0 x1 x2 x3 x4 x5 x6 xK xV).1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 hc0 x0 x1 x2 x3 x4 x5 x6 xK xV).1 S1x256x1024.size (by sl_kernel_rfl) y
theorem cover8B (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : ¬cond0 i) (x0 : Vec F S1x256x1024 .f32) (x1 : Vec F S1x2048x1024 .f32) (x2 x3 x4 x5 : Vec F S1024x1024 .bf16) (x6 : Vec F S1024 .f32) (xK : Vec F S1024x2048 .bf16) (xV : Vec F S2048x1024 .bf16) (y : S1x256x2048.Idx) :
    ∃ pc ∈ (kernelRunB c i arg2 harg2 arg3 harg3 arg4 harg4 arg5 harg5 arg6 harg6 arg7 harg7 arg8 harg8 arg9 harg9 arg10 harg10 arg11 harg11 arg12 harg12 hc0 x0 x1 x2 x3 x4 x5 x6 xK xV).2.1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 hc0 x0 x1 x2 x3 x4 x5 x6 xK xV).2.1 S1x256x2048.size (by sl_kernel_rfl) y

/-! ## What the buffers hold after each point -/

/-- After the body at position `n`: the output block, the attention block, the transposed keys, the values. -/
def outsAt (c : Dev nD) : (n : ℕ) → n < cfg0.N → Vec F S1x256x1024 .f32 × Vec F S1x256x2048 .f32 × Vec F S1024x2048 .bf16 × Vec F S2048x1024 .bf16
  | 0, hn =>
    (out7A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scK (Memref.isWhole_whole _) scV (Memref.isWhole_whole _) ((hcond0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩),
     out8A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scK (Memref.isWhole_whole _) scV (Memref.isWhole_whole _) ((hcond0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩),
     soutKA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scK (Memref.isWhole_whole _) scV (Memref.isWhole_whole _) ((hcond0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩),
     soutVA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scK (Memref.isWhole_whole _) scV (Memref.isWhole_whole _) ((hcond0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 8 = 0 then
      (out7A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scK (Memref.isWhole_whole _) scV (Memref.isWhole_whole _) ((hcond0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩),
       out8A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scK (Memref.isWhole_whole _) scV (Memref.isWhole_whole _) ((hcond0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩),
       soutKA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scK (Memref.isWhole_whole _) scV (Memref.isWhole_whole _) ((hcond0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩),
       soutVA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scK (Memref.isWhole_whole _) scV (Memref.isWhole_whole _) ((hcond0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      (out7B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scK (Memref.isWhole_whole _) scV (Memref.isWhole_whole _) (fun h => h0 ((hcond0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn)).2.2.1 (outsAt c n (Nat.lt_of_succ_lt hn)).2.2.2,
       out8B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scK (Memref.isWhole_whole _) scV (Memref.isWhole_whole _) (fun h => h0 ((hcond0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn)).2.2.1 (outsAt c n (Nat.lt_of_succ_lt hn)).2.2.2,
       (outsAt c n (Nat.lt_of_succ_lt hn)).2.2.1,
       (outsAt c n (Nat.lt_of_succ_lt hn)).2.2.2)

/-- `outsAt` at a batch's first tile: computed from the point's input blocks alone. -/
theorem outsAt_A (c : Dev nD) (t : Fin cfg0.N) (h0 : t.val % 8 = 0) :
    outsAt m c t.val t.isLt =
      (out7A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) ((hcond0 t).mpr h0) (iblk m c 0 t) (iblk m c 1 t) (iblk m c 2 t) (iblk m c 3 t) (iblk m c 4 t) (iblk m c 5 t) (iblk m c 6 t),
       out8A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) ((hcond0 t).mpr h0) (iblk m c 0 t) (iblk m c 1 t) (iblk m c 2 t) (iblk m c 3 t) (iblk m c 4 t) (iblk m c 5 t) (iblk m c 6 t),
       soutKA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) ((hcond0 t).mpr h0) (iblk m c 0 t) (iblk m c 1 t) (iblk m c 2 t) (iblk m c 3 t) (iblk m c 4 t) (iblk m c 5 t) (iblk m c 6 t),
       soutVA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) ((hcond0 t).mpr h0) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans rfl

/-- `outsAt` at a later tile: the outputs from the input blocks and the scratch as the point before left it, the scratch kept. -/
theorem outsAt_B (c : Dev nD) (t : Fin cfg0.N) (h0 : ¬t.val % 8 = 0) :
    outsAt m c t.val t.isLt =
      (out7B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) (fun h => h0 ((hcond0 t).mp h)) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)).2.2.1 (outsAt m c (t.val - 1) (Nat.lt_of_le_of_lt (Nat.sub_le _ _) t.isLt)).2.2.2,
       out8B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) (fun h => h0 ((hcond0 t).mp h)) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)).2.2.1 (outsAt m c (t.val - 1) (Nat.lt_of_le_of_lt (Nat.sub_le _ _) t.isLt)).2.2.2,
       (outsAt m c (t.val - 1) (Nat.lt_of_le_of_lt (Nat.sub_le _ _) t.isLt)).2.2.1,
       (outsAt m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region's invariant before position `n`: before the first point both scratch buffers at anything; afterwards each at
    what the point before left in it; the generator register at some state throughout. -/
def PhiS (c : Dev nD) : (n : ℕ) → n ≤ cfg0.N → sProp 𝕄
  | 0, _ => Pipeline.ΦA spec0 c
  | n + 1, hn => iprop(iprop(owns (c : Thread nD τ) scK fullShare ((outsAt m c n hn).2.2.1) ∗ owns (c : Thread nD τ) scV fullShare ((outsAt m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scK fullShare ((outsAt m c n hn).2.2.1) ∗ owns (c : Thread nD τ) scV fullShare ((outsAt m c n hn).2.2.2)) ∗ (∃ r, prngReg c r)) := rfl

theorem PhiS_pos (c : Dev nD) (n : ℕ) (h : n ≤ cfg0.N) (hz : n ≠ 0) :
    PhiS m c n h = iprop(iprop(owns (c : Thread nD τ) scK fullShare ((outsAt m c (n - 1) (by omega)).2.2.1) ∗ owns (c : Thread nD τ) scV fullShare ((outsAt m c (n - 1) (by omega)).2.2.2)) ∗ (∃ r, prngReg c r)) := by
  cases n with
  | zero => exact absurd rfl hz
  | succ n => rfl

/-! ## The pipeline's proof data -/

/-- The arrays as the region finds them; after the body at point `t` each input's buffer at its block and the two outputs'
    at `outsAt`'s first two components; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t.val t.isLt).1
    | ⟨8, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = (outsAt m c t.val t.isLt).1 := by dsimp only [dats]
theorem after8 (c : Dev nD) (t : Fin cfg0.N) : (dats m 0 c).after 8 t = (outsAt m c t.val t.isLt).2.1 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t)

/-- A window that is never idle is left exactly at the proof data's contents. -/
theorem leaves_live (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [liveAt w t]

set_option maxHeartbeats 4800000 in
/-- The body at any point: the inputs' memrefs hold their blocks; the point is a batch's first tile or a later one; the
    invariant hands the body the scratch (at anything at a first tile, at what the point before left otherwise) and takes it
    back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ]
  simp only [leaves_live, after0, after1, after2, after3, after4, after5, after6, after7, after8]
  have hN : t.val < 128 := lt_of_lt_of_eq t.isLt (show cfg0.N = 128 from N_0)
  by_cases h0 : t.val % 8 = 0
  · rw [outsAt_A m c t h0]
    unfold out7A out8A soutKA soutVA; (try dsimp only)
    by_cases hz : t.val = 0
    · rw [PhiS_castSucc m c t, PhiS_zero m c _ _ hz, PhiA0_eq]
      iintro ⟨⟨⟨HK, HV⟩, Hg⟩, Ho, H0, H1, H2, H3, H4, H5, H6, ⟨%d7, H7⟩, ⟨%d8, H8⟩⟩
      iapply ((kernelRunA c (grid0.coords t) _ _ _ _ _ _ _ _ _ _ _ _ _ _ _ _ _ _ _ _ _ _ ((hcond0 t).mpr h0) (iblk m c 0 t) (iblk m c 1 t) (iblk m c 2 t) (iblk m c 3 t) (iblk m c 4 t) (iblk m c 5 t) (iblk m c 6 t)).2.2.2.2 Set.univ _)
      isplitl [H0]; · icases H0 with ⟨%d, H0⟩; iexact H0
      isplitl [H1]; · icases H1 with ⟨%d, H1⟩; iexact H1
      isplitl [H2]; · icases H2 with ⟨%d, H2⟩; iexact H2
      isplitl [H3]; · icases H3 with ⟨%d, H3⟩; iexact H3
      isplitl [H4]; · icases H4 with ⟨%d, H4⟩; iexact H4
      isplitl [H5]; · icases H5 with ⟨%d, H5⟩; iexact H5
      isplitl [H6]; · icases H6 with ⟨%d, H6⟩; iexact H6
      isplitl [H7]; · iexists _; iexact H7
      isplitl [H8]; · iexists _; iexact H8
      isplitl [HK]; · iexact HK
      isplitl [HV]; · iexact HV
      iintro ⟨H0, H1, H2, H3, H4, H5, H6, ⟨%e7, H7⟩, ⟨%e8, H8⟩, ⟨%eK, HK⟩, ⟨%eV, HV⟩⟩
      isplitl [HK HV Hg]
      · isplitl [HK HV]
        · isplitl [HK]
          · unfold owns; iexists _; isplitr
            swap; · iexact HK
            ipureintro; exact View.read_writes_of_cover _ _ _ _ _ (coverKA c _ _ _ _ _ _ _ _ _ _ _ _ _ _ _ _ _ _ _ _ _ _ _ _ _ _ _ _ _ _ _)
          · unfold owns; iexists _; isplitr
            swap; · iexact HV
            ipureintro; exact View.read_writes_of_cover _ _ _ _ _ (coverVA c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover7A c _ _ _ _ _ _ _ _ _ _ _ _ _ _ _ _ _ _ _ _ _ _ _ _ _ _ _ _ _ _ _)
      · unfold owns; iexists _; isplitr
        swap; · iexact H8
        ipureintro; exact View.read_writes_of_cover _ _ _ _ _ (cover8A c _ _ _ _ _ _ _ _ _ _ _ _ _ _ _ _ _ _ _ _ _ _ _ _ _ _ _ _ _ _ _)
    · rw [PhiS_castSucc m c t, PhiS_pos m c _ _ hz]
      iintro ⟨⟨⟨HK, HV⟩, Hg⟩, Ho, H0, H1, H2, H3, H4, H5, H6, ⟨%d7, H7⟩, ⟨%d8, H8⟩⟩
      iapply ((kernelRunA c (grid0.coords t) _ _ _ _ _ _ _ _ _ _ _ _ _ _ _ _ _ _ _ _ _ _ ((hcond0 t).mpr h0) (iblk m c 0 t) (iblk m c 1 t) (iblk m c 2 t) (iblk m c 3 t) (iblk m c 4 t) (iblk m c 5 t) (iblk m c 6 t)).2.2.2.2 Set.univ _)
      isplitl [H0]; · icases H0 with ⟨%d, H0⟩; iexact H0
      isplitl [H1]; · icases H1 with ⟨%d, H1⟩; iexact H1
      isplitl [H2]; · icases H2 with ⟨%d, H2⟩; iexact H2
      isplitl [H3]; · icases H3 with ⟨%d, H3⟩; iexact H3
      isplitl [H4]; · icases H4 with ⟨%d, H4⟩; iexact H4
      isplitl [H5]; · icases H5 with ⟨%d, H5⟩; iexact H5
      isplitl [H6]; · icases H6 with ⟨%d, H6⟩; iexact H6
      isplitl [H7]; · iexists _; iexact H7
      isplitl [H8]; · iexists _; iexact H8
      isplitl [HK]; · iexists _; iexact HK
      isplitl [HV]; · iexists _; iexact HV
      iintro ⟨H0, H1, H2, H3, H4, H5, H6, ⟨%e7, H7⟩, ⟨%e8, H8⟩, ⟨%eK, HK⟩, ⟨%eV, HV⟩⟩
      isplitl [HK HV Hg]
      · isplitl [HK HV]
        · isplitl [HK]
          · unfold owns; iexists _; isplitr
            swap; · iexact HK
            ipureintro; exact View.read_writes_of_cover _ _ _ _ _ (coverKA c _ _ _ _ _ _ _ _ _ _ _ _ _ _ _ _ _ _ _ _ _ _ _ _ _ _ _ _ _ _ _)
          · unfold owns; iexists _; isplitr
            swap; · iexact HV
            ipureintro; exact View.read_writes_of_cover _ _ _ _ _ (coverVA c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover7A c _ _ _ _ _ _ _ _ _ _ _ _ _ _ _ _ _ _ _ _ _ _ _ _ _ _ _ _ _ _ _)
      · unfold owns; iexists _; isplitr
        swap; · iexact H8
        ipureintro; exact View.read_writes_of_cover _ _ _ _ _ (cover8A c _ _ _ _ _ _ _ _ _ _ _ _ _ _ _ _ _ _ _ _ _ _ _ _ _ _ _ _ _ _ _)
  · have hz : t.val ≠ 0 := fun h => h0 (by rw [h])
    rw [outsAt_B m c t h0]
    unfold out7B out8B; (try dsimp only)
    rw [PhiS_castSucc m c t, PhiS_pos m c _ _ hz]
    iintro ⟨⟨⟨HK, HV⟩, Hg⟩, Ho, H0, H1, H2, H3, H4, H5, H6, ⟨%d7, H7⟩, ⟨%d8, H8⟩⟩
    iapply ((kernelRunB c (grid0.coords t) _ _ _ _ _ _ _ _ _ _ _ _ _ _ _ _ _ _ _ _ _ _ (fun h => h0 ((hcond0 t).mp h)) (iblk m c 0 t) (iblk m c 1 t) (iblk m c 2 t) (iblk m c 3 t) (iblk m c 4 t) (iblk m c 5 t) (iblk m c 6 t) _ _).2.2 Set.univ _)
    isplitl [H0]; · icases H0 with ⟨%d, H0⟩; iexact H0
    isplitl [H1]; · icases H1 with ⟨%d, H1⟩; iexact H1
    isplitl [H2]; · icases H2 with ⟨%d, H2⟩; iexact H2
    isplitl [H3]; · icases H3 with ⟨%d, H3⟩; iexact H3
    isplitl [H4]; · icases H4 with ⟨%d, H4⟩; iexact H4
    isplitl [H5]; · icases H5 with ⟨%d, H5⟩; iexact H5
    isplitl [H6]; · icases H6 with ⟨%d, H6⟩; iexact H6
    isplitl [H7]; · iexists _; iexact H7
    isplitl [H8]; · iexists _; iexact H8
    isplitl [HK]; · iexact HK
    isplitl [HV]; · iexact HV
    iintro ⟨H0, H1, H2, H3, H4, H5, H6, ⟨%e7, H7⟩, ⟨%e8, H8⟩, HK, HV⟩
    isplitl [HK HV Hg]
    · isplitl [HK HV]
      · isplitl [HK]; · iexact HK
        iexact HV
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover7B c _ _ _ _ _ _ _ _ _ _ _ _ _ _ _ _ _ _ _ _ _ _ _ _ _ _ _ _ _ _ _ _ _)
    · unfold owns; iexists _; isplitr
      swap; · iexact H8
      ipureintro; exact View.read_writes_of_cover _ _ _ _ _ (cover8B c _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HK, HV⟩, Hg⟩
  isplitl [HK HV]
  · isplitl [HK]; · iexists _; iexact HK
    iexists _; iexact HV
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- From any memory with zero counters every weakly fair execution of @main terminates, and every final state has each
    array of the pipeline at what the proof data computes and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Body

end
-- ==== Proof.IdealValue.Loads.lean ====
/-
  What the body's loads read, for any element values.

  Every input staging buffer is loaded whole, through the rectangle of the buffer's own extents at zero offsets: such a
  load reads the contents. The batch's rows of x are loaded 256 at a time through a view of the [1, 2048, 1024] staging
  buffer that takes all of it and drops the leading unit axis: the load at row offset `off` reads, at (r, j), the block's
  entry (0, off + r, j).
-/
import proofs.«147508_j77403900608902_2_alg».proof.KernelIdeal
import Idealize.ShloMosaic.Lib.Pipeline.Value
import Idealize.ShloMosaic.Lib.ValueIdx

noncomputable section

namespace Cert.KernelIdeal.BodyValue

open Cert.KernelIdeal
open Idealize.ShloMosaic Idealize.ShloMosaic.ValueIdx Idealize.SL.Sem

variable {Val : EltTy → Type} [∀ e, Nonempty (Val e)]

theorem zero2 : (![0, 0] : Fin 2 → Nat) = fun _ => 0 := by funext a; fin_cases a <;> rfl
theorem zero3 : (![0, 0, 0] : Fin 3 → Nat) = fun _ => 0 := by funext a; fin_cases a <;> rfl
theorem zero1 : (![0] : Fin 1 → Nat) = fun _ => 0 := by funext a; fin_cases a <;> rfl

/-- A load of a whole memref through the rectangle of its own extents at zero offsets reads its contents. -/
theorem readAt_whole {sp : Space} {S : Shape} {e : EltTy} (M : Memref sig .tc sp S e) (h : M.IsWhole)
    {off : Fin S.rank → Nat} (hz : off = fun _ => 0) (inb : ∀ a, off a + S.size a ≤ S.size a) (X : S.Idx → Val e) :
    View.readAt Val M.view (Rect.unit off S.size inb).toLoadRect (h.unread X) = X := by
  rw [View.readAt_eq_ld, h.read_unread, View.ld_unit_zero hz]

/-- Rows off … off + 255 of the x block, loaded through the full slice with its unit axis dropped. -/
theorem readAt_rows (M : Memref sig .tc .vmem S1x2048x1024 .f32) (h : M.IsWhole) (X : S1x2048x1024.Idx → Val .f32)
    (inb0 : ∀ a, (![0, 0, 0] : Fin 3 → Nat) a + S1x2048x1024.size a ≤ S1x2048x1024.size a)
    (hr : ∀ a, (Rect.unit (s := S1x2048x1024) ![0, 0, 0] S1x2048x1024.size inb0).stride a = 1)
    (hq : (Rect.unit (s := S1x2048x1024) ![0, 0, 0] S1x2048x1024.size inb0).shape.Squeezes S2048x1024)
    (off : Nat) (inb : ∀ a, (![off, 0] : Fin 2 → Nat) a + S256x1024.size a ≤ S2048x1024.size a)
    (r : Fin 256) (j : Fin 1024) (hlt : off + r.val < 2048) :
    View.readAt Val ((M.slice (Rect.unit (s := S1x2048x1024) ![0, 0, 0] S1x2048x1024.size inb0) hr).squeeze S2048x1024 hq).view
      (Rect.unit (s := S2048x1024) ![off, 0] S256x1024.size inb).toLoadRect (h.unread X) (ix2 r j)
    = X (ix3 0 ⟨off + r.val, hlt⟩ j) := by
  have hc : (Rect.unit (s := S1x2048x1024) ![0, 0, 0] S1x2048x1024.size inb0).shape.ShapeCasts S2048x1024 :=
    (by decide : S1x2048x1024.ShapeCasts S2048x1024)
  rw [View.readAt_eq_ld]
  show ((M.slice _ hr).squeeze S2048x1024 hq).view.read Val (h.unread X) _ = _
  rw [Memref.read_squeeze_slice M _ hr hq hc (h.unread X), View.readAt_eq_ld, h.read_unread, View.ld_unit_zero zero3]
  refine (shapeCast_dropUnit_apply ![2048, 1024] X hc _).trans ?_
  refine congrArg X (funext fun a => Fin.ext ?_)
  fin_cases a
  · rfl
  · show off + 1 * r.val = off + r.val; omega
  · show 0 + 1 * j.val = j.val; omega

end Cert.KernelIdeal.BodyValue

end
-- ==== Proof.AttnSpec.lean ====
/-
  The function both programs compute, over the extended reals.

  For a batch `b`, a query row `q`, a key row `k` and feature columns `e`, `f` (weights stored as [out, in]):
    Q(b,q,f) = Σ_e context(b,q,e) · Wq(f,e)          K(b,k,f) = Σ_e x(b,k,e) · Wk(f,e)          V(b,k,f) = Σ_e x(b,k,e) · Wv(f,e)
    s(b,q,k) = (Σ_e Q(b,q,e) · K(b,k,e)) · (1/32)      (1/32 written as its own f32 word: it is 1/√1024 exactly)
    att(b,q,·) = the softmax of the row s(b,q,·), with the row maximum subtracted first:
                 p_k = exp(s_k − max_j s_j),  att_k = p_k · (1 / Σ_j p_j)
    out(b,q,f) = (Σ_e (Σ_k att(b,q,k) · V(b,k,e)) · Wo(f,e)) + bo(f)
  The row-level pieces (`dotE`, `rowMaxOf`, `softRow`) are stated over plain functions of a coordinate so that a block of
  rows and a whole array are read through the same terms. The maximum is the fold of `max` from −∞ (the word 0xFF800000),
  a sum is a `Finset` sum over the coordinate: no order of evaluation is left in either.
-/
import Idealize.ShloMosaic.PureOps.Ideal
import Idealize.ShloMosaic.Lib.ValueIdx

noncomputable section

namespace Cert.AttnSpec

open Idealize.ShloMosaic Idealize.ShloMosaic.ValueIdx

/-- [batch, row, feature] arrays (x, context, out). -/
abbrev A3 : Shape := ⟨3, ![16, 2048, 1024]⟩
/-- A weight matrix, stored [out, in]. -/
abbrev W2 : Shape := ⟨2, ![1024, 1024]⟩
/-- The output bias. -/
abbrev B1 : Shape := ⟨1, ![1024]⟩
/-- [batch, query row, key row]: the attention weights. -/
abbrev P3 : Shape := ⟨3, ![16, 2048, 2048]⟩

/-- The scale 1/√1024 = 1/32 as the f32 word the kernel multiplies by. -/
def invSqrtE : EReal := Ideal.ofBits .f32 0x3D000000#32
/-- −∞, the word a maximum starts from. -/
def negInf : EReal := Ideal.ofBits .f32 0xFF800000#32
/-- The f32 word of 1. -/
def one32 : EReal := Ideal.ofBits .f32 0x3F800000#32

/-- Σ_e u(e) · v(e). -/
def dotE {n : Nat} (u v : Fin n → EReal) : EReal := ∑ e : Fin n, u e * v e

/-- The maximum of a row of scores: the fold of `max` from −∞. -/
def rowMaxOf {n : Nat} (s : Fin n → EReal) : EReal := (Finset.univ : Finset (Fin n)).fold max negInf s

/-- exp(s_k − max s). -/
def expRow {n : Nat} (s : Fin n → EReal) (k : Fin n) : EReal := Ideal.exp (s k - rowMaxOf s)

/-- The softmax of a row, normalised by the product with the reciprocal of the row's sum. -/
def softRow {n : Nat} (s : Fin n → EReal) (k : Fin n) : EReal :=
  expRow s k * Ideal.div one32 (∑ j : Fin n, expRow s j)

variable (x ctx : A3.Idx → EReal) (wq wk wv wo : W2.Idx → EReal) (bo : B1.Idx → EReal)

/-- Q(b,q,f) = Σ_e context(b,q,e) · Wq(f,e). -/
def qry (b : Fin 16) (q : Fin 2048) (f : Fin 1024) : EReal := dotE (fun e => ctx (ix3 b q e)) (fun e => wq (ix2 f e))
/-- K(b,k,f) = Σ_e x(b,k,e) · Wk(f,e). -/
def key (b : Fin 16) (k : Fin 2048) (f : Fin 1024) : EReal := dotE (fun e => x (ix3 b k e)) (fun e => wk (ix2 f e))
/-- V(b,k,f) = Σ_e x(b,k,e) · Wv(f,e). -/
def vlu (b : Fin 16) (k : Fin 2048) (f : Fin 1024) : EReal := dotE (fun e => x (ix3 b k e)) (fun e => wv (ix2 f e))

/-- s(b,q,k) = (Σ_e Q(b,q,e) · K(b,k,e)) · (1/32). -/
def score (b : Fin 16) (q k : Fin 2048) : EReal := dotE (fun e => qry ctx wq b q e) (fun e => key x wk b k e) * invSqrtE

/-- att(b,q,k): the softmax of the score row (b,q,·) at k. -/
def att (b : Fin 16) (q k : Fin 2048) : EReal := softRow (fun j => score x ctx wq wk b q j) k

/-- Σ_k att(b,q,k) · V(b,k,e). -/
def mix (b : Fin 16) (q : Fin 2048) (e : Fin 1024) : EReal :=
  dotE (fun k => att x ctx wq wk b q k) (fun k => vlu x wv b k e)

/-- out(b,q,f) = (Σ_e mix(b,q,e) · Wo(f,e)) + bo(f). -/
def out (b : Fin 16) (q : Fin 2048) (f : Fin 1024) : EReal :=
  dotE (fun e => mix x ctx wq wk wv b q e) (fun e => wo (ix2 f e)) + bo (ix1 f)

/-- The attention weights as one array. -/
def attArr : P3.Idx → EReal := fun i => att x ctx wq wk (i 0) (i 1) (i 2)
/-- The output as one array. -/
def outArr : A3.Idx → EReal := fun i => out x ctx wq wk wv wo bo (i 0) (i 1) (i 2)

end Cert.AttnSpec

end
-- ==== Proof.IdealValue.Pieces.lean ====
/-
  The two scratch buffers as functions of the x block, and each stored chunk as a tile of them.

  With x1 the batch's [1, 2048, 1024] block of x and w a [1024, 1024] weight matrix already transposed (w(j, e) is the
  weight of input feature j for output feature e), the keys are cached transposed, KT(e, k) = Σ_j x1(0, k, j) · w(j, e), and
  the values as they are, VV(k, f) = Σ_j x1(0, k, j) · w(j, f). The body fills them 256 key rows at a time: chunk number
  off / 256 is loaded from rows off … off + 255 of the block and its product with the weights is stored at columns
  (respectively rows) off … off + 255. So every stored piece is the tile of KT (of VV) its rectangle names, whichever
  spelling of the chunk's product the body used, as soon as that product read at an index is the plain sum.
-/
import proofs.«147508_j77403900608902_2_alg».proof.Proof.IdealValue.Loads
import proofs.«147508_j77403900608902_2_alg».proof.Proof.AttnSpec

noncomputable section

namespace Cert.KernelIdeal.BodyValue

open Cert.KernelIdeal Cert.AttnSpec
open Idealize.ShloMosaic Idealize.ShloMosaic.ValueIdx Idealize.SL.Sem

/-- The keys of a batch, transposed: KT(e, k) = Σ_j x1(0, k, j) · w(j, e). -/
def KTof (x1 : Vec Ideal S1x2048x1024 .f32) (w : Vec Ideal S1024x1024 .bf16) : Vec Ideal S1024x2048 .bf16 :=
  fun y => dotE (fun j : Fin 1024 => x1 (ix3 0 (y 1) j)) (fun j => w (ix2 j (y 0)))

/-- The values of a batch: VV(k, f) = Σ_j x1(0, k, j) · w(j, f). -/
def VVof (x1 : Vec Ideal S1x2048x1024 .f32) (w : Vec Ideal S1024x1024 .bf16) : Vec Ideal S2048x1024 .bf16 :=
  fun y => dotE (fun j : Fin 1024 => x1 (ix3 0 (y 0) j)) (fun j => w (ix2 j (y 1)))

/-- A chunk of the transposed keys, stored at columns off … off + 255, is that tile of `KTof`. -/
theorem keyPiece (pay : Vec Ideal S256x1024 .f32 → Vec Ideal S1024x1024 .bf16 → FVec Ideal S1024x256 .bf16)
    (hpay : ∀ (v : Vec Ideal S256x1024 .f32) (w : Vec Ideal S1024x1024 .bf16) (e : Fin 1024) (r : Fin 256),
      pay v w (ix2 e r) = dotE (fun j : Fin 1024 => v (ix2 r j)) (fun j => w (ix2 j e)))
    (M3 : Memref sig .tc .vmem S1x2048x1024 .f32) (h3 : M3.IsWhole) (M5 : Memref sig .tc .vmem S1024x1024 .bf16) (h5 : M5.IsWhole)
    (x1 : Vec Ideal S1x2048x1024 .f32) (x3 : Vec Ideal S1024x1024 .bf16)
    (inb0 : ∀ a, (![0, 0, 0] : Fin 3 → Nat) a + S1x2048x1024.size a ≤ S1x2048x1024.size a)
    (hr : ∀ a, (Rect.unit (s := S1x2048x1024) ![0, 0, 0] S1x2048x1024.size inb0).stride a = 1)
    (hq : (Rect.unit (s := S1x2048x1024) ![0, 0, 0] S1x2048x1024.size inb0).shape.Squeezes S2048x1024)
    (off : Nat) (inbL : ∀ a, (![off, 0] : Fin 2 → Nat) a + S256x1024.size a ≤ S2048x1024.size a)
    (inbW : ∀ a, (![0, 0] : Fin 2 → Nat) a + S1024x1024.size a ≤ S1024x1024.size a)
    (inbS : ∀ a, (![0, off] : Fin 2 → Nat) a + S1024x256.size a ≤ S1024x2048.size a) (x : S1024x256.Idx) :
    pay (View.readAt (Elt Ideal) ((M3.slice (Rect.unit (s := S1x2048x1024) ![0, 0, 0] S1x2048x1024.size inb0) hr).squeeze S2048x1024 hq).view
          (Rect.unit (s := S2048x1024) ![off, 0] S256x1024.size inbL).toLoadRect (h3.unread x1))
        (View.readAt (Elt Ideal) M5.view (Rect.unit (s := S1024x1024) ![0, 0] S1024x1024.size inbW).toLoadRect (h5.unread x3)) x
      = KTof x1 x3 ((Rect.unit (s := S1024x2048) ![0, off] S1024x256.size inbS).emb x) := by
  obtain ⟨e, r, rfl⟩ : ∃ (e : Fin 1024) (r : Fin 256), x = ix2 e r := ⟨x 0, x 1, eq_ix2 x⟩
  have hoff : off + 256 ≤ 2048 := inbS 1
  have hlt : off + r.val < 2048 := by have := r.isLt; omega
  have e0 : ((Rect.unit (s := S1024x2048) ![0, off] S1024x256.size inbS).emb (ix2 e r)) 0 = e :=
    Fin.ext (by rw [Rect.emb_apply]; show 0 + 1 * e.val = e.val; omega)
  have e1 : ((Rect.unit (s := S1024x2048) ![0, off] S1024x256.size inbS).emb (ix2 e r)) 1 = (⟨off + r.val, hlt⟩ : Fin 2048) :=
    Fin.ext (by rw [Rect.emb_apply]; show off + 1 * r.val = off + r.val; omega)
  rw [hpay, readAt_whole M5 h5 zero2]
  unfold KTof dotE
  rw [e0, e1]
  refine Finset.sum_congr rfl fun j _ => ?_
  beta_reduce
  rw [readAt_rows M3 h3 x1 inb0 hr hq off inbL r j hlt]

/-- A chunk of the values, stored at rows off … off + 255, is that tile of `VVof`. -/
theorem valPiece (pay : Vec Ideal S256x1024 .f32 → Vec Ideal S1024x1024 .bf16 → FVec Ideal S256x1024 .bf16)
    (hpay : ∀ (v : Vec Ideal S256x1024 .f32) (w : Vec Ideal S1024x1024 .bf16) (f : Fin 1024) (r : Fin 256),
      pay v w (ix2 r f) = dotE (fun j : Fin 1024 => v (ix2 r j)) (fun j => w (ix2 j f)))
    (M3 : Memref sig .tc .vmem S1x2048x1024 .f32) (h3 : M3.IsWhole) (M6 : Memref sig .tc .vmem S1024x1024 .bf16) (h6 : M6.IsWhole)
    (x1 : Vec Ideal S1x2048x1024 .f32) (x4 : Vec Ideal S1024x1024 .bf16)
    (inb0 : ∀ a, (![0, 0, 0] : Fin 3 → Nat) a + S1x2048x1024.size a ≤ S1x2048x1024.size a)
    (hr : ∀ a, (Rect.unit (s := S1x2048x1024) ![0, 0, 0] S1x2048x1024.size inb0).stride a = 1)
    (hq : (Rect.unit (s := S1x2048x1024) ![0, 0, 0] S1x2048x1024.size inb0).shape.Squeezes S2048x1024)
    (off : Nat) (inbL : ∀ a, (![off, 0] : Fin 2 → Nat) a + S256x1024.size a ≤ S2048x1024.size a)
    (inbW : ∀ a, (![0, 0] : Fin 2 → Nat) a + S1024x1024.size a ≤ S1024x1024.size a)
    (inbS : ∀ a, (![off, 0] : Fin 2 → Nat) a + S256x1024.size a ≤ S2048x1024.size a) (x : S256x1024.Idx) :
    pay (View.readAt (Elt Ideal) ((M3.slice (Rect.unit (s := S1x2048x1024) ![0, 0, 0] S1x2048x1024.size inb0) hr).squeeze S2048x1024 hq).view
          (Rect.unit (s := S2048x1024) ![off, 0] S256x1024.size inbL).toLoadRect (h3.unread x1))
        (View.readAt (Elt Ideal) M6.view (Rect.unit (s := S1024x1024) ![0, 0] S1024x1024.size inbW).toLoadRect (h6.unread x4)) x
      = VVof x1 x4 ((Rect.unit (s := S2048x1024) ![off, 0] S256x1024.size inbS).emb x) := by
  obtain ⟨r, f, rfl⟩ : ∃ (r : Fin 256) (f : Fin 1024), x = ix2 r f := ⟨x 0, x 1, eq_ix2 x⟩
  have hoff : off + 256 ≤ 2048 := inbS 0
  have hlt : off + r.val < 2048 := by have := r.isLt; omega
  have e0 : ((Rect.unit (s := S2048x1024) ![off, 0] S256x1024.size inbS).emb (ix2 r f)) 0 = (⟨off + r.val, hlt⟩ : Fin 2048) :=
    Fin.ext (by rw [Rect.emb_apply]; show off + 1 * r.val = off + r.val; omega)
  have e1 : ((Rect.unit (s := S2048x1024) ![off, 0] S256x1024.size inbS).emb (ix2 r f)) 1 = f :=
    Fin.ext (by rw [Rect.emb_apply]; show 0 + 1 * f.val = f.val; omega)
  rw [hpay, readAt_whole M6 h6 zero2]
  unfold VVof dotE
  rw [e0, e1]
  refine Finset.sum_congr rfl fun j _ => ?_
  beta_reduce
  rw [readAt_rows M3 h3 x1 inb0 hr hq off inbL r j hlt]

end Cert.KernelIdeal.BodyValue

end
-- ==== Proof.PayloadAt.lean ====
/-
  The kernel body's stored values, read one element at a time, at the extended reals.

  Every store of the body writes a value that is a pure function of the vectors the body loaded. Read at one index
  given by explicit coordinates, each of these values is a term of the specification's vocabulary:
    * a 256-row chunk of the key / value projection at (r, e) is  Σ_j x(r, j) · w(j, e)  (the key chunk is stored
      transposed, so it is read at (e, r));
    * the attention block at (r, k) is the softmax of the row of scaled scores, where the score at column j is
      (Σ_f (Σ_e ctx(r, e) · wq(e, f)) · kT(f, j)) · (1/32);
    * the output block at (r, f) is  (Σ_e (Σ_k att(r, k) · v(k, e)) · wo(e, f)) + bias(f).
  A change of float format is the identity on extended reals, a product into the zero accumulator is the plain sum over
  the contracted coordinate, a row maximum is the fold of max from −∞ over the row's coordinates and a row sum is the sum
  over them; the layout operations (a cast that adds or drops a unit axis, a transpose, a broadcast of a column or of a
  row) move an element without changing it.
-/
import proofs.«147508_j77403900608902_2_alg».proof.Proof.AttnSpec
import proofs.«147508_j77403900608902_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.PayloadAt

open Idealize.ShloMosaic Idealize.ShloMosaic.ValueIdx Cert.KernelIdeal Cert.KernelIdeal.Gen Cert.AttnSpec

/-! ## A product into the zero accumulator, read at (row, column)

The operand indices of a product with one contracted axis: the row comes from the result's row, the column from the
result's column, and the contracted coordinate is the summation index. -/

theorem mm_a_l0 (i : S256x1024.Idx) (q : dot_S256x1024_S1024x1024_S256x1024_1_0_0_1_n_n.contr.Idx) : (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem mm_a_l1 (i : S256x1024.Idx) (q : dot_S256x1024_S1024x1024_S256x1024_1_0_0_1_n_n.contr.Idx) : (dot_S256x1024_S1024x1024_S256x1024_1_0_0_1_n_n.lhsIdx i q 1).val = (q ⟨0, by decide⟩).val :=
  dot_S256x1024_S1024x1024_S256x1024_1_0_0_1_n_n.lhsIdx_val_of_single rfl i q
theorem mm_a_r0 (i : S256x1024.Idx) (q : dot_S256x1024_S1024x1024_S256x1024_1_0_0_1_n_n.contr.Idx) : (dot_S256x1024_S1024x1024_S256x1024_1_0_0_1_n_n.rhsIdx i q 0).val = (q ⟨0, by decide⟩).val :=
  dot_S256x1024_S1024x1024_S256x1024_1_0_0_1_n_n.rhsIdx_val_of_single rfl i q
theorem mm_a_r1 (i : S256x1024.Idx) (q : dot_S256x1024_S1024x1024_S256x1024_1_0_0_1_n_n.contr.Idx) : (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- [256,1024] · [1024,1024] into zero, at (r, c): Σ_k lhs(r, k) · rhs(k, c). -/
theorem mm_a {φ₁ φ₂ : FTy} (lhs : FVec Ideal S256x1024 φ₁) (rhs : FVec Ideal S1024x1024 φ₂) (r : Fin 256) (c : Fin 1024) :
    matmul dot_S256x1024_S1024x1024_S256x1024_1_0_0_1_n_n none lhs rhs (constant (F := Ideal) S256x1024 .f32 0x00000000#32) (ix2 r c)
      = dotE (fun k : Fin 1024 => lhs (ix2 r k)) (fun k => rhs (ix2 k c)) := by
  refine (Ideal.matmul_constant_zero_apply dot_S256x1024_S1024x1024_S256x1024_1_0_0_1_n_n none lhs rhs (ix2 r c)).trans ?_
  unfold dotE
  rw [← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r c) ((contrEquiv1 dot_S256x1024_S1024x1024_S256x1024_1_0_0_1_n_n 1024 rfl rfl).symm k) = ix2 r k :=
    funext fun a => Fin.ext (by
      match a with
      | ⟨0, _⟩ => exact mm_a_l0 _ _
      | ⟨1, _⟩ => exact (mm_a_l1 _ _).trans hk)
  have er : dot_S256x1024_S1024x1024_S256x1024_1_0_0_1_n_n.rhsIdx (ix2 r c) ((contrEquiv1 dot_S256x1024_S1024x1024_S256x1024_1_0_0_1_n_n 1024 rfl rfl).symm k) = ix2 k c :=
    funext fun a => Fin.ext (by
      match a with
      | ⟨0, _⟩ => exact (mm_a_r0 _ _).trans hk
      | ⟨1, _⟩ => exact mm_a_r1 _ _)
  rw [el, er]

theorem mm_b_l0 (i : S256x2048.Idx) (q : dot_S256x1024_S1024x2048_S256x2048_1_0_0_1_n_n.contr.Idx) : (dot_S256x1024_S1024x2048_S256x2048_1_0_0_1_n_n.lhsIdx i q 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
theorem mm_b_l1 (i : S256x2048.Idx) (q : dot_S256x1024_S1024x2048_S256x2048_1_0_0_1_n_n.contr.Idx) : (dot_S256x1024_S1024x2048_S256x2048_1_0_0_1_n_n.lhsIdx i q 1).val = (q ⟨0, by decide⟩).val :=
  dot_S256x1024_S1024x2048_S256x2048_1_0_0_1_n_n.lhsIdx_val_of_single rfl i q
theorem mm_b_r0 (i : S256x2048.Idx) (q : dot_S256x1024_S1024x2048_S256x2048_1_0_0_1_n_n.contr.Idx) : (dot_S256x1024_S1024x2048_S256x2048_1_0_0_1_n_n.rhsIdx i q 0).val = (q ⟨0, by decide⟩).val :=
  dot_S256x1024_S1024x2048_S256x2048_1_0_0_1_n_n.rhsIdx_val_of_single rfl i q
theorem mm_b_r1 (i : S256x2048.Idx) (q : dot_S256x1024_S1024x2048_S256x2048_1_0_0_1_n_n.contr.Idx) : (dot_S256x1024_S1024x2048_S256x2048_1_0_0_1_n_n.rhsIdx i q 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

/-- [256,1024] · [1024,2048] into zero, at (r, c): Σ_k lhs(r, k) · rhs(k, c). -/
theorem mm_b {φ₁ φ₂ : FTy} (lhs : FVec Ideal S256x1024 φ₁) (rhs : FVec Ideal S1024x2048 φ₂) (r : Fin 256) (c : Fin 2048) :
    matmul dot_S256x1024_S1024x2048_S256x2048_1_0_0_1_n_n none lhs rhs (constant (F := Ideal) S256x2048 .f32 0x00000000#32) (ix2 r c)
      = dotE (fun k : Fin 1024 => lhs (ix2 r k)) (fun k => rhs (ix2 k c)) := by
  refine (Ideal.matmul_constant_zero_apply dot_S256x1024_S1024x2048_S256x2048_1_0_0_1_n_n none lhs rhs (ix2 r c)).trans ?_
  unfold dotE
  rw [← Equiv.sum_comp (contrEquiv1 dot_S256x1024_S1024x2048_S256x2048_1_0_0_1_n_n 1024 rfl rfl).symm]
  refine Finset.sum_congr rfl fun k _ => ?_
  have hk := contrEquiv1_symm_val dot_S256x1024_S1024x2048_S256x2048_1_0_0_1_n_n 1024 rfl rfl k
  have el : dot_S256x1024_S1024x2048_S256x2048_1_0_0_1_n_n.lhsIdx (ix2 r c) ((contrEquiv1 dot_S256x1024_S1024x2048_S256x2048_1_0_0_1_n_n 1024 rfl rfl).symm k) = ix2 r k :=
    funext fun a => Fin.ext (by
      match a with
      | ⟨0, _⟩ => exact mm_b_l0 _ _
      | ⟨1, _⟩ => exact (mm_b_l1 _ _).trans hk)
  have er : dot_S256x1024_S1024x2048_S256x2048_1_0_0_1_n_n.rhsIdx (ix2 r c) ((contrEquiv1 dot_S256x1024_S1024x2048_S256x2048_1_0_0_1_n_n 1024 rfl rfl).symm k) = ix2 k c :=
    funext fun a => Fin.ext (by
      match a with
      | ⟨0, _⟩ => exact (mm_b_r0 _ _).trans hk
      | ⟨1, _⟩ => exact mm_b_r1 _ _)
  rw [el, er]

theorem mm_c_l0 (i : S256x1024.Idx) (q : dot_S256x2048_S2048x1024_S256x1024_1_0_0_1_n_n.contr.Idx) : (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem mm_c_l1 (i : S256x1024.Idx) (q : dot_S256x2048_S2048x1024_S256x1024_1_0_0_1_n_n.contr.Idx) : (dot_S256x2048_S2048x1024_S256x1024_1_0_0_1_n_n.lhsIdx i q 1).val = (q ⟨0, by decide⟩).val :=
  dot_S256x2048_S2048x1024_S256x1024_1_0_0_1_n_n.lhsIdx_val_of_single rfl i q
theorem mm_c_r0 (i : S256x1024.Idx) (q : dot_S256x2048_S2048x1024_S256x1024_1_0_0_1_n_n.contr.Idx) : (dot_S256x2048_S2048x1024_S256x1024_1_0_0_1_n_n.rhsIdx i q 0).val = (q ⟨0, by decide⟩).val :=
  dot_S256x2048_S2048x1024_S256x1024_1_0_0_1_n_n.rhsIdx_val_of_single rfl i q
theorem mm_c_r1 (i : S256x1024.Idx) (q : dot_S256x2048_S2048x1024_S256x1024_1_0_0_1_n_n.contr.Idx) : (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- [256,2048] · [2048,1024] into zero, at (r, c): Σ_k lhs(r, k) · rhs(k, c). -/
theorem mm_c {φ₁ φ₂ : FTy} (lhs : FVec Ideal S256x2048 φ₁) (rhs : FVec Ideal S2048x1024 φ₂) (r : Fin 256) (c : Fin 1024) :
    matmul dot_S256x2048_S2048x1024_S256x1024_1_0_0_1_n_n none lhs rhs (constant (F := Ideal) S256x1024 .f32 0x00000000#32) (ix2 r c)
      = dotE (fun k : Fin 2048 => lhs (ix2 r k)) (fun k => rhs (ix2 k c)) := by
  refine (Ideal.matmul_constant_zero_apply dot_S256x2048_S2048x1024_S256x1024_1_0_0_1_n_n none lhs rhs (ix2 r c)).trans ?_
  unfold dotE
  rw [← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 r c) ((contrEquiv1 dot_S256x2048_S2048x1024_S256x1024_1_0_0_1_n_n 2048 rfl rfl).symm k) = ix2 r k :=
    funext fun a => Fin.ext (by
      match a with
      | ⟨0, _⟩ => exact mm_c_l0 _ _
      | ⟨1, _⟩ => exact (mm_c_l1 _ _).trans hk)
  have er : dot_S256x2048_S2048x1024_S256x1024_1_0_0_1_n_n.rhsIdx (ix2 r c) ((contrEquiv1 dot_S256x2048_S2048x1024_S256x1024_1_0_0_1_n_n 2048 rfl rfl).symm k) = ix2 k c :=
    funext fun a => Fin.ext (by
      match a with
      | ⟨0, _⟩ => exact (mm_c_r0 _ _).trans hk
      | ⟨1, _⟩ => exact mm_c_r1 _ _)
  rw [el, er]

/-! ## A 256-row chunk of the key / value projection -/

/-- The key chunk, stored transposed: at (e, r) it is Σ_j x(r, j) · w(j, e). The rounding of the product to the
    narrower format and the two casts to the same shape are the identity; the transpose swaps the coordinates. -/
theorem keyT_chunk (xb : FVec Ideal S256x1024 .bf16) (w : FVec Ideal S1024x1024 .bf16)
    (hw : S1024x1024.ShapeCasts S1024x1024) (hlt : FTy.bits .bf16 < FTy.bits .f32)
    (htr : S256x1024.Transposes [1, 0] S1024x256) (hsc : S1024x256.ShapeCasts S1024x256) (e : Fin 1024) (r : Fin 256) :
    shapeCast S1024x256 (transpose S1024x256 [1, 0]
        (truncf .bf16 (matmul dot_S256x1024_S1024x1024_S256x1024_1_0_0_1_n_n none xb (shapeCast S1024x1024 w hw)
          (constant (F := Ideal) S256x1024 .f32 0x00000000#32)) hlt) htr) hsc (ix2 e r)
      = dotE (fun j : Fin 1024 => xb (ix2 r j)) (fun j => w (ix2 j e)) := by
  rw [shapeCast_self, shapeCast_self]
  refine (transpose_ix2_apply _ htr e r).trans ?_
  exact mm_a xb w r e

/-- The value chunk: at (r, f) it is Σ_j x(r, j) · w(j, f). -/
theorem val_chunk (xb : FVec Ideal S256x1024 .bf16) (w : FVec Ideal S1024x1024 .bf16)
    (hw : S1024x1024.ShapeCasts S1024x1024) (hlt : FTy.bits .bf16 < FTy.bits .f32)
    (hsc : S256x1024.ShapeCasts S256x1024) (r : Fin 256) (f : Fin 1024) :
    shapeCast S256x1024 (truncf .bf16 (matmul dot_S256x1024_S1024x1024_S256x1024_1_0_0_1_n_n none xb (shapeCast S1024x1024 w hw)
          (constant (F := Ideal) S256x1024 .f32 0x00000000#32)) hlt) hsc (ix2 r f)
      = dotE (fun j : Fin 1024 => xb (ix2 r j)) (fun j => w (ix2 j f)) := by
  rw [shapeCast_self, shapeCast_self]
  exact mm_a xb w r f

section Chunks
variable (v : Vec Ideal S256x1024 .f32) (w : Vec Ideal S1024x1024 .bf16) (e f : Fin 1024) (r : Fin 256)

/-- Chunk 0, keys (transposed). -/
theorem k0_pay3_at : k0_pay3 (F := Ideal) v w (ix2 e r) = dotE (fun j : Fin 1024 => v (ix2 r j)) (fun j => w (ix2 j e)) :=
  keyT_chunk (k0_pay2 (F := Ideal) v) w _ _ _ _ e r
/-- Chunk 0, values. -/
theorem k0_pay4_at : k0_pay4 (F := Ideal) v w (ix2 r f) = dotE (fun j : Fin 1024 => v (ix2 r j)) (fun j => w (ix2 j f)) :=
  val_chunk (k0_pay2 (F := Ideal) v) w _ _ _ r f

end Chunks

section MoreChunks
variable (v : Vec Ideal S256x1024 .f32) (w : Vec Ideal S1024x1024 .bf16) (e f : Fin 1024) (r : Fin 256)

/-- Chunk 1, keys (transposed). -/
theorem k0_pay8_at : k0_pay8 (F := Ideal) (k0_pay7 (F := Ideal) v w) (ix2 e r) = dotE (fun j : Fin 1024 => v (ix2 r j)) (fun j => w (ix2 j e)) :=
  keyT_chunk (k0_pay5 (F := Ideal) v) w _ _ _ _ e r
/-- Chunk 1, values. -/
theorem k0_pay9_at : k0_pay9 (F := Ideal) (k0_pay6 (F := Ideal) v w) (ix2 r f) = dotE (fun j : Fin 1024 => v (ix2 r j)) (fun j => w (ix2 j f)) :=
  val_chunk (k0_pay5 (F := Ideal) v) w _ _ _ r f

/-- Chunk 2, keys (transposed). -/
theorem k0_pay11_at : k0_pay11 (F := Ideal) v w (ix2 e r) = dotE (fun j : Fin 1024 => v (ix2 r j)) (fun j => w (ix2 j e)) :=
  keyT_chunk (k0_pay10 (F := Ideal) v) w _ _ _ _ e r
/-- Chunk 2, values. -/
theorem k0_pay12_at : k0_pay12 (F := Ideal) v w (ix2 r f) = dotE (fun j : Fin 1024 => v (ix2 r j)) (fun j => w (ix2 j f)) :=
  val_chunk (k0_pay10 (F := Ideal) v) w _ _ _ r f

/-- Chunk 3, keys (transposed). -/
theorem k0_pay14_at : k0_pay14 (F := Ideal) (k0_pay13 (F := Ideal) v) w (ix2 e r) = dotE (fun j : Fin 1024 => v (ix2 r j)) (fun j => w (ix2 j e)) :=
  keyT_chunk (k0_pay13 (F := Ideal) v) w _ _ _ _ e r
/-- Chunk 3, values. -/
theorem k0_pay15_at : k0_pay15 (F := Ideal) (k0_pay13 (F := Ideal) v) w (ix2 r f) = dotE (fun j : Fin 1024 => v (ix2 r j)) (fun j => w (ix2 j f)) :=
  val_chunk (k0_pay13 (F := Ideal) v) w _ _ _ r f

/-- Chunk 4, keys (transposed). -/
theorem k0_pay17_at : k0_pay17 (F := Ideal) v w (ix2 e r) = dotE (fun j : Fin 1024 => v (ix2 r j)) (fun j => w (ix2 j e)) :=
  keyT_chunk (k0_pay16 (F := Ideal) v) w _ _ _ _ e r
/-- Chunk 4, values. -/
theorem k0_pay18_at : k0_pay18 (F := Ideal) v w (ix2 r f) = dotE (fun j : Fin 1024 => v (ix2 r j)) (fun j => w (ix2 j f)) :=
  val_chunk (k0_pay16 (F := Ideal) v) w _ _ _ r f

/-- Chunk 5, keys (transposed). -/
theorem k0_pay20_at : k0_pay20 (F := Ideal) v w (ix2 e r) = dotE (fun j : Fin 1024 => v (ix2 r j)) (fun j => w (ix2 j e)) :=
  keyT_chunk (k0_pay19 (F := Ideal) v) w _ _ _ _ e r
/-- Chunk 5, values. -/
theorem k0_pay21_at : k0_pay21 (F := Ideal) v w (ix2 r f) = dotE (fun j : Fin 1024 => v (ix2 r j)) (fun j => w (ix2 j f)) :=
  val_chunk (k0_pay19 (F := Ideal) v) w _ _ _ r f

/-- Chunk 6, keys (transposed). -/
theorem k0_pay25_at : k0_pay25 (F := Ideal) (k0_pay24 (F := Ideal) v w) (ix2 e r) = dotE (fun j : Fin 1024 => v (ix2 r j)) (fun j => w (ix2 j e)) :=
  keyT_chunk (k0_pay22 (F := Ideal) v) w _ _ _ _ e r
/-- Chunk 6, values. -/
theorem k0_pay26_at : k0_pay26 (F := Ideal) (k0_pay23 (F := Ideal) v w) (ix2 r f) = dotE (fun j : Fin 1024 => v (ix2 r j)) (fun j => w (ix2 j f)) :=
  val_chunk (k0_pay22 (F := Ideal) v) w _ _ _ r f

/-- Chunk 7, keys (transposed). -/
theorem k0_pay28_at : k0_pay28 (F := Ideal) v w (ix2 e r) = dotE (fun j : Fin 1024 => v (ix2 r j)) (fun j => w (ix2 j e)) :=
  keyT_chunk (k0_pay27 (F := Ideal) v) w _ _ _ _ e r
/-- Chunk 7, values. -/
theorem k0_pay29_at : k0_pay29 (F := Ideal) v w (ix2 r f) = dotE (fun j : Fin 1024 => v (ix2 r j)) (fun j => w (ix2 j f)) :=
  val_chunk (k0_pay27 (F := Ideal) v) w _ _ _ r f

end MoreChunks

/-! ## Columns: a vector as a one-column matrix, and a one-column matrix spread over many columns -/

section Columns
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## A row's maximum and a row's sum -/

/-- The index a reduction over the columns inserts: row `r`, column `k`. -/
theorem lift_row (h : S256x2048.Reduces [1] S256) (r : Fin 256) (k : Fin 2048) : h.lift (ix1 r) k = ix2 r k :=
  funext fun a => Fin.ext (by match a with | ⟨0, _⟩ => rfl | ⟨1, _⟩ => rfl)

/-- The maximum over the columns, at row `r`: the fold of max from −∞ over the row. -/
theorem rowMax_at (v : FVec Ideal S256x2048 .f32) (h : S256x2048.Reduces [1] S256) (hφ : FKind.Formats .f32)
    (hacc : (0xFF800000#32 : BitVec 32) = FKind.maximumf.neutral .f32 hφ) (r : Fin 256) :
    multiReduction (F := Ideal) .maximumf [1] S256 v 0xFF800000#32 h hφ hacc (ix1 r) = rowMaxOf (fun j : Fin 2048 => v (ix2 r j)) := by
  refine (Ideal.multiReduction_maximumf_single v _ h hφ hacc (ix1 r)).trans ?_
  show (Finset.univ : Finset (Fin 2048)).fold max (Ideal.ofBits .f32 0xFF800000#32) (v ∘ h.lift (ix1 r))
    = (Finset.univ : Finset (Fin 2048)).fold max (Ideal.ofBits .f32 0xFF800000#32) (fun j => v (ix2 r j))
  exact congrArg (fun g : Fin 2048 → EReal => (Finset.univ : Finset (Fin 2048)).fold max (Ideal.ofBits .f32 0xFF800000#32) g)
    (funext fun j => congrArg v (lift_row h r j))

/-- The sum over the columns, at row `r`. -/
theorem rowSum_at (v : FVec Ideal S256x2048 .f32) (h : S256x2048.Reduces [1] S256) (hφ : FKind.Formats .f32)
    (hacc : (0x00000000#32 : BitVec 32) = FKind.add.neutral .f32 hφ) (r : Fin 256) :
    multiReduction (F := Ideal) .add [1] S256 v 0x00000000#32 h hφ hacc (ix1 r) = ∑ j : Fin 2048, v (ix2 r j) := by
  refine (Ideal.multiReduction_add_single v _ h hφ hacc (ix1 r)).trans ?_
  exact Finset.sum_congr rfl fun j _ => congrArg v (lift_row h r j)

/-! ## The attention block -/

/-- The scaled score of query row `r` against key column `j`: the query row projected, contracted with the transposed
    keys, times 1/32. -/
def scoreRow (v3 : Vec Ideal S1x256x1024 .f32) (v6 : Vec Ideal S1024x1024 .bf16) (v10 : Vec Ideal S1024x2048 .bf16)
    (r : Fin 256) (j : Fin 2048) : EReal :=
  dotE (fun f : Fin 1024 => dotE (fun e : Fin 1024 => v3 (ix3 0 r e)) (fun e => v6 (ix2 e f))) (fun f => v10 (ix2 f j)) * invSqrtE

/-- The scaled scores as the body computes them, at (r, j). -/
theorem score_at (v3 : FVec Ideal S1x256x1024 .f32) (v6 : FVec Ideal S1024x1024 .bf16) (v10 : FVec Ideal S1024x2048 .bf16)
    (hsc1 : S1x256x1024.ShapeCasts S256x1024) (hlt : FTy.bits .bf16 < FTy.bits .f32)
    (hw : S1024x1024.ShapeCasts S1024x1024) (r : Fin 256) (j : Fin 2048) :
    mulf (matmul dot_S256x1024_S1024x2048_S256x2048_1_0_0_1_n_n none
          (truncf .bf16 (matmul dot_S256x1024_S1024x1024_S256x1024_1_0_0_1_n_n none (truncf .bf16 (shapeCast S256x1024 v3 hsc1) hlt) (shapeCast S1024x1024 v6 hw)
            (constant (F := Ideal) S256x1024 .f32 0x00000000#32)) hlt)
          v10 (constant (F := Ideal) S256x2048 .f32 0x00000000#32))
        (broadcast S256x2048 (Scalar.ofBits (F := Ideal) .f32 0x3D000000#32)) (ix2 r j)
      = scoreRow v3 v6 v10 r j := by
  refine (mulf_apply _ _ _).trans ?_
  refine congrArg₂ (· * ·) ?_ rfl
  refine (mm_b _ v10 r j).trans ?_
  refine congrArg (fun u => dotE u _) (funext fun f => ?_)
  refine (mm_a _ _ r f).trans ?_
  rw [shapeCast_self]
  refine congrArg (fun u => dotE u _) (funext fun e => ?_)
  exact shapeCast_1ab_ab_apply v3 hsc1 r e

/-- The scaled scores as one vector: the term the body computes them by. -/
abbrev scoreVec (v3 : FVec Ideal S1x256x1024 .f32) (v6 : FVec Ideal S1024x1024 .bf16) (v10 : FVec Ideal S1024x2048 .bf16)
    (hsc1 : S1x256x1024.ShapeCasts S256x1024) (hlt : FTy.bits .bf16 < FTy.bits .f32)
    (hw : S1024x1024.ShapeCasts S1024x1024) : FVec Ideal S256x2048 .f32 :=
  mulf (matmul dot_S256x1024_S1024x2048_S256x2048_1_0_0_1_n_n none
        (truncf .bf16 (matmul dot_S256x1024_S1024x1024_S256x1024_1_0_0_1_n_n none (truncf .bf16 (shapeCast S256x1024 v3 hsc1) hlt) (shapeCast S1024x1024 v6 hw)
          (constant (F := Ideal) S256x1024 .f32 0x00000000#32)) hlt)
        v10 (constant (F := Ideal) S256x2048 .f32 0x00000000#32))
      (broadcast S256x2048 (Scalar.ofBits (F := Ideal) .f32 0x3D000000#32))

section Softmax
variable (s13 : FVec Ideal S256x2048 .f32) (hred : S256x2048.Reduces [1] S256) (hφ : FKind.Formats .f32)
  (hmax : (0xFF800000#32 : BitVec 32) = FKind.maximumf.neutral .f32 hφ)
  (hadd : (0x00000000#32 : BitVec 32) = FKind.add.neutral .f32 hφ)
  (hsc : S256.ShapeCasts S256x1) (hbc : S256x1.Broadcasts S256x2048)

/-- exp(s − max of the row), as the body computes it: the row maximum as a column, spread over the columns, subtracted. -/
abbrev expVec : FVec Ideal S256x2048 .f32 :=
  exp (subf s13 (broadcastTo S256x2048 (shapeCast S256x1 (multiReduction (F := Ideal) .maximumf [1] S256 s13 0xFF800000#32 hred hφ hmax) hsc) hbc))

/-- At (r, k) it is exp(s(r, k) − max_j s(r, j)). -/
theorem expVec_at (r : Fin 256) (k : Fin 2048) :
    expVec s13 hred hφ hmax hsc hbc (ix2 r k) = expRow (fun j : Fin 2048 => s13 (ix2 r j)) k := by
  unfold expRow
  refine congrArg (fun m => Ideal.exp (s13 (ix2 r k) - m)) ?_
  refine (broadcastTo_a1_ab_apply _ hbc r k).trans ?_
  refine (shapeCast_a_a1_apply _ hsc r 0).trans ?_
  exact rowMax_at s13 hred hφ hmax r

/-- The normalised row: exp(s − max) times the reciprocal (as a quotient of 1) of the row's sum of them. -/
theorem soft_at (r : Fin 256) (k : Fin 2048) :
    mulf (expVec s13 hred hφ hmax hsc hbc)
        (broadcastTo S256x2048 (divf (broadcast S256x1 (Scalar.ofBits (F := Ideal) .f32 0x3F800000#32))
          (shapeCast S256x1 (multiReduction (F := Ideal) .add [1] S256 (expVec s13 hred hφ hmax hsc hbc) 0x00000000#32 hred hφ hadd) hsc)) hbc)
        (ix2 r k)
      = softRow (fun j : Fin 2048 => s13 (ix2 r j)) k := by
  refine (mulf_apply _ _ _).trans ?_
  unfold softRow
  refine congrArg₂ (· * ·) (expVec_at s13 hred hφ hmax hsc hbc r k) ?_
  refine (broadcastTo_a1_ab_apply _ hbc r k).trans ?_
  refine (divf_apply _ _ _).trans ?_
  refine congrArg₂ Ideal.div rfl ?_
  refine (shapeCast_a_a1_apply _ hsc r 0).trans ?_
  refine (rowSum_at _ hred hφ hadd r).trans ?_
  exact Finset.sum_congr rfl fun j _ => expVec_at s13 hred hφ hmax hsc hbc r j

end Softmax

section Attention
variable (v3 : Vec Ideal S1x256x1024 .f32) (v6 : Vec Ideal S1024x1024 .bf16) (v10 : Vec Ideal S1024x2048 .bf16)

/-- The attention block at (r, k): the softmax of the row of scaled scores. -/
theorem k0_pay30_at (r : Fin 256) (k : Fin 2048) :
    k0_pay30 (F := Ideal) v3 v6 v10 (ix2 r k) = softRow (fun j : Fin 2048 => scoreRow v3 v6 v10 r j) k :=
  (soft_at (scoreVec v3 v6 v10 shapeCasts_S1x256x1024_S256x1024 bitsLt_bf16_f32 shapeCasts_S1024x1024_S1024x1024)
      reduces_S256x2048_S256 (.inl rfl) rfl rfl shapeCasts_S256_S256x1 broadcasts_S256x1_S256x2048 r k).trans
    (congrArg (fun s : Fin 2048 → EReal => softRow s k) (funext fun j => score_at v3 v6 v10 _ _ _ r j))

/-- The same block as it is stored, with a leading unit axis. -/
theorem k0_pay31_at (r : Fin 256) (k : Fin 2048) :
    k0_pay31 (F := Ideal) v3 v6 v10 (ix3 0 r k) = softRow (fun j : Fin 2048 => scoreRow v3 v6 v10 r j) k :=
  (shapeCast_ab_1ab_apply (k0_pay30 (F := Ideal) v3 v6 v10) shapeCasts_S256x2048_S1x256x2048 0 r k).trans (k0_pay30_at v3 v6 v10 r k)

end Attention

/-! ## The output block -/

section Output
variable (v3 : Vec Ideal S1x256x1024 .f32) (v6 : Vec Ideal S1024x1024 .bf16) (v10 : Vec Ideal S1024x2048 .bf16)
  (v29 : Vec Ideal S2048x1024 .bf16) (v32 : Vec Ideal S1024x1024 .bf16) (v35 : Vec Ideal S1024 .f32)

/-- The attention block times the values, at (r, e): Σ_k att(r, k) · v(k, e). -/
theorem k0_pay32_at (r : Fin 256) (e : Fin 1024) :
    k0_pay32 (F := Ideal) v3 v6 v10 v29 (ix2 r e)
      = dotE (fun k : Fin 2048 => k0_pay30 (F := Ideal) v3 v6 v10 (ix2 r k)) (fun k => v29 (ix2 k e)) :=
  mm_c (φ₁ := .bf16) (φ₂ := .bf16) (truncf .bf16 (k0_pay30 (F := Ideal) v3 v6 v10) bitsLt_bf16_f32) v29 r e

/-- A product with the output weights plus the bias row, at (r, f), whatever the left operand. -/
theorem out_tail (x : FVec Ideal S256x1024 .bf16) (w : FVec Ideal S1024x1024 .bf16) (b : FVec Ideal S1024 .f32)
    (r : Fin 256) (f : Fin 1024) :
    k0_pay1 (F := Ideal) x w b (ix3 0 r f) = dotE (fun e : Fin 1024 => x (ix2 r e)) (fun e => w (ix2 e f)) + b (ix1 f) := by
  unfold k0_pay1
  refine (shapeCast_ab_1ab_apply _ shapeCasts_S256x1024_S1x256x1024 0 r f).trans ?_
  refine (addf_apply _ _ _).trans ?_
  refine congrArg₂ (· + ·) ?_ ?_
  · rw [shapeCast_self]
    exact mm_a x w r f
  · refine (broadcastTo_1b_ab_apply _ broadcasts_S1x1024_S256x1024 r f).trans ?_
    exact shapeCast_a_1a_apply b shapeCasts_S1024_S1x1024 0 f

/-- The output block at (r, f): ((att · v) · wo)(r, f) + bias(f). -/
theorem k0_pay1_at (r : Fin 256) (f : Fin 1024) :
    k0_pay1 (F := Ideal) (k0_pay32 (F := Ideal) v3 v6 v10 v29) v32 v35 (ix3 0 r f)
      = dotE (fun e : Fin 1024 => dotE (fun k : Fin 2048 => k0_pay30 (F := Ideal) v3 v6 v10 (ix2 r k)) (fun k => v29 (ix2 k e)))
          (fun e => v32 (ix2 e f)) + v35 (ix1 f) :=
  (out_tail (k0_pay32 (F := Ideal) v3 v6 v10 v29) v32 v35 r f).trans
    (congrArg (fun u : Fin 1024 → EReal => dotE u (fun e => v32 (ix2 e f)) + v35 (ix1 f))
      (funext fun e => k0_pay32_at v3 v6 v10 v29 r e))

end Output

end Cert.PayloadAt

end
-- ==== Proof.IdealValue.Found.lean ====
/-
  What the body's stores amount to, at the extended reals.

  At a batch's first tile the eight column tiles stored into the transposed-key scratch are the eight tiles of KT of the
  batch's x block, and the eight row tiles stored into the value scratch those of VV: so each scratch, read back whole — by
  the body itself a few lines later, or by the next point — is KT, respectively VV. The attention block is then the row
  softmax payload of the context block, the query weights and KT, and the output block the output payload of those, VV,
  the output weights and the bias. At a later tile the same two payloads are applied to whatever the scratch buffers held.
-/
import proofs.«147508_j77403900608902_2_alg».proof.Proof.IdealBody.Frame
import proofs.«147508_j77403900608902_2_alg».proof.Proof.IdealValue.Pieces
import proofs.«147508_j77403900608902_2_alg».proof.Proof.PayloadAt

set_option maxRecDepth 16384

noncomputable section

namespace Cert.KernelIdeal.BodyValue

open Cert.KernelIdeal Cert.KernelIdeal.Gen Cert.KernelIdeal.Body Cert.AttnSpec Cert.PayloadAt
open Idealize.ShloMosaic Idealize.ShloMosaic.ValueIdx Idealize.ShloMosaic.TcCoe Idealize.ShloMosaic.Tactic
open Idealize.SL Idealize.SL.Sem

/-! ## The first tile of a batch -/

set_option maxHeartbeats 1000000 in
/-- The eight stores into the transposed-key scratch leave KT of the x block. -/
theorem canonKA (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : cond0 i) (x0 : Vec Ideal S1x256x1024 .f32) (x1 : Vec Ideal S1x2048x1024 .f32) (x2 x3 x4 x5 : Vec Ideal S1024x1024 .bf16) (x6 : Vec Ideal S1024 .f32) :
    View.canon (kernelRunA (F := Ideal) c i arg2 harg2 arg3 harg3 arg4 harg4 arg5 harg5 arg6 harg6 arg7 harg7 arg8 harg8 arg9 harg9 arg10 harg10 arg11 harg11 arg12 harg12 hc0 x0 x1 x2 x3 x4 x5 x6).2.2.1 = KTof x1 x3 := by
  funext y
  refine View.canon_apply_of_pieces (KTof x1 x3) _ ?_ y (coverKA c i arg2 harg2 arg3 harg3 arg4 harg4 arg5 harg5 arg6 harg6 arg7 harg7 arg8 harg8 arg9 harg9 arg10 harg10 arg11 harg11 arg12 harg12 hc0 x0 x1 x2 x3 x4 x5 x6 y)
  unfold kernelRunA; dsimp only; sl_unfold_words
  intro p hp
  rcases List.mem_cons.mp hp with rfl | hp
  · intro x; exact keyPiece (fun v w => k0_pay28 (F := Ideal) v w) k0_pay28_at arg3 harg3 arg5 harg5 x1 x3 (by decide) (fun _ => rfl) (by decide) 1792 (by decide) (by decide) (by decide) x
  rcases List.mem_cons.mp hp with rfl | hp
  · intro x; exact keyPiece (fun v w => k0_pay25 (F := Ideal) (k0_pay24 v w)) k0_pay25_at arg3 harg3 arg5 harg5 x1 x3 (by decide) (fun _ => rfl) (by decide) 1536 (by decide) (by decide) (by decide) x
  rcases List.mem_cons.mp hp with rfl | hp
  · intro x; exact keyPiece (fun v w => k0_pay20 (F := Ideal) v w) k0_pay20_at arg3 harg3 arg5 harg5 x1 x3 (by decide) (fun _ => rfl) (by decide) 1280 (by decide) (by decide) (by decide) x
  rcases List.mem_cons.mp hp with rfl | hp
  · intro x; exact keyPiece (fun v w => k0_pay17 (F := Ideal) v w) k0_pay17_at arg3 harg3 arg5 harg5 x1 x3 (by decide) (fun _ => rfl) (by decide) 1024 (by decide) (by decide) (by decide) x
  rcases List.mem_cons.mp hp with rfl | hp
  · intro x; exact keyPiece (fun v w => k0_pay14 (F := Ideal) (k0_pay13 v) w) k0_pay14_at arg3 harg3 arg5 harg5 x1 x3 (by decide) (fun _ => rfl) (by decide) 768 (by decide) (by decide) (by decide) x
  rcases List.mem_cons.mp hp with rfl | hp
  · intro x; exact keyPiece (fun v w => k0_pay11 (F := Ideal) v w) k0_pay11_at arg3 harg3 arg5 harg5 x1 x3 (by decide) (fun _ => rfl) (by decide) 512 (by decide) (by decide) (by decide) x
  rcases List.mem_cons.mp hp with rfl | hp
  · intro x; exact keyPiece (fun v w => k0_pay8 (F := Ideal) (k0_pay7 v w)) k0_pay8_at arg3 harg3 arg5 harg5 x1 x3 (by decide) (fun _ => rfl) (by decide) 256 (by decide) (by decide) (by decide) x
  rcases List.mem_cons.mp hp with rfl | hp
  · intro x; exact keyPiece (fun v w => k0_pay3 (F := Ideal) v w) k0_pay3_at arg3 harg3 arg5 harg5 x1 x3 (by decide) (fun _ => rfl) (by decide) 0 (by decide) (by decide) (by decide) x
  exact absurd hp List.not_mem_nil

set_option maxHeartbeats 1000000 in
/-- The eight stores into the value scratch leave VV of the x block. -/
theorem canonVA (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : cond0 i) (x0 : Vec Ideal S1x256x1024 .f32) (x1 : Vec Ideal S1x2048x1024 .f32) (x2 x3 x4 x5 : Vec Ideal S1024x1024 .bf16) (x6 : Vec Ideal S1024 .f32) :
    View.canon (kernelRunA (F := Ideal) c i arg2 harg2 arg3 harg3 arg4 harg4 arg5 harg5 arg6 harg6 arg7 harg7 arg8 harg8 arg9 harg9 arg10 harg10 arg11 harg11 arg12 harg12 hc0 x0 x1 x2 x3 x4 x5 x6).2.2.2.1 = VVof x1 x4 := by
  funext y
  refine View.canon_apply_of_pieces (VVof x1 x4) _ ?_ y (coverVA c i arg2 harg2 arg3 harg3 arg4 harg4 arg5 harg5 arg6 harg6 arg7 harg7 arg8 harg8 arg9 harg9 arg10 harg10 arg11 harg11 arg12 harg12 hc0 x0 x1 x2 x3 x4 x5 x6 y)
  unfold kernelRunA; dsimp only; sl_unfold_words
  intro p hp
  rcases List.mem_cons.mp hp with rfl | hp
  · intro x; exact valPiece (fun v w => k0_pay29 (F := Ideal) v w) k0_pay29_at arg3 harg3 arg6 harg6 x1 x4 (by decide) (fun _ => rfl) (by decide) 1792 (by decide) (by decide) (by decide) x
  rcases List.mem_cons.mp hp with rfl | hp
  · intro x; exact valPiece (fun v w => k0_pay26 (F := Ideal) (k0_pay23 v w)) k0_pay26_at arg3 harg3 arg6 harg6 x1 x4 (by decide) (fun _ => rfl) (by decide) 1536 (by decide) (by decide) (by decide) x
  rcases List.mem_cons.mp hp with rfl | hp
  · intro x; exact valPiece (fun v w => k0_pay21 (F := Ideal) v w) k0_pay21_at arg3 harg3 arg6 harg6 x1 x4 (by decide) (fun _ => rfl) (by decide) 1280 (by decide) (by decide) (by decide) x
  rcases List.mem_cons.mp hp with rfl | hp
  · intro x; exact valPiece (fun v w => k0_pay18 (F := Ideal) v w) k0_pay18_at arg3 harg3 arg6 harg6 x1 x4 (by decide) (fun _ => rfl) (by decide) 1024 (by decide) (by decide) (by decide) x
  rcases List.mem_cons.mp hp with rfl | hp
  · intro x; exact valPiece (fun v w => k0_pay15 (F := Ideal) (k0_pay13 v) w) k0_pay15_at arg3 harg3 arg6 harg6 x1 x4 (by decide) (fun _ => rfl) (by decide) 768 (by decide) (by decide) (by decide) x
  rcases List.mem_cons.mp hp with rfl | hp
  · intro x; exact valPiece (fun v w => k0_pay12 (F := Ideal) v w) k0_pay12_at arg3 harg3 arg6 harg6 x1 x4 (by decide) (fun _ => rfl) (by decide) 512 (by decide) (by decide) (by decide) x
  rcases List.mem_cons.mp hp with rfl | hp
  · intro x; exact valPiece (fun v w => k0_pay9 (F := Ideal) (k0_pay6 v w)) k0_pay9_at arg3 harg3 arg6 harg6 x1 x4 (by decide) (fun _ => rfl) (by decide) 256 (by decide) (by decide) (by decide) x
  rcases List.mem_cons.mp hp with rfl | hp
  · intro x; exact valPiece (fun v w => k0_pay4 (F := Ideal) v w) k0_pay4_at arg3 harg3 arg6 harg6 x1 x4 (by decide) (fun _ => rfl) (by decide) 0 (by decide) (by decide) (by decide) x
  exact absurd hp List.not_mem_nil

theorem soutKA_eq (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : cond0 i) (x0 : Vec Ideal S1x256x1024 .f32) (x1 : Vec Ideal S1x2048x1024 .f32) (x2 x3 x4 x5 : Vec Ideal S1024x1024 .bf16) (x6 : Vec Ideal S1024 .f32) :
    soutKA (F := Ideal) c i arg2 harg2 arg3 harg3 arg4 harg4 arg5 harg5 arg6 harg6 arg7 harg7 arg8 harg8 arg9 harg9 arg10 harg10 arg11 harg11 arg12 harg12 hc0 x0 x1 x2 x3 x4 x5 x6 = KTof x1 x3 := by
  unfold soutKA
  rw [View.read_writes_eq_canon _ _ _ (coverKA c i arg2 harg2 arg3 harg3 arg4 harg4 arg5 harg5 arg6 harg6 arg7 harg7 arg8 harg8 arg9 harg9 arg10 harg10 arg11 harg11 arg12 harg12 hc0 x0 x1 x2 x3 x4 x5 x6)]
  exact canonKA c i arg2 harg2 arg3 harg3 arg4 harg4 arg5 harg5 arg6 harg6 arg7 harg7 arg8 harg8 arg9 harg9 arg10 harg10 arg11 harg11 arg12 harg12 hc0 x0 x1 x2 x3 x4 x5 x6

theorem soutVA_eq (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : cond0 i) (x0 : Vec Ideal S1x256x1024 .f32) (x1 : Vec Ideal S1x2048x1024 .f32) (x2 x3 x4 x5 : Vec Ideal S1024x1024 .bf16) (x6 : Vec Ideal S1024 .f32) :
    soutVA (F := Ideal) c i arg2 harg2 arg3 harg3 arg4 harg4 arg5 harg5 arg6 harg6 arg7 harg7 arg8 harg8 arg9 harg9 arg10 harg10 arg11 harg11 arg12 harg12 hc0 x0 x1 x2 x3 x4 x5 x6 = VVof x1 x4 := by
  unfold soutVA
  rw [View.read_writes_eq_canon _ _ _ (coverVA c i arg2 harg2 arg3 harg3 arg4 harg4 arg5 harg5 arg6 harg6 arg7 harg7 arg8 harg8 arg9 harg9 arg10 harg10 arg11 harg11 arg12 harg12 hc0 x0 x1 x2 x3 x4 x5 x6)]
  exact canonVA c i arg2 harg2 arg3 harg3 arg4 harg4 arg5 harg5 arg6 harg6 arg7 harg7 arg8 harg8 arg9 harg9 arg10 harg10 arg11 harg11 arg12 harg12 hc0 x0 x1 x2 x3 x4 x5 x6

/-- The body's own whole load of the transposed-key scratch, after its eight stores, reads KT. -/
theorem readCovKA (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : cond0 i) (x0 : Vec Ideal S1x256x1024 .f32) (x1 : Vec Ideal S1x2048x1024 .f32) (x2 x3 x4 x5 : Vec Ideal S1024x1024 .bf16) (x6 : Vec Ideal S1024 .f32)
    (inb : ∀ a, (![0, 0] : Fin 2 → Nat) a + S1024x2048.size a ≤ S1024x2048.size a) :
    arg11.view.readCov (kernelRunA (F := Ideal) c i arg2 harg2 arg3 harg3 arg4 harg4 arg5 harg5 arg6 harg6 arg7 harg7 arg8 harg8 arg9 harg9 arg10 harg10 arg11 harg11 arg12 harg12 hc0 x0 x1 x2 x3 x4 x5 x6).2.2.1 (Rect.unit (s := S1024x2048) ![0, 0] S1024x2048.size inb).toLoadRect = KTof x1 x3 := by
  rw [View.readCov_eq_canon_ld _ _ _ (coverKA c i arg2 harg2 arg3 harg3 arg4 harg4 arg5 harg5 arg6 harg6 arg7 harg7 arg8 harg8 arg9 harg9 arg10 harg10 arg11 harg11 arg12 harg12 hc0 x0 x1 x2 x3 x4 x5 x6), canonKA, View.ld_unit_zero zero2]

/-- and of the value scratch, VV. -/
theorem readCovVA (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : cond0 i) (x0 : Vec Ideal S1x256x1024 .f32) (x1 : Vec Ideal S1x2048x1024 .f32) (x2 x3 x4 x5 : Vec Ideal S1024x1024 .bf16) (x6 : Vec Ideal S1024 .f32)
    (inb : ∀ a, (![0, 0] : Fin 2 → Nat) a + S2048x1024.size a ≤ S2048x1024.size a) :
    arg12.view.readCov (kernelRunA (F := Ideal) c i arg2 harg2 arg3 harg3 arg4 harg4 arg5 harg5 arg6 harg6 arg7 harg7 arg8 harg8 arg9 harg9 arg10 harg10 arg11 harg11 arg12 harg12 hc0 x0 x1 x2 x3 x4 x5 x6).2.2.2.1 (Rect.unit (s := S2048x1024) ![0, 0] S2048x1024.size inb).toLoadRect = VVof x1 x4 := by
  rw [View.readCov_eq_canon_ld _ _ _ (coverVA c i arg2 harg2 arg3 harg3 arg4 harg4 arg5 harg5 arg6 harg6 arg7 harg7 arg8 harg8 arg9 harg9 arg10 harg10 arg11 harg11 arg12 harg12 hc0 x0 x1 x2 x3 x4 x5 x6), canonVA, View.ld_unit_zero zero2]

set_option maxHeartbeats 1000000 in
/-- The attention block at a first tile. -/
theorem out8A_eq (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : cond0 i) (x0 : Vec Ideal S1x256x1024 .f32) (x1 : Vec Ideal S1x2048x1024 .f32) (x2 x3 x4 x5 : Vec Ideal S1024x1024 .bf16) (x6 : Vec Ideal S1024 .f32) :
    out8A (F := Ideal) c i arg2 harg2 arg3 harg3 arg4 harg4 arg5 harg5 arg6 harg6 arg7 harg7 arg8 harg8 arg9 harg9 arg10 harg10 arg11 harg11 arg12 harg12 hc0 x0 x1 x2 x3 x4 x5 x6 = k0_pay31 (F := Ideal) x0 x2 (KTof x1 x3) := by
  have step : out8A (F := Ideal) c i arg2 harg2 arg3 harg3 arg4 harg4 arg5 harg5 arg6 harg6 arg7 harg7 arg8 harg8 arg9 harg9 arg10 harg10 arg11 harg11 arg12 harg12 hc0 x0 x1 x2 x3 x4 x5 x6
      = k0_pay31 (F := Ideal)
          (View.readAt (Elt Ideal) arg2.view (Rect.unit (s := S1x256x1024) ![0, 0, 0] S1x256x1024.size inb_S1x256x1024_S1x256x1024_0_0_0).toLoadRect (harg2.unread x0))
          (View.readAt (Elt Ideal) arg4.view (Rect.unit (s := S1024x1024) ![0, 0] S1024x1024.size inb_S1024x1024_S1024x1024_0_0).toLoadRect (harg4.unread x2))
          (arg11.view.readCov (kernelRunA (F := Ideal) c i arg2 harg2 arg3 harg3 arg4 harg4 arg5 harg5 arg6 harg6 arg7 harg7 arg8 harg8 arg9 harg9 arg10 harg10 arg11 harg11 arg12 harg12 hc0 x0 x1 x2 x3 x4 x5 x6).2.2.1 (Rect.unit (s := S1024x2048) ![0, 0] S1024x2048.size inb_S1024x2048_S1024x2048_0_0).toLoadRect) := by
    unfold out8A
    rw [View.read_writes_eq_canon _ _ _ (cover8A c i arg2 harg2 arg3 harg3 arg4 harg4 arg5 harg5 arg6 harg6 arg7 harg7 arg8 harg8 arg9 harg9 arg10 harg10 arg11 harg11 arg12 harg12 hc0 x0 x1 x2 x3 x4 x5 x6)]
    unfold kernelRunA; dsimp only; sl_unfold_words
    rw [View.canon_unit_zero zero3]
  rw [step, readCovKA, readAt_whole arg2 harg2 zero3, readAt_whole arg4 harg4 zero2]

set_option maxHeartbeats 1000000 in
/-- The output block at a first tile. -/
theorem out7A_eq (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : cond0 i) (x0 : Vec Ideal S1x256x1024 .f32) (x1 : Vec Ideal S1x2048x1024 .f32) (x2 x3 x4 x5 : Vec Ideal S1024x1024 .bf16) (x6 : Vec Ideal S1024 .f32) :
    out7A (F := Ideal) c i arg2 harg2 arg3 harg3 arg4 harg4 arg5 harg5 arg6 harg6 arg7 harg7 arg8 harg8 arg9 harg9 arg10 harg10 arg11 harg11 arg12 harg12 hc0 x0 x1 x2 x3 x4 x5 x6 = k0_pay1 (F := Ideal) (k0_pay32 x0 x2 (KTof x1 x3) (VVof x1 x4)) x5 x6 := by
  have step : out7A (F := Ideal) c i arg2 harg2 arg3 harg3 arg4 harg4 arg5 harg5 arg6 harg6 arg7 harg7 arg8 harg8 arg9 harg9 arg10 harg10 arg11 harg11 arg12 harg12 hc0 x0 x1 x2 x3 x4 x5 x6
      = k0_pay1 (F := Ideal) (k0_pay32
          (View.readAt (Elt Ideal) arg2.view (Rect.unit (s := S1x256x1024) ![0, 0, 0] S1x256x1024.size inb_S1x256x1024_S1x256x1024_0_0_0).toLoadRect (harg2.unread x0))
          (View.readAt (Elt Ideal) arg4.view (Rect.unit (s := S1024x1024) ![0, 0] S1024x1024.size inb_S1024x1024_S1024x1024_0_0).toLoadRect (harg4.unread x2))
          (arg11.view.readCov (kernelRunA (F := Ideal) c i arg2 harg2 arg3 harg3 arg4 harg4 arg5 harg5 arg6 harg6 arg7 harg7 arg8 harg8 arg9 harg9 arg10 harg10 arg11 harg11 arg12 harg12 hc0 x0 x1 x2 x3 x4 x5 x6).2.2.1 (Rect.unit (s := S1024x2048) ![0, 0] S1024x2048.size inb_S1024x2048_S1024x2048_0_0).toLoadRect)
          (arg12.view.readCov (kernelRunA (F := Ideal) c i arg2 harg2 arg3 harg3 arg4 harg4 arg5 harg5 arg6 harg6 arg7 harg7 arg8 harg8 arg9 harg9 arg10 harg10 arg11 harg11 arg12 harg12 hc0 x0 x1 x2 x3 x4 x5 x6).2.2.2.1 (Rect.unit (s := S2048x1024) ![0, 0] S2048x1024.size inb_S2048x1024_S2048x1024_0_0).toLoadRect))
          (View.readAt (Elt Ideal) arg7.view (Rect.unit (s := S1024x1024) ![0, 0] S1024x1024.size inb_S1024x1024_S1024x1024_0_0).toLoadRect (harg7.unread x5))
          (View.readAt (Elt Ideal) arg8.view (Rect.unit (s := S1024) ![0] S1024.size inb_S1024_S1024_0).toLoadRect (harg8.unread x6)) := by
    unfold out7A
    rw [View.read_writes_eq_canon _ _ _ (cover7A c i arg2 harg2 arg3 harg3 arg4 harg4 arg5 harg5 arg6 harg6 arg7 harg7 arg8 harg8 arg9 harg9 arg10 harg10 arg11 harg11 arg12 harg12 hc0 x0 x1 x2 x3 x4 x5 x6)]
    unfold kernelRunA; dsimp only; sl_unfold_words
    rw [View.canon_unit_zero zero3]
  rw [step, readCovKA, readCovVA, readAt_whole arg2 harg2 zero3, readAt_whole arg4 harg4 zero2, readAt_whole arg7 harg7 zero2,
    readAt_whole arg8 harg8 zero1]

/-! ## A later tile -/

set_option maxHeartbeats 1000000 in
/-- The attention block at a later tile, from what the transposed-key scratch holds. -/
theorem out8B_eq (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : ¬cond0 i) (x0 : Vec Ideal S1x256x1024 .f32) (x1 : Vec Ideal S1x2048x1024 .f32) (x2 x3 x4 x5 : Vec Ideal S1024x1024 .bf16) (x6 : Vec Ideal S1024 .f32) (xK : Vec Ideal S1024x2048 .bf16) (xV : Vec Ideal S2048x1024 .bf16) :
    out8B (F := Ideal) c i arg2 harg2 arg3 harg3 arg4 harg4 arg5 harg5 arg6 harg6 arg7 harg7 arg8 harg8 arg9 harg9 arg10 harg10 arg11 harg11 arg12 harg12 hc0 x0 x1 x2 x3 x4 x5 x6 xK xV = k0_pay31 (F := Ideal) x0 x2 xK := by
  unfold out8B
  rw [View.read_writes_eq_canon _ _ _ (cover8B c i arg2 harg2 arg3 harg3 arg4 harg4 arg5 harg5 arg6 harg6 arg7 harg7 arg8 harg8 arg9 harg9 arg10 harg10 arg11 harg11 arg12 harg12 hc0 x0 x1 x2 x3 x4 x5 x6 xK xV)]
  unfold kernelRunB; dsimp only; sl_unfold_words
  rw [View.canon_unit_zero zero3, readAt_whole arg2 harg2 zero3, readAt_whole arg4 harg4 zero2, readAt_whole arg11 harg11 zero2]

set_option maxHeartbeats 1000000 in
/-- The output block at a later tile, from what both scratch buffers hold. -/
theorem out7B_eq (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x256x1024 .f32) (harg9 : arg9.IsWhole) (arg10 : Memref sig .tc .vmem S1x256x2048 .f32) (harg10 : arg10.IsWhole) (arg11 : Memref sig .tc .vmem S1024x2048 .bf16) (harg11 : arg11.IsWhole) (arg12 : Memref sig .tc .vmem S2048x1024 .bf16) (harg12 : arg12.IsWhole) (hc0 : ¬cond0 i) (x0 : Vec Ideal S1x256x1024 .f32) (x1 : Vec Ideal S1x2048x1024 .f32) (x2 x3 x4 x5 : Vec Ideal S1024x1024 .bf16) (x6 : Vec Ideal S1024 .f32) (xK : Vec Ideal S1024x2048 .bf16) (xV : Vec Ideal S2048x1024 .bf16) :
    out7B (F := Ideal) c i arg2 harg2 arg3 harg3 arg4 harg4 arg5 harg5 arg6 harg6 arg7 harg7 arg8 harg8 arg9 harg9 arg10 harg10 arg11 harg11 arg12 harg12 hc0 x0 x1 x2 x3 x4 x5 x6 xK xV = k0_pay1 (F := Ideal) (k0_pay32 x0 x2 xK xV) x5 x6 := by
  unfold out7B
  rw [View.read_writes_eq_canon _ _ _ (cover7B c i arg2 harg2 arg3 harg3 arg4 harg4 arg5 harg5 arg6 harg6 arg7 harg7 arg8 harg8 arg9 harg9 arg10 harg10 arg11 harg11 arg12 harg12 hc0 x0 x1 x2 x3 x4 x5 x6 xK xV)]
  unfold kernelRunB; dsimp only; sl_unfold_words
  rw [View.canon_unit_zero zero3, readAt_whole arg2 harg2 zero3, readAt_whole arg4 harg4 zero2, readAt_whole arg11 harg11 zero2,
    readAt_whole arg12 harg12 zero2, readAt_whole arg7 harg7 zero2, readAt_whole arg8 harg8 zero1]

end Cert.KernelIdeal.BodyValue

end
-- ==== Proof.IdealValue.Blocks.lean ====
/-
  The blocks the body is handed at point t, read off the arrays.

  Point t of the 16 × 8 grid is batch t / 8, tile t % 8. The context window's block is rows 256·(t % 8) … + 255 of batch
  t / 8; the x window's block is all 2048 rows of batch t / 8; the four weight windows and the bias window are the whole
  arrays at every point; the two output windows' blocks sit where the context block does. The index maps are printed
  functions of the grid coordinates: their values are decided once over the 128 points, and a block's coordinate is always
  block index × block extent + the coordinate inside the block.
-/
import proofs.«147508_j77403900608902_2_alg».proof.Proof.IdealBody.Frame
import proofs.«147508_j77403900608902_2_alg».proof.Proof.AttnSpec
import Idealize.ShloMosaic.Lib.Pipeline.Value
import Idealize.ShloMosaic.Lib.ValueIdx

set_option maxRecDepth 16384

noncomputable section

namespace Cert.KernelIdeal.BodyValue

open Cert.KernelIdeal Cert.KernelIdeal.Gen Cert.KernelIdeal.Body Cert.AttnSpec
open Idealize.ShloMosaic Idealize.ShloMosaic.ValueIdx Idealize.ShloMosaic.TcCoe
open Idealize.SL Idealize.SL.Sem

variable (m : (ℓ : Loc nD τ sig) → Buf (Elt Ideal) ℓ) (c : Dev nD)

/-- The arrays as the region finds them: x, the context, the bias; and the four weight matrices in their [out, in]
    arrangement, read back from the transposed copies the region is given (entry (f, e) is the copy's entry (e, f)). -/
def arrX : A3.Idx → EReal := V m c main_arg0
def arrC : A3.Idx → EReal := V m c main_arg1
def arrB : B1.Idx → EReal := V m c main_arg6
def arrWq : W2.Idx → EReal := fun y => (V m c main_v1 : S1024x1024.Idx → EReal) (ix2 (y 1) (y 0))
def arrWk : W2.Idx → EReal := fun y => (V m c main_v3 : S1024x1024.Idx → EReal) (ix2 (y 1) (y 0))
def arrWv : W2.Idx → EReal := fun y => (V m c main_v5 : S1024x1024.Idx → EReal) (ix2 (y 1) (y 0))
def arrWo : W2.Idx → EReal := fun y => (V m c main_v7 : S1024x1024.Idx → EReal) (ix2 (y 1) (y 0))

/-- The batch of a point, and the first row of its tile. -/
def batchOf (n : ℕ) (hn : n < cfg0.N) : Fin 16 := ⟨n / 8, by have : cfg0.N = 128 := N_0; omega⟩
def rowOf (n : ℕ) (hn : n < cfg0.N) (r : Fin 256) : Fin 2048 := ⟨256 * (n % 8) + r.val, by have := r.isLt; omega⟩

/-- The printed index maps over the grid. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 3) = t.val / 8 ∧ win0_7.index t (1 : Fin 3) = t.val % 8 ∧ win0_7.index t (2 : Fin 3) = 0
    ∧ win0_8.index t (0 : Fin 3) = t.val / 8 ∧ win0_8.index t (1 : Fin 3) = t.val % 8 ∧ win0_8.index t (2 : Fin 3) = 0 :=
  (by decide +kernel : ∀ t : Fin grid0.N, _)

/-- The context block: rows 256·(t % 8) … of batch t / 8. -/
theorem iblk0_at (t : Fin cfg0.N) (r : Fin 256) (e : Fin 1024) :
    iblk m c 0 t (ix3 0 r e) = arrC m c (ix3 (batchOf t.val t.isLt) (rowOf t.val t.isLt r) e) := by
  obtain ⟨e0, e1, e2, -⟩ := idx_facts t
  show V m c main_arg1 (((cfg0.win 0).blk t).view.emb (ix3 0 r e)) = V m c main_arg1 _
  refine congrArg _ (funext fun a => Fin.ext ?_)
  match a with
  | ⟨0, _⟩ => show win0_0.index t (0 : Fin 3) * 1 + 1 * 0 = t.val / 8; omega
  | ⟨1, _⟩ => show win0_0.index t (1 : Fin 3) * 256 + 1 * r.val = 256 * (t.val % 8) + r.val; omega
  | ⟨2, _⟩ => show win0_0.index t (2 : Fin 3) * 1024 + 1 * e.val = e.val; omega

/-- The x block: all rows of batch t / 8. -/
theorem iblk1_at (t : Fin cfg0.N) (k : Fin 2048) (j : Fin 1024) :
    iblk m c 1 t (ix3 0 k j) = arrX m c (ix3 (batchOf t.val t.isLt) k j) := by
  obtain ⟨-, -, -, e0, e1, e2, -⟩ := idx_facts t
  show V m c main_arg0 (((cfg0.win 1).blk t).view.emb (ix3 0 k j)) = V m c main_arg0 _
  refine congrArg _ (funext fun a => Fin.ext ?_)
  match a with
  | ⟨0, _⟩ => show win0_1.index t (0 : Fin 3) * 1 + 1 * 0 = t.val / 8; omega
  | ⟨1, _⟩ => show win0_1.index t (1 : Fin 3) * 2048 + 1 * k.val = k.val; omega
  | ⟨2, _⟩ => show win0_1.index t (2 : Fin 3) * 1024 + 1 * j.val = j.val; omega

/-- The four weight blocks: the whole transposed copies. -/
theorem iblk2_at (t : Fin cfg0.N) (e f : Fin 1024) : iblk m c 2 t (ix2 e f) = arrWq m c (ix2 f e) := by
  obtain ⟨-, -, -, -, -, -, e0, e1, -⟩ := idx_facts t
  show V m c main_v1 (((cfg0.win 2).blk t).view.emb (ix2 e f)) = V m c main_v1 _
  refine congrArg _ (funext fun a => Fin.ext ?_)
  match a with
  | ⟨0, _⟩ => show win0_2.index t (0 : Fin 2) * 1024 + 1 * e.val = e.val; omega
  | ⟨1, _⟩ => show win0_2.index t (1 : Fin 2) * 1024 + 1 * f.val = f.val; omega
theorem iblk3_at (t : Fin cfg0.N) (e f : Fin 1024) : iblk m c 3 t (ix2 e f) = arrWk m c (ix2 f e) := by
  obtain ⟨-, -, -, -, -, -, -, -, e0, e1, -⟩ := idx_facts t
  show V m c main_v3 (((cfg0.win 3).blk t).view.emb (ix2 e f)) = V m c main_v3 _
  refine congrArg _ (funext fun a => Fin.ext ?_)
  match a with
  | ⟨0, _⟩ => show win0_3.index t (0 : Fin 2) * 1024 + 1 * e.val = e.val; omega
  | ⟨1, _⟩ => show win0_3.index t (1 : Fin 2) * 1024 + 1 * f.val = f.val; omega
theorem iblk4_at (t : Fin cfg0.N) (e f : Fin 1024) : iblk m c 4 t (ix2 e f) = arrWv m c (ix2 f e) := by
  obtain ⟨-, -, -, -, -, -, -, -, -, -, e0, e1, -⟩ := idx_facts t
  show V m c main_v5 (((cfg0.win 4).blk t).view.emb (ix2 e f)) = V m c main_v5 _
  refine congrArg _ (funext fun a => Fin.ext ?_)
  match a with
  | ⟨0, _⟩ => show win0_4.index t (0 : Fin 2) * 1024 + 1 * e.val = e.val; omega
  | ⟨1, _⟩ => show win0_4.index t (1 : Fin 2) * 1024 + 1 * f.val = f.val; omega
theorem iblk5_at (t : Fin cfg0.N) (e f : Fin 1024) : iblk m c 5 t (ix2 e f) = arrWo m c (ix2 f e) := by
  obtain ⟨-, -, -, -, -, -, -, -, -, -, -, -, e0, e1, -⟩ := idx_facts t
  show V m c main_v7 (((cfg0.win 5).blk t).view.emb (ix2 e f)) = V m c main_v7 _
  refine congrArg _ (funext fun a => Fin.ext ?_)
  match a with
  | ⟨0, _⟩ => show win0_5.index t (0 : Fin 2) * 1024 + 1 * e.val = e.val; omega
  | ⟨1, _⟩ => show win0_5.index t (1 : Fin 2) * 1024 + 1 * f.val = f.val; omega

/-- The bias block: the whole bias. -/
theorem iblk6_at (t : Fin cfg0.N) (f : Fin 1024) : iblk m c 6 t (ix1 f) = arrB m c (ix1 f) := by
  obtain ⟨-, -, -, -, -, -, -, -, -, -, -, -, -, -, e0, -⟩ := idx_facts t
  show V m c main_arg6 (((cfg0.win 6).blk t).view.emb (ix1 f)) = V m c main_arg6 _
  refine congrArg _ (funext fun a => Fin.ext ?_)
  match a with
  | ⟨0, _⟩ => show win0_6.index t (0 : Fin 1) * 1024 + 1 * f.val = f.val; omega

end Cert.KernelIdeal.BodyValue

end
-- ==== Proof.IdealValue.Points.lean ====
/-
  What every point leaves, in the specification's terms.

  By induction over the points in grid order: after point t the transposed-key scratch holds KT(e, k) = K(t / 8, k, e) and the
  value scratch VV(k, f) = V(t / 8, k, f), the keys and values of the point's batch — at a batch's first tile because the
  body has just computed them from the batch's x block, at a later tile because the point before left them there and
  (t − 1) / 8 = t / 8. With that, at EVERY point the attention block is the softmax payload of the context rows of the tile
  against those keys, which read at (0, r, k) is att(t / 8, 256·(t % 8) + r, k), and the output block read at (0, r, f) is
  out(t / 8, 256·(t % 8) + r, f).
-/
import proofs.«147508_j77403900608902_2_alg».proof.Proof.IdealValue.Found
import proofs.«147508_j77403900608902_2_alg».proof.Proof.IdealValue.Blocks

set_option maxRecDepth 16384
set_option maxHeartbeats 1600000

noncomputable section

namespace Cert.KernelIdeal.BodyValue

open Cert.KernelIdeal Cert.KernelIdeal.Gen Cert.KernelIdeal.Body Cert.AttnSpec Cert.PayloadAt
open Idealize.ShloMosaic Idealize.ShloMosaic.ValueIdx Idealize.ShloMosaic.TcCoe
open Idealize.SL Idealize.SL.Sem

variable (m : (ℓ : Loc nD τ sig) → Buf (Elt Ideal) ℓ) (c : Dev nD)

/-- The keys of batch b, transposed, and its values, as the scratch buffers hold them. -/
def KTarr (b : Fin 16) : Vec Ideal S1024x2048 .bf16 := fun y => key (arrX m c) (arrWk m c) b (y 1) (y 0)
def VVarr (b : Fin 16) : Vec Ideal S2048x1024 .bf16 := fun y => vlu (arrX m c) (arrWv m c) b (y 0) (y 1)

/-- Computed from the point's x block they are the batch's. -/
theorem KTof_iblk (t : Fin cfg0.N) : KTof (iblk m c 1 t) (iblk m c 3 t) = KTarr m c (batchOf t.val t.isLt) := by
  funext y
  obtain ⟨e, k, rfl⟩ : ∃ (e : Fin 1024) (k : Fin 2048), y = ix2 e k := ⟨y 0, y 1, eq_ix2 y⟩
  show dotE (fun j : Fin 1024 => (iblk m c 1 t : Vec Ideal S1x2048x1024 .f32) (ix3 0 k j)) (fun j => (iblk m c 3 t : Vec Ideal S1024x1024 .bf16) (ix2 j e))
    = dotE (fun j : Fin 1024 => arrX m c (ix3 (batchOf t.val t.isLt) k j)) (fun j => arrWk m c (ix2 e j))
  unfold dotE
  refine Finset.sum_congr rfl fun j _ => ?_
  beta_reduce
  rw [iblk1_at, iblk3_at]

theorem VVof_iblk (t : Fin cfg0.N) : VVof (iblk m c 1 t) (iblk m c 4 t) = VVarr m c (batchOf t.val t.isLt) := by
  funext y
  obtain ⟨k, f, rfl⟩ : ∃ (k : Fin 2048) (f : Fin 1024), y = ix2 k f := ⟨y 0, y 1, eq_ix2 y⟩
  show dotE (fun j : Fin 1024 => (iblk m c 1 t : Vec Ideal S1x2048x1024 .f32) (ix3 0 k j)) (fun j => (iblk m c 4 t : Vec Ideal S1024x1024 .bf16) (ix2 j f))
    = dotE (fun j : Fin 1024 => arrX m c (ix3 (batchOf t.val t.isLt) k j)) (fun j => arrWv m c (ix2 f j))
  unfold dotE
  refine Finset.sum_congr rfl fun j _ => ?_
  beta_reduce
  rw [iblk1_at, iblk4_at]

/-- THE SCRATCH INVARIANT: after point t both scratch buffers hold the keys and values of batch t / 8. -/
theorem scratch_at (t : Fin cfg0.N) :
    (outsAt m c t.val t.isLt).2.2.1 = KTarr m c (batchOf t.val t.isLt) ∧ (outsAt m c t.val t.isLt).2.2.2 = VVarr m c (batchOf t.val t.isLt) := by
  by_cases h0 : t.val % 8 = 0
  · rw [outsAt_A m c t h0]
    dsimp only
    exact ⟨(soutKA_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) ((hcond0 t).mpr h0) (iblk m c 0 t) (iblk m c 1 t) (iblk m c 2 t) (iblk m c 3 t) (iblk m c 4 t) (iblk m c 5 t) (iblk m c 6 t)).trans (KTof_iblk m c t),
      (soutVA_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) ((hcond0 t).mpr h0) (iblk m c 0 t) (iblk m c 1 t) (iblk m c 2 t) (iblk m c 3 t) (iblk m c 4 t) (iblk m c 5 t) (iblk m c 6 t)).trans (VVof_iblk m c t)⟩
  · have hlt : t.val - 1 < t.val := by omega
    have hN : t.val - 1 < cfg0.N := Nat.lt_of_le_of_lt (Nat.sub_le _ _) t.isLt
    have ih := scratch_at ⟨t.val - 1, hN⟩
    have hb : batchOf (t.val - 1) hN = (batchOf t.val t.isLt) := Fin.ext (by show (t.val - 1) / 8 = t.val / 8; omega)
    rw [outsAt_B m c t h0]
    dsimp only
    exact ⟨ih.1.trans (congrArg (KTarr m c) hb), ih.2.trans (congrArg (VVarr m c) hb)⟩
termination_by t.val

/-- Before a later tile the scratch holds the point's own batch. -/
theorem scratch_before (t : Fin cfg0.N) (h0 : ¬t.val % 8 = 0) :
    (outsAt m c (t.val - 1) (Nat.lt_of_le_of_lt (Nat.sub_le _ _) t.isLt)).2.2.1 = KTarr m c (batchOf t.val t.isLt)
    ∧ (outsAt m c (t.val - 1) (Nat.lt_of_le_of_lt (Nat.sub_le _ _) t.isLt)).2.2.2 = VVarr m c (batchOf t.val t.isLt) := by
  have hN : t.val - 1 < cfg0.N := Nat.lt_of_le_of_lt (Nat.sub_le _ _) t.isLt
  have h := scratch_at m c ⟨t.val - 1, hN⟩
  have hb : batchOf (t.val - 1) hN = (batchOf t.val t.isLt) := Fin.ext (by show (t.val - 1) / 8 = t.val / 8; omega)
  exact ⟨h.1.trans (congrArg (KTarr m c) hb), h.2.trans (congrArg (VVarr m c) hb)⟩

/-- At every point the attention block is the softmax payload over the batch's keys, -/
theorem att_blk (t : Fin cfg0.N) :
    (outsAt m c t.val t.isLt).2.1 = k0_pay31 (F := Ideal) (iblk m c 0 t) (iblk m c 2 t) (KTarr m c (batchOf t.val t.isLt)) := by
  by_cases h0 : t.val % 8 = 0
  · rw [outsAt_A m c t h0]
    dsimp only
    exact (out8A_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) ((hcond0 t).mpr h0) (iblk m c 0 t) (iblk m c 1 t) (iblk m c 2 t) (iblk m c 3 t) (iblk m c 4 t) (iblk m c 5 t) (iblk m c 6 t)).trans
      (congrArg (k0_pay31 (F := Ideal) (iblk m c 0 t) (iblk m c 2 t)) (KTof_iblk m c t))
  · rw [outsAt_B m c t h0]
    dsimp only
    exact (out8B_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) (fun h => h0 ((hcond0 t).mp h)) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)).2.2.1 (outsAt m c (t.val - 1) (Nat.lt_of_le_of_lt (Nat.sub_le _ _) t.isLt)).2.2.2).trans
      (congrArg (k0_pay31 (F := Ideal) (iblk m c 0 t) (iblk m c 2 t)) (scratch_before m c t h0).1)

/-- and the output block the output payload over the batch's keys and values. -/
theorem out_blk (t : Fin cfg0.N) :
    (outsAt m c t.val t.isLt).1 = k0_pay1 (F := Ideal) (k0_pay32 (iblk m c 0 t) (iblk m c 2 t) (KTarr m c (batchOf t.val t.isLt)) (VVarr m c (batchOf t.val t.isLt))) (iblk m c 5 t) (iblk m c 6 t) := by
  by_cases h0 : t.val % 8 = 0
  · rw [outsAt_A m c t h0]
    dsimp only
    refine (out7A_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) ((hcond0 t).mpr h0) (iblk m c 0 t) (iblk m c 1 t) (iblk m c 2 t) (iblk m c 3 t) (iblk m c 4 t) (iblk m c 5 t) (iblk m c 6 t)).trans ?_
    rw [KTof_iblk, VVof_iblk]
  · rw [outsAt_B m c t h0]
    dsimp only
    refine (out7B_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) (fun h => h0 ((hcond0 t).mp h)) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)).2.2.1 (outsAt m c (t.val - 1) (Nat.lt_of_le_of_lt (Nat.sub_le _ _) t.isLt)).2.2.2).trans ?_
    rw [(scratch_before m c t h0).1, (scratch_before m c t h0).2]

/-- The score row of a tile row against the batch's keys is the specification's. -/
theorem scoreRow_at (t : Fin cfg0.N) (r : Fin 256) (j : Fin 2048) :
    scoreRow (iblk m c 0 t) (iblk m c 2 t) (KTarr m c (batchOf t.val t.isLt)) r j
      = score (arrX m c) (arrC m c) (arrWq m c) (arrWk m c) (batchOf t.val t.isLt) (rowOf t.val t.isLt r) j := by
  unfold scoreRow score qry dotE KTarr
  simp only [iblk0_at m c t, iblk2_at m c t]

/-- The row softmax at (r, k) is att(t / 8, 256·(t % 8) + r, k). -/
theorem pay30_at (t : Fin cfg0.N) (r : Fin 256) (k : Fin 2048) :
    k0_pay30 (F := Ideal) (iblk m c 0 t) (iblk m c 2 t) (KTarr m c (batchOf t.val t.isLt)) (ix2 r k)
      = att (arrX m c) (arrC m c) (arrWq m c) (arrWk m c) (batchOf t.val t.isLt) (rowOf t.val t.isLt r) k := by
  rw [k0_pay30_at]
  unfold att
  exact congrArg (fun s => softRow s k) (funext fun j => scoreRow_at m c t r j)

/-- THE ATTENTION BLOCK at an index. -/
theorem att_idx (t : Fin cfg0.N) (r : Fin 256) (k : Fin 2048) :
    (outsAt m c t.val t.isLt).2.1 (ix3 0 r k)
      = att (arrX m c) (arrC m c) (arrWq m c) (arrWk m c) (batchOf t.val t.isLt) (rowOf t.val t.isLt r) k := by
  rw [att_blk, k0_pay31_at]
  unfold att
  exact congrArg (fun s => softRow s k) (funext fun j => scoreRow_at m c t r j)

/-- THE OUTPUT BLOCK at an index. -/
theorem out_idx (t : Fin cfg0.N) (r : Fin 256) (f : Fin 1024) :
    (outsAt m c t.val t.isLt).1 (ix3 0 r f)
      = out (arrX m c) (arrC m c) (arrWq m c) (arrWk m c) (arrWv m c) (arrWo m c) (arrB m c) (batchOf t.val t.isLt) (rowOf t.val t.isLt r) f := by
  rw [out_blk, k0_pay1_at]
  unfold out mix dotE VVarr
  simp only [pay30_at m c t, iblk5_at m c t, iblk6_at m c t]

end Cert.KernelIdeal.BodyValue

end
-- ==== Proof.IdealValue.Cover.lean ====
/-
  The two output arrays are covered by the blocks the grid's points write back.

  The grid has 16 × 8 points; point t works on batch t / 8 and on the tile t % 8 of 256 query rows. Each of the two output
  windows has one block per point, of all the columns of those 256 rows of that batch: its block index at point t is
  (t / 8, t % 8, 0), and every point writes its block back. So the element (b, q, f) of an output array lies in the block
  of the point 8 · b + q / 256: on the batch axis the block has extent 1 and starts at b, on the row axis it has extent
  256 and starts at 256 · (q / 256) ≤ q < 256 · (q / 256) + 256, and on the column axis it is the whole axis.
-/
import proofs.«147508_j77403900608902_2_alg».proof.Proof.Gen.KernelIdeal.Points
import proofs.«147508_j77403900608902_2_alg».proof.Proof.Gen.KernelIdeal.Launch
import Idealize.ShloMosaic.Lib.Pipeline.Value

noncomputable section

namespace Cert.KernelIdeal.BodyValue

open Cert.KernelIdeal Cert.KernelIdeal.Gen
open Idealize.ShloMosaic Idealize.ShloMosaic.TcCoe
open Idealize.SL Idealize.SL.Sem

/-- The block indices of the two output windows, decided over the grid: (t / 8, t % 8, 0) at point t. -/
theorem outBlock_index : ∀ t : Fin cfg0.N,
    win0_7.index t (0 : Fin 3) = t.val / 8 ∧ win0_7.index t (1 : Fin 3) = t.val % 8 ∧ win0_7.index t (2 : Fin 3) = 0
    ∧ win0_8.index t (0 : Fin 3) = t.val / 8 ∧ win0_8.index t (1 : Fin 3) = t.val % 8 ∧ win0_8.index t (2 : Fin 3) = 0 :=
  (by decide +kernel : ∀ t : Fin grid0.N, _)

/-- The point whose block holds row q of batch b: 8 · b + q / 256. -/
theorem pointOf (b q : ℕ) (hb : b < 16) (hq : q < 2048) : ∃ t : Fin cfg0.N, t.val = b * 8 + q / 256 := by
  have hN : cfg0.N = 128 := N_0
  exact ⟨⟨b * 8 + q / 256, by omega⟩, rfl⟩

/-- An index of the first output array is in point t's block iff each coordinate is in the block's range on its axis. -/
theorem mem_outBlock7 (t : Fin cfg0.N) (i : S16x2048x1024.Idx) :
    i ∈ ((cfg0.win 7).blk t).view.set ↔ ∀ a : Fin 3, win0_7.index t a * S1x256x1024.size a ≤ (i a).val ∧ (i a).val < win0_7.index t a * S1x256x1024.size a + S1x256x1024.size a := by
  show i ∈ ((View.whole main_v8_0).slice (win0_7.rect t)).set ↔ _
  rw [View.set_slice_whole, Rect.mem_set_unit]
  exact Iff.rfl

/-- The same for the second output array. -/
theorem mem_outBlock8 (t : Fin cfg0.N) (i : S16x2048x2048.Idx) :
    i ∈ ((cfg0.win 8).blk t).view.set ↔ ∀ a : Fin 3, win0_8.index t a * S1x256x2048.size a ≤ (i a).val ∧ (i a).val < win0_8.index t a * S1x256x2048.size a + S1x256x2048.size a := by
  show i ∈ ((View.whole main_v8_1).slice (win0_8.rect t)).set ↔ _
  rw [View.set_slice_whole, Rect.mem_set_unit]
  exact Iff.rfl

/-- Every element of the first output array is in the block some point writes back. -/
theorem cover7 : ∀ i : S16x2048x1024.Idx, ∃ t : Fin cfg0.N, (cfg0.win 7).flush t = true ∧ i ∈ ((cfg0.win 7).blk t).view.set := by
  intro i
  have hi0 : (i 0).val < 16 := (i 0).isLt
  have hi1 : (i 1).val < 2048 := (i 1).isLt
  have hi2 : (i 2).val < 1024 := (i 2).isLt
  obtain ⟨t, ht⟩ := pointOf (i 0).val (i 1).val hi0 hi1
  obtain ⟨e0, e1, e2, -⟩ := outBlock_index t
  refine ⟨t, flush0_7 t, ?_⟩
  rw [mem_outBlock7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 256 ≤ (i 1).val ∧ (i 1).val < win0_7.index t (1 : Fin 3) * 256 + 256; omega
  | ⟨2, _⟩ => show win0_7.index t (2 : Fin 3) * 1024 ≤ (i 2).val ∧ (i 2).val < win0_7.index t (2 : Fin 3) * 1024 + 1024; omega

/-- Every element of the second output array is in the block some point writes back. -/
theorem cover8 : ∀ i : S16x2048x2048.Idx, ∃ t : Fin cfg0.N, (cfg0.win 8).flush t = true ∧ i ∈ ((cfg0.win 8).blk t).view.set := by
  intro i
  have hi0 : (i 0).val < 16 := (i 0).isLt
  have hi1 : (i 1).val < 2048 := (i 1).isLt
  have hi2 : (i 2).val < 2048 := (i 2).isLt
  obtain ⟨t, ht⟩ := pointOf (i 0).val (i 1).val hi0 hi1
  obtain ⟨-, -, -, e0, e1, e2⟩ := outBlock_index t
  refine ⟨t, flush0_8 t, ?_⟩
  rw [mem_outBlock8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 256 ≤ (i 1).val ∧ (i 1).val < win0_8.index t (1 : Fin 3) * 256 + 256; omega
  | ⟨2, _⟩ => show win0_8.index t (2 : Fin 3) * 2048 ≤ (i 2).val ∧ (i 2).val < win0_8.index t (2 : Fin 3) * 2048 + 2048; omega

end Cert.KernelIdeal.BodyValue

end
-- ==== Proof.HostWeights.lean ====
/-
  What the region finds in the four weight windows.

  Before the region the program transposes each weight matrix and narrows it to bf16. On the extended reals a change
  of float format is the identity, and a transposed matrix read at (e, f) is the matrix at (f, e): each window holds
  the launched weight with its two coordinates exchanged.
-/
import proofs.«147508_j77403900608902_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

noncomputable section

namespace Cert.HostWeights

open Cert.KernelIdeal Cert.KernelIdeal.Gen
open Idealize.ShloMosaic Idealize.ShloMosaic.ValueIdx Idealize.ShloMosaic.TcCoe Idealize.SL.Sem Idealize.ShloMosaic.StableHlo

variable (m : (ℓ : Loc nD τ sig) → Buf (Elt Ideal) ℓ) (c : Dev nD)

/-- A launched weight, transposed and narrowed, read at (e, f): the weight at (f, e). -/
theorem narrowed_transpose_at (w : S1024x1024.Idx → EReal) (e f : Fin 1024) :
    (truncf (F := Ideal) .bf16 (transpose S1024x1024 [1, 0] (w : FVec Ideal S1024x1024 .f32)
        Facts₀.transposes_S1024x1024_S1024x1024_1_0) Facts₀.bitsLt_bf16_f32 : S1024x1024.Idx → EReal) (ix2 e f) = w (ix2 f e) :=
  transpose_ix2_apply (a := 1024) (b := 1024) (α := EReal) w Facts₀.transposes_S1024x1024_S1024x1024_1_0 e f

/-- The Wq window holds Wq with its coordinates exchanged. -/
theorem V_v1_at (e f : Fin 1024) :
    (V m c main_v1 : S1024x1024.Idx → EReal) (ix2 e f)
      = (m ((c.tc : Thread nD τ).loc main_arg2) : S1024x1024.Idx → EReal) (ix2 f e) := by
  have h : (V m c main_v1 : S1024x1024.Idx → EReal)
      = truncf (F := Ideal) .bf16 (transpose S1024x1024 [1, 0]
          (m ((c.tc : Thread nD τ).loc main_arg2) : FVec Ideal S1024x1024 .f32) Facts₀.transposes_S1024x1024_S1024x1024_1_0)
          Facts₀.bitsLt_bf16_f32 := by
    dsimp only [Gen.V, Gen.hostOps0]; after_results
  rw [h]; exact narrowed_transpose_at _ e f

/-- The Wk window holds Wk with its coordinates exchanged. -/
theorem V_v3_at (e f : Fin 1024) :
    (V m c main_v3 : S1024x1024.Idx → EReal) (ix2 e f)
      = (m ((c.tc : Thread nD τ).loc main_arg3) : S1024x1024.Idx → EReal) (ix2 f e) := by
  have h : (V m c main_v3 : S1024x1024.Idx → EReal)
      = truncf (F := Ideal) .bf16 (transpose S1024x1024 [1, 0]
          (m ((c.tc : Thread nD τ).loc main_arg3) : FVec Ideal S1024x1024 .f32) Facts₀.transposes_S1024x1024_S1024x1024_1_0)
          Facts₀.bitsLt_bf16_f32 := by
    dsimp only [Gen.V, Gen.hostOps0]; after_results
  rw [h]; exact narrowed_transpose_at _ e f

/-- The Wv window holds Wv with its coordinates exchanged. -/
theorem V_v5_at (e f : Fin 1024) :
    (V m c main_v5 : S1024x1024.Idx → EReal) (ix2 e f)
      = (m ((c.tc : Thread nD τ).loc main_arg4) : S1024x1024.Idx → EReal) (ix2 f e) := by
  have h : (V m c main_v5 : S1024x1024.Idx → EReal)
      = truncf (F := Ideal) .bf16 (transpose S1024x1024 [1, 0]
          (m ((c.tc : Thread nD τ).loc main_arg4) : FVec Ideal S1024x1024 .f32) Facts₀.transposes_S1024x1024_S1024x1024_1_0)
          Facts₀.bitsLt_bf16_f32 := by
    dsimp only [Gen.V, Gen.hostOps0]; after_results
  rw [h]; exact narrowed_transpose_at _ e f

/-- The Wo window holds Wo with its coordinates exchanged. -/
theorem V_v7_at (e f : Fin 1024) :
    (V m c main_v7 : S1024x1024.Idx → EReal) (ix2 e f)
      = (m ((c.tc : Thread nD τ).loc main_arg5) : S1024x1024.Idx → EReal) (ix2 f e) := by
  have h : (V m c main_v7 : S1024x1024.Idx → EReal)
      = truncf (F := Ideal) .bf16 (transpose S1024x1024 [1, 0]
          (m ((c.tc : Thread nD τ).loc main_arg5) : FVec Ideal S1024x1024 .f32) Facts₀.transposes_S1024x1024_S1024x1024_1_0)
          Facts₀.bitsLt_bf16_f32 := by
    dsimp only [Gen.V, Gen.hostOps0]; after_results
  rw [h]; exact narrowed_transpose_at _ e f

end Cert.HostWeights

end
-- ==== Proof.IdealValue.Final.lean ====
/-
  The two output arrays after the run.

  What point t writes back into an output array is the block of the specification's array at the point's block index
  (t / 8, t % 8, 0): the block's entry (0, r, ·) sits at array index (t / 8, 256·(t % 8) + r, ·), which is where the point's
  attention and output blocks read the specification. Every index of either output array lies in some point's block, so
  after the run the arrays ARE the specification's, of the arrays the region found — and those are the launch memory's
  x, context and bias, and the four weight matrices (the region's transposed copies, transposed back).
-/
import proofs.«147508_j77403900608902_2_alg».proof.Proof.IdealValue.Points
import proofs.«147508_j77403900608902_2_alg».proof.Proof.IdealValue.Cover
import proofs.«147508_j77403900608902_2_alg».proof.Proof.HostWeights

set_option maxRecDepth 16384

noncomputable section

namespace Cert.KernelIdeal.BodyValue

open Cert.KernelIdeal Cert.KernelIdeal.Gen Cert.KernelIdeal.Body Cert.AttnSpec
open Idealize.ShloMosaic Idealize.ShloMosaic.ValueIdx Idealize.ShloMosaic.TcCoe
open Idealize.SL Idealize.SL.Sem

variable (m : (ℓ : Loc nD τ sig) → Buf (Elt Ideal) ℓ) (c : Dev nD)

/-- The specification's arrays over the arrays the region found. -/
def outG : S16x2048x1024.Idx → EReal :=
  outArr (arrX m c) (arrC m c) (arrWq m c) (arrWk m c) (arrWv m c) (arrWo m c) (arrB m c)
def attG : S16x2048x2048.Idx → EReal := attArr (arrX m c) (arrC m c) (arrWq m c) (arrWk m c)

/-- What point t writes back into the attention array is its block of `attG`. -/
theorem flushed8_eq (t : Fin cfg0.N) :
    (dats m 0 c).flushed 8 t = ((cfg0.win 8).blk t).view.read (Elt Ideal) (attG m c) := by
  show (cfg0.win 8).cut (grid0.coords t) ((dats m 0 c).after 8 t) = _
  rw [after8]
  funext j
  obtain ⟨a, r, k, rfl⟩ : ∃ (a : Fin 1) (r : Fin 256) (k : Fin 2048), j = ix3 a r k := ⟨j 0, j 1, j 2, eq_ix3 j⟩
  obtain rfl : a = 0 := Subsingleton.elim _ _
  obtain ⟨-, -, -, -, -, -, -, -, -, -, -, -, -, -, -, -, -, -, e0, e1, e2⟩ := idx_facts t
  have h0 : (((cfg0.win 8).blk t).view.emb (ix3 0 r k)) 0 = batchOf t.val t.isLt :=
    Fin.ext (by show win0_8.index t (0 : Fin 3) * 1 + 1 * 0 = t.val / 8; omega)
  have h1 : (((cfg0.win 8).blk t).view.emb (ix3 0 r k)) 1 = rowOf t.val t.isLt r :=
    Fin.ext (by show win0_8.index t (1 : Fin 3) * 256 + 1 * r.val = 256 * (t.val % 8) + r.val; omega)
  have h2 : (((cfg0.win 8).blk t).view.emb (ix3 0 r k)) 2 = k :=
    Fin.ext (by show win0_8.index t (2 : Fin 3) * 2048 + 1 * k.val = k.val; omega)
  show (outsAt m c t.val t.isLt).2.1 (ix3 0 r k) = attG m c (((cfg0.win 8).blk t).view.emb (ix3 0 r k))
  rw [att_idx]
  unfold attG attArr
  rw [h0, h1, h2]

/-- What point t writes back into the output array is its block of `outG`. -/
theorem flushed7_eq (t : Fin cfg0.N) :
    (dats m 0 c).flushed 7 t = ((cfg0.win 7).blk t).view.read (Elt Ideal) (outG m c) := by
  show (cfg0.win 7).cut (grid0.coords t) ((dats m 0 c).after 7 t) = _
  rw [after7]
  funext j
  obtain ⟨a, r, f, rfl⟩ : ∃ (a : Fin 1) (r : Fin 256) (f : Fin 1024), j = ix3 a r f := ⟨j 0, j 1, j 2, eq_ix3 j⟩
  obtain rfl : a = 0 := Subsingleton.elim _ _
  obtain ⟨-, -, -, -, -, -, -, -, -, -, -, -, -, -, -, e0, e1, e2, -⟩ := idx_facts t
  have h0 : (((cfg0.win 7).blk t).view.emb (ix3 0 r f)) 0 = batchOf t.val t.isLt :=
    Fin.ext (by show win0_7.index t (0 : Fin 3) * 1 + 1 * 0 = t.val / 8; omega)
  have h1 : (((cfg0.win 7).blk t).view.emb (ix3 0 r f)) 1 = rowOf t.val t.isLt r :=
    Fin.ext (by show win0_7.index t (1 : Fin 3) * 256 + 1 * r.val = 256 * (t.val % 8) + r.val; omega)
  have h2 : (((cfg0.win 7).blk t).view.emb (ix3 0 r f)) 2 = f :=
    Fin.ext (by show win0_7.index t (2 : Fin 3) * 1024 + 1 * f.val = f.val; omega)
  show (outsAt m c t.val t.isLt).1 (ix3 0 r f) = outG m c (((cfg0.win 7).blk t).view.emb (ix3 0 r f))
  rw [out_idx]
  unfold outG outArr
  rw [h0, h1, h2]

/-- THE OUTPUT ARRAYS after the run. -/
theorem final7 : (dats m 0 c).arrAt 7 cfg0.N = outG m c :=
  (dats m 0 c).arrAt_eq_of_cover 7 (outG m c) (fun t _ => flushed7_eq m c t) cover7
theorem final8 : (dats m 0 c).arrAt 8 cfg0.N = attG m c :=
  (dats m 0 c).arrAt_eq_of_cover 8 (attG m c) (fun t _ => flushed8_eq m c t) cover8

/-! ## The arrays the region found are the launch memory's -/

theorem arrX_eq : arrX m c = (m ((c.tc : Thread nD τ).loc main_arg0) : A3.Idx → EReal) := V_main_arg0 m c
theorem arrC_eq : arrC m c = (m ((c.tc : Thread nD τ).loc main_arg1) : A3.Idx → EReal) := V_main_arg1 m c
theorem arrB_eq : arrB m c = (m ((c.tc : Thread nD τ).loc main_arg6) : B1.Idx → EReal) := V_main_arg6 m c
theorem arrWq_eq : arrWq m c = (m ((c.tc : Thread nD τ).loc main_arg2) : W2.Idx → EReal) := by
  funext y; rw [eq_ix2 y]; exact Cert.HostWeights.V_v1_at m c (y 1) (y 0)
theorem arrWk_eq : arrWk m c = (m ((c.tc : Thread nD τ).loc main_arg3) : W2.Idx → EReal) := by
  funext y; rw [eq_ix2 y]; exact Cert.HostWeights.V_v3_at m c (y 1) (y 0)
theorem arrWv_eq : arrWv m c = (m ((c.tc : Thread nD τ).loc main_arg4) : W2.Idx → EReal) := by
  funext y; rw [eq_ix2 y]; exact Cert.HostWeights.V_v5_at m c (y 1) (y 0)
theorem arrWo_eq : arrWo m c = (m ((c.tc : Thread nD τ).loc main_arg5) : W2.Idx → EReal) := by
  funext y; rw [eq_ix2 y]; exact Cert.HostWeights.V_v7_at m c (y 1) (y 0)

/-- The specification's arrays over the launch memory. -/
def outM : S16x2048x1024.Idx → EReal :=
  outArr (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))
def attM : S16x2048x2048.Idx → EReal :=
  attArr (m ((c.tc : Thread nD τ).loc main_arg0)) (m ((c.tc : Thread nD τ).loc main_arg1)) (m ((c.tc : Thread nD τ).loc main_arg2))
    (m ((c.tc : Thread nD τ).loc main_arg3))

theorem outG_eq : outG m c = outM m c := by
  unfold outG outM; rw [arrX_eq, arrC_eq, arrB_eq, arrWq_eq, arrWk_eq, arrWv_eq, arrWo_eq]
theorem attG_eq : attG m c = attM m c := by
  unfold attG attM; rw [arrX_eq, arrC_eq, arrWq_eq, arrWk_eq]

/-! ## The run, with both results named -/

variable (ρ : Dev nD → PrngReg)

/-- Every weakly fair execution of the kernel's @main terminates with the output array at `outM`, the attention array at
    `attM`, and the seven argument arrays unchanged. -/
theorem run_values : θ_run defs (onTc (τ := τ) (main (F := Ideal))) ⟨m, fun _ => 0, ρ⟩ (fun r => ∀ c : Dev nD,
      r.2.mem ((c.tc : Thread nD τ).loc main_v8_0) = outM m c
      ∧ r.2.mem ((c.tc : Thread nD τ).loc main_v8_1) = attM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).1 7).trans ((final7 m c).trans (outG_eq m c)),
     ((h c).1 8).trans ((final8 m c).trans (attG_eq m c)),
     ((h c).1 1).trans (((dats m 0 c).arrAt_in 1 rfl _).trans ((A_eq m c 1).trans (V_main_arg0 m c))),
     ((h c).1 0).trans (((dats m 0 c).arrAt_in 0 rfl _).trans ((A_eq m c 0).trans (V_main_arg1 m c))),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c),
     ((h c).1 6).trans (((dats m 0 c).arrAt_in 6 rfl _).trans ((A_eq m c 6).trans (V_main_arg6 m c)))⟩)
    (run_main m ρ)

end Cert.KernelIdeal.BodyValue

end
-- ==== Proof.RefIsSpec.lean ====
/-
  The reference program computes the specification.

  Every stage of the reference is read at an index; the two places where it differs from the specification are
  (1) the score is divided by the word of 32 where the specification multiplies by the word of 1/32: on the extended
      reals division by a nonzero real IS the product with its reciprocal;
  (2) the softmax divides each exponential by the row's sum L where the specification multiplies by 1/L: both are
      p · L⁻¹ once L ≠ 0, and L is a sum of positive reals when the inputs are finite: every score is then a real, so
      is the row maximum (the row is not empty), every exponential exp(s_k − max) is a positive real.
  The rest is the reading of sums, broadcasts and the bias at an index.
-/
import proofs.«147508_j77403900608902_2_alg».proof.Proof.AttnSpec
import proofs.«147508_j77403900608902_2_alg».proof.Proof.Gen.ReferenceIdeal.Read
import Idealize.ShloMosaic.PureOps.Ideal.Laws
import Idealize.ShloMosaic.PureOps.Reduce
import Idealize.ShloMosaic.Lib.ValueIdx

noncomputable section

namespace Cert.RefIsSpec

open Idealize.ShloMosaic Idealize.ShloMosaic.ValueIdx Cert.AttnSpec

/-! ## The float words, each evaluated once -/

/-- The word 0x42000000 denotes 32. -/
theorem word_32 : Ideal.ofBits .f32 0x42000000#32 = ((32 : ℝ) : EReal) := by
  simp [Ideal.ofBits, Ideal.ieee, -EReal.coe_mul]; norm_num

/-- The word 0x3D000000 denotes 1/32. -/
theorem invSqrtE_eq : invSqrtE = ((1 / 32 : ℝ) : EReal) := by
  unfold invSqrtE; simp [Ideal.ofBits, Ideal.ieee, -EReal.coe_mul]; norm_num

/-- The word 0x3F800000 denotes 1. -/
theorem one32_eq : one32 = 1 := by
  unfold one32; simp [Ideal.ofBits, Ideal.ieee, -EReal.coe_mul]; norm_num

/-- The word 0xFF800000 denotes −∞. -/
theorem negInf_eq : negInf = ⊥ := by
  unfold negInf; simp [Ideal.ofBits, Ideal.ieee]

/-- Dividing by the word of 32 is multiplying by the word of 1/32, on every extended real. -/
theorem div_word_32 (x : EReal) : Ideal.div x (Ideal.ofBits .f32 0x42000000#32) = x * invSqrtE := by
  rw [word_32, invSqrtE_eq, Ideal.div_coe (by norm_num)]

/-- A maximum with −∞ on the left changes nothing. -/
theorem max_negInf (x : EReal) : max negInf x = x := by
  rw [negInf_eq]; exact max_eq_right bot_le

/-! ## Real values stay real -/

theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

/-- The coercion of a finite sum of reals. -/
theorem coe_sum {ι : Type} (S : Finset ι) (g : ι → ℝ) :
    ∑ k ∈ S, ((g k : ℝ) : EReal) = ((∑ k ∈ S, g k : ℝ) : EReal) := by
  classical
  induction S using Finset.induction_on with
  | empty => simp
  | insert a S ha ih => rw [Finset.sum_insert ha, Finset.sum_insert ha, ih, EReal.coe_add]

theorem real_sum {ι : Type} (S : Finset ι) (f : ι → EReal) (hf : ∀ k, ∃ r : ℝ, f k = (r : EReal)) :
    ∃ r : ℝ, ∑ k ∈ S, f k = (r : EReal) := by
  choose g hg using hf
  exact ⟨∑ k ∈ S, g k, by rw [← coe_sum]; exact Finset.sum_congr rfl fun k _ => hg k⟩

theorem dotE_real {n : Nat} (u v : Fin n → EReal) (hu : ∀ e, ∃ r : ℝ, u e = (r : EReal))
    (hv : ∀ e, ∃ r : ℝ, v e = (r : EReal)) : ∃ r : ℝ, dotE u v = (r : EReal) :=
  real_sum _ _ fun e => real_mul (hu e) (hv e)

/-- The fold of max from −∞ over a set of reals is −∞ on the empty set and a real otherwise. -/
theorem fold_max_real {n : Nat} (s : Fin n → EReal) (hs : ∀ k, ∃ r : ℝ, s k = (r : EReal)) (S : Finset (Fin n)) :
    (S = ∅ ∧ S.fold max (⊥ : EReal) s = ⊥) ∨ ∃ r : ℝ, S.fold max (⊥ : EReal) s = (r : EReal) := by
  classical
  induction S using Finset.induction_on with
  | empty => exact Or.inl ⟨rfl, Finset.fold_empty⟩
  | insert a S ha ih =>
    right
    obtain ⟨t, ht⟩ := hs a
    rw [Finset.fold_insert ha, ht]
    rcases ih with ⟨_, h⟩ | ⟨r, h⟩
    · exact ⟨t, by rw [h]; exact max_eq_left bot_le⟩
    · rw [h]
      rcases le_total t r with htr | hrt
      · exact ⟨r, max_eq_right (EReal.coe_le_coe_iff.2 htr)⟩
      · exact ⟨t, max_eq_left (EReal.coe_le_coe_iff.2 hrt)⟩

/-- The maximum of a nonempty row of reals is a real. -/
theorem rowMaxOf_real {n : Nat} (hn : 0 < n) (s : Fin n → EReal) (hs : ∀ k, ∃ r : ℝ, s k = (r : EReal)) :
    ∃ r : ℝ, rowMaxOf s = (r : EReal) := by
  haveI : Nonempty (Fin n) := ⟨⟨0, hn⟩⟩
  unfold rowMaxOf; rw [negInf_eq]
  rcases fold_max_real s hs Finset.univ with ⟨h, _⟩ | h
  · exact absurd h Finset.univ_nonempty.ne_empty
  · exact h

/-- exp(s_k − max s) is a positive real on a nonempty row of reals. -/
theorem expRow_pos {n : Nat} (hn : 0 < n) (s : Fin n → EReal) (hs : ∀ k, ∃ r : ℝ, s k = (r : EReal)) (k : Fin n) :
    ∃ r : ℝ, 0 < r ∧ expRow s k = (r : EReal) := by
  obtain ⟨m, hm⟩ := rowMaxOf_real hn s hs
  obtain ⟨a, ha⟩ := hs k
  refine ⟨Real.exp (a - m), Real.exp_pos _, ?_⟩
  unfold expRow; rw [hm, ha, ← EReal.coe_sub, Ideal.exp_coe]

/-- The sum of a nonempty family of positive reals is a nonzero real. -/
theorem sum_pos_real {n : Nat} (hn : 0 < n) (f : Fin n → EReal) (hf : ∀ k, ∃ r : ℝ, 0 < r ∧ f k = (r : EReal)) :
    ∃ r : ℝ, r ≠ 0 ∧ ∑ k, f k = (r : EReal) := by
  haveI : Nonempty (Fin n) := ⟨⟨0, hn⟩⟩
  choose g hg using hf
  refine ⟨∑ k, g k, (Finset.sum_pos (fun k _ => (hg k).1) Finset.univ_nonempty).ne', ?_⟩
  rw [← coe_sum]; exact Finset.sum_congr rfl fun k _ => (hg k).2

/-- The quotient by the row's sum is the product with its reciprocal: the reference's softmax is the specification's. -/
theorem softRow_eq_div {n : Nat} (hn : 0 < n) (s : Fin n → EReal) (hs : ∀ k, ∃ r : ℝ, s k = (r : EReal)) (k : Fin n) :
    Ideal.div (expRow s k) (∑ j, expRow s j) = softRow s k := by
  obtain ⟨l, hl0, hl⟩ := sum_pos_real hn (expRow s) (expRow_pos hn s hs)
  unfold softRow
  rw [hl, one32_eq, Ideal.div_coe hl0, Ideal.div_coe hl0, one_mul]

/-- A softmax entry of a nonempty row of reals is a real. -/
theorem softRow_real {n : Nat} (hn : 0 < n) (s : Fin n → EReal) (hs : ∀ k, ∃ r : ℝ, s k = (r : EReal)) (k : Fin n) :
    ∃ r : ℝ, softRow s k = (r : EReal) := by
  obtain ⟨l, hl0, hl⟩ := sum_pos_real hn (expRow s) (expRow_pos hn s hs)
  obtain ⟨p, _, hp⟩ := expRow_pos hn s hs k
  unfold softRow
  rw [hl, one32_eq, Ideal.div_coe hl0, one_mul, hp]
  exact ⟨p * (1 / l), (EReal.coe_mul _ _).symm⟩

/-! ## The reference's stages read at an index -/

open Cert.ReferenceIdeal Cert.ReferenceIdeal.Gen Cert.ReferenceIdeal.Read

section Stages

variable (x0 x1 : (⟨S16x2048x1024, .f32⟩ : BufTy).Contents (Elt Ideal))
  (x2 x3 x4 x5 : (⟨S1024x1024, .f32⟩ : BufTy).Contents (Elt Ideal))
  (x6 : (⟨S1024, .f32⟩ : BufTy).Contents (Elt Ideal))

/-! ### The three projections: Q, K, V -/

theorem lidx_v0 (b : Fin 16) (q : Fin 2048) (f k : Fin 1024) : lidx_main_v0 (ix3 b q f) k = ix3 b q k :=
  funext fun a => by match a with | ⟨0, _⟩ => rfl | ⟨1, _⟩ => rfl | ⟨2, _⟩ => rfl
theorem ridx_v0 (b : Fin 16) (q : Fin 2048) (f k : Fin 1024) : ridx_main_v0 (ix3 b q f) k = ix2 f k :=
  funext fun a => by match a with | ⟨0, _⟩ => rfl | ⟨1, _⟩ => rfl
theorem lidx_v1 (b : Fin 16) (q : Fin 2048) (f k : Fin 1024) : lidx_main_v1 (ix3 b q f) k = ix3 b q k :=
  funext fun a => by match a with | ⟨0, _⟩ => rfl | ⟨1, _⟩ => rfl | ⟨2, _⟩ => rfl
theorem ridx_v1 (b : Fin 16) (q : Fin 2048) (f k : Fin 1024) : ridx_main_v1 (ix3 b q f) k = ix2 f k :=
  funext fun a => by match a with | ⟨0, _⟩ => rfl | ⟨1, _⟩ => rfl
theorem lidx_v2 (b : Fin 16) (q : Fin 2048) (f k : Fin 1024) : lidx_main_v2 (ix3 b q f) k = ix3 b q k :=
  funext fun a => by match a with | ⟨0, _⟩ => rfl | ⟨1, _⟩ => rfl | ⟨2, _⟩ => rfl
theorem ridx_v2 (b : Fin 16) (q : Fin 2048) (f k : Fin 1024) : ridx_main_v2 (ix3 b q f) k = ix2 f k :=
  funext fun a => by match a with | ⟨0, _⟩ => rfl | ⟨1, _⟩ => rfl

/-- The first product is Q: context against Wq. -/
theorem v0_at (b : Fin 16) (q : Fin 2048) (f : Fin 1024) :
    val_main_v0 (F := Ideal) x1 x2 (ix3 b q f) = qry x1 x2 b q f := by
  rw [val_main_v0_apply]
  unfold qry dotE
  exact Finset.sum_congr rfl fun k _ => by rw [lidx_v0, ridx_v0]

/-- The second product is K: x against Wk. -/
theorem v1_at (b : Fin 16) (k : Fin 2048) (f : Fin 1024) :
    val_main_v1 (F := Ideal) x0 x3 (ix3 b k f) = key x0 x3 b k f := by
  rw [val_main_v1_apply]
  unfold key dotE
  exact Finset.sum_congr rfl fun e _ => by rw [lidx_v1, ridx_v1]

/-- The third product is V: x against Wv. -/
theorem v2_at (b : Fin 16) (k : Fin 2048) (f : Fin 1024) :
    val_main_v2 (F := Ideal) x0 x4 (ix3 b k f) = vlu x0 x4 b k f := by
  rw [val_main_v2_apply]
  unfold vlu dotE
  exact Finset.sum_congr rfl fun e _ => by rw [lidx_v2, ridx_v2]

/-! ### The scores -/

theorem lidx_v3 (b : Fin 16) (q k : Fin 2048) (e : Fin 1024) : lidx_main_v3 (ix3 b q k) e = ix3 b q e :=
  funext fun a => by match a with | ⟨0, _⟩ => rfl | ⟨1, _⟩ => rfl | ⟨2, _⟩ => rfl
theorem ridx_v3 (b : Fin 16) (q k : Fin 2048) (e : Fin 1024) : ridx_main_v3 (ix3 b q k) e = ix3 b k e :=
  funext fun a => by match a with | ⟨0, _⟩ => rfl | ⟨1, _⟩ => rfl | ⟨2, _⟩ => rfl

/-- The quotient of Q·K by the word of 32 is the specification's score. -/
theorem v5_at (b : Fin 16) (q k : Fin 2048) :
    val_main_v5 (F := Ideal) x0 x1 x2 x3 (ix3 b q k) = score x0 x1 x2 x3 b q k := by
  rw [val_main_v5_apply, val_main_v3_apply, val_main_v4_apply, val_main_cst_apply, Ideal.hostDivf_def, Ideal.ofBits_def,
    div_word_32]
  unfold score dotE
  refine congrArg (· * invSqrtE) (Finset.sum_congr rfl fun e _ => ?_)
  rw [lidx_v3, ridx_v3, v0_at, v1_at]

/-! ### The softmax -/

/-- The row (b, q) of scores, as the reference holds it. -/
abbrev refRow (b : Fin 16) (q : Fin 2048) : Fin 2048 → EReal :=
  fun j => val_main_v5 (F := Ideal) x0 x1 x2 x3 (ix3 b q j)

theorem lift_v6 (h : S16x2048x2048.Reduces [2] S16x2048) (b : Fin 16) (q : Fin 2048) (k : Fin (S16x2048x2048.size 2)) :
    h.lift (ix2 b q) k = ix3 b q (⟨k.val, k.isLt⟩ : Fin 2048) := by
  funext c; apply Fin.ext
  fin_cases c <;> rfl

/-- The reduce with a maximum body over the key axis is the row's maximum. -/
theorem v6_at (b : Fin 16) (q : Fin 2048) :
    val_main_v6 (F := Ideal) x0 x1 x2 x3 (ix2 b q) = rowMaxOf (refRow x0 x1 x2 x3 b q) := by
  unfold val_main_v6 refRow
  generalize val_main_v5 (F := Ideal) x0 x1 x2 x3 = y
  have h : S16x2048x2048.Reduces [2] S16x2048 := by decide
  refine (Host.reduce_eq_fold_single (α := Ideal .f32) FloatOps.maximumf y _ reducesTo_S16x2048x2048_S16x2048_d2 h h_S_
    (ix2 b q)).trans ?_
  have hf : (y ∘ h.lift (ix2 b q)) = fun k : Fin 2048 => y (ix3 b q k) :=
    funext fun k => congrArg y (lift_v6 h b q k)
  unfold rowMaxOf negInf
  exact congrArg (fun f => Finset.fold max (Ideal.ofBits .f32 0xFF800000#32) f (Finset.univ : Finset (Fin 2048))) hf

theorem idx_v9_v10 (b : Fin 16) (q k : Fin 2048) : idx_main_v9 (idx_main_v10 (ix3 b q k)) = ix2 b q :=
  funext fun a => by match a with | ⟨0, _⟩ => rfl | ⟨1, _⟩ => rfl

/-- The maximum, joined with −∞ and broadcast back along the key axis. -/
theorem v10_at (b : Fin 16) (q k : Fin 2048) :
    val_main_v10 (F := Ideal) x0 x1 x2 x3 (ix3 b q k) = rowMaxOf (refRow x0 x1 x2 x3 b q) := by
  rw [val_main_v10_apply, val_main_v9_apply, idx_v9_v10, val_main_v8_apply, val_main_v7_apply, val_main_cst_1_apply, v6_at,
    Ideal.maximumf_def, Ideal.ofBits_def]
  exact max_negInf _

/-- exp(s_k − max s). -/
theorem v12_at (b : Fin 16) (q k : Fin 2048) :
    val_main_v12 (F := Ideal) x0 x1 x2 x3 (ix3 b q k) = expRow (refRow x0 x1 x2 x3 b q) k := by
  rw [val_main_v12_apply, val_main_v11_apply, v10_at, Ideal.hostUnary_exp_def, Ideal.subf_def]
  rfl

theorem idx_v13 (b : Fin 16) (q k : Fin 2048) : idx_main_v13 (ix2 b q) k = ix3 b q k :=
  funext fun a => by match a with | ⟨0, _⟩ => rfl | ⟨1, _⟩ => rfl | ⟨2, _⟩ => rfl

/-- The row's sum of exponentials. -/
theorem v13_at (b : Fin 16) (q : Fin 2048) :
    val_main_v13 (F := Ideal) x0 x1 x2 x3 (ix2 b q) = ∑ k, expRow (refRow x0 x1 x2 x3 b q) k := by
  rw [val_main_v13_apply, val_main_cst_2_apply, Ideal.ofBits_def, Ideal.ofBits_zero_f32, zero_add]
  exact Finset.sum_congr rfl fun k _ => by rw [idx_v13, v12_at]

theorem idx_v14_v15 (b : Fin 16) (q k : Fin 2048) : idx_main_v14 (idx_main_v15 (ix3 b q k)) = ix2 b q :=
  funext fun a => by match a with | ⟨0, _⟩ => rfl | ⟨1, _⟩ => rfl

/-- The quotient by the row's sum is the specification's softmax, on a row of reals. -/
theorem v16_at (b : Fin 16) (q k : Fin 2048) (hrow : ∀ j, ∃ r : ℝ, refRow x0 x1 x2 x3 b q j = (r : EReal)) :
    val_main_v16 (F := Ideal) x0 x1 x2 x3 (ix3 b q k) = softRow (refRow x0 x1 x2 x3 b q) k := by
  rw [val_main_v16_apply, val_main_v15_apply, val_main_v14_apply, idx_v14_v15, v13_at, v12_at, Ideal.hostDivf_def]
  exact softRow_eq_div (by decide) _ hrow k

/-! ### Finite inputs give real scores -/

section Finite

variable (h0 : ∀ i, ∃ r : ℝ, x0 i = (r : EReal)) (h1 : ∀ i, ∃ r : ℝ, x1 i = (r : EReal))
  (h2 : ∀ i, ∃ r : ℝ, x2 i = (r : EReal)) (h3 : ∀ i, ∃ r : ℝ, x3 i = (r : EReal))

include h1 h2 in
theorem qry_real (b : Fin 16) (q : Fin 2048) (f : Fin 1024) : ∃ r : ℝ, qry x1 x2 b q f = (r : EReal) := by
  unfold qry; exact dotE_real _ _ (fun _ => h1 _) (fun _ => h2 _)

include h0 h3 in
theorem key_real (b : Fin 16) (k : Fin 2048) (f : Fin 1024) : ∃ r : ℝ, key x0 x3 b k f = (r : EReal) := by
  unfold key; exact dotE_real _ _ (fun _ => h0 _) (fun _ => h3 _)

include h0 h1 h2 h3 in
theorem score_real (b : Fin 16) (q k : Fin 2048) : ∃ r : ℝ, score x0 x1 x2 x3 b q k = (r : EReal) := by
  unfold score; rw [invSqrtE_eq]
  exact real_mul (dotE_real _ _ (fun e => qry_real x1 x2 h1 h2 b q e) (fun e => key_real x0 x3 h0 h3 b k e)) ⟨_, rfl⟩

include h0 h1 h2 h3 in
/-- The reference's second result at an index is the specification's attention weight. -/
theorem att_at (b : Fin 16) (q k : Fin 2048) :
    val_main_v16 (F := Ideal) x0 x1 x2 x3 (ix3 b q k) = att x0 x1 x2 x3 b q k := by
  have hrow : refRow x0 x1 x2 x3 b q = fun j => score x0 x1 x2 x3 b q j := funext fun j => v5_at x0 x1 x2 x3 b q j
  rw [v16_at x0 x1 x2 x3 b q k (fun j => by rw [hrow]; exact score_real x0 x1 x2 x3 h0 h1 h2 h3 b q j), hrow]
  rfl

end Finite

end Stages

/-- The reference's attention weights are the specification's, when the four arrays the scores read are finite. -/
theorem att_eq (x0 x1 : (⟨S16x2048x1024, .f32⟩ : BufTy).Contents (Elt Ideal))
    (x2 x3 : (⟨S1024x1024, .f32⟩ : BufTy).Contents (Elt Ideal))
    (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal)) :
    Cert.ReferenceIdeal.Read.val_main_v16 (F := Ideal) x0 x1 x2 x3 = Cert.AttnSpec.attArr x0 x1 x2 x3 := by
  funext i
  obtain ⟨b, q, k, rfl⟩ : ∃ (b : Fin 16) (q : Fin 2048) (k : Fin 2048), i = ix3 b q k := ⟨i 0, i 1, i 2, eq_ix3 i⟩
  exact att_at x0 x1 x2 x3 h0 h1 h2 h3 b q k

/-! ## The output -/

section Out

variable (x0 x1 : (⟨S16x2048x1024, .f32⟩ : BufTy).Contents (Elt Ideal))
  (x2 x3 x4 x5 : (⟨S1024x1024, .f32⟩ : BufTy).Contents (Elt Ideal))
  (x6 : (⟨S1024, .f32⟩ : BufTy).Contents (Elt Ideal))
  (h0 : ∀ i, ∃ r : ℝ, x0 i = (r : EReal)) (h1 : ∀ i, ∃ r : ℝ, x1 i = (r : EReal))
  (h2 : ∀ i, ∃ r : ℝ, x2 i = (r : EReal)) (h3 : ∀ i, ∃ r : ℝ, x3 i = (r : EReal))

theorem lidx_v17 (b : Fin 16) (q : Fin 2048) (e : Fin 1024) (k : Fin 2048) : lidx_main_v17 (ix3 b q e) k = ix3 b q k :=
  funext fun a => by match a with | ⟨0, _⟩ => rfl | ⟨1, _⟩ => rfl | ⟨2, _⟩ => rfl
theorem ridx_v17 (b : Fin 16) (q : Fin 2048) (e : Fin 1024) (k : Fin 2048) : ridx_main_v17 (ix3 b q e) k = ix3 b k e :=
  funext fun a => by match a with | ⟨0, _⟩ => rfl | ⟨1, _⟩ => rfl | ⟨2, _⟩ => rfl

include h0 h1 h2 h3 in
/-- The weights against V. -/
theorem v17_at (b : Fin 16) (q : Fin 2048) (e : Fin 1024) :
    val_main_v17 (F := Ideal) x0 x1 x2 x3 x4 (ix3 b q e) = mix x0 x1 x2 x3 x4 b q e := by
  rw [val_main_v17_apply]
  unfold mix dotE
  exact Finset.sum_congr rfl fun k _ => by
    rw [lidx_v17, ridx_v17, v2_at, att_at x0 x1 x2 x3 h0 h1 h2 h3]

theorem lidx_v18 (b : Fin 16) (q : Fin 2048) (f e : Fin 1024) : lidx_main_v18 (ix3 b q f) e = ix3 b q e :=
  funext fun a => by match a with | ⟨0, _⟩ => rfl | ⟨1, _⟩ => rfl | ⟨2, _⟩ => rfl
theorem ridx_v18 (b : Fin 16) (q : Fin 2048) (f e : Fin 1024) : ridx_main_v18 (ix3 b q f) e = ix2 f e :=
  funext fun a => by match a with | ⟨0, _⟩ => rfl | ⟨1, _⟩ => rfl

include h0 h1 h2 h3 in
/-- The output projection, before the bias. -/
theorem v18_at (b : Fin 16) (q : Fin 2048) (f : Fin 1024) :
    val_main_v18 (F := Ideal) x0 x1 x2 x3 x4 x5 (ix3 b q f)
      = dotE (fun e => mix x0 x1 x2 x3 x4 b q e) (fun e => x5 (ix2 f e)) := by
  rw [val_main_v18_apply]
  unfold dotE
  exact Finset.sum_congr rfl fun e _ => by
    rw [lidx_v18, ridx_v18, v17_at x0 x1 x2 x3 x4 h0 h1 h2 h3]

theorem idx_v19_v20 (b : Fin 16) (q : Fin 2048) (f : Fin 1024) : idx_main_v19 (idx_main_v20 (ix3 b q f)) = ix1 f :=
  funext fun a => by match a with | ⟨0, _⟩ => rfl

/-- The bias, broadcast over batch and row. -/
theorem v20_at (b : Fin 16) (q : Fin 2048) (f : Fin 1024) :
    val_main_v20 (F := Ideal) x6 (ix3 b q f) = x6 (ix1 f) := by
  rw [val_main_v20_apply, val_main_v19_apply, idx_v19_v20]

end Out

/-- The reference's output is the specification's, when the four arrays the scores read are finite. -/
theorem out_eq (x0 x1 : (⟨S16x2048x1024, .f32⟩ : BufTy).Contents (Elt Ideal))
    (x2 x3 x4 x5 : (⟨S1024x1024, .f32⟩ : BufTy).Contents (Elt Ideal))
    (x6 : (⟨S1024, .f32⟩ : BufTy).Contents (Elt Ideal))
    (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal)) :
    Cert.ReferenceIdeal.Read.val_main_v21 (F := Ideal) x0 x1 x2 x3 x4 x5 x6 = Cert.AttnSpec.outArr x0 x1 x2 x3 x4 x5 x6 := by
  funext i
  obtain ⟨b, q, f, rfl⟩ : ∃ (b : Fin 16) (q : Fin 2048) (f : Fin 1024), i = ix3 b q f := ⟨i 0, i 1, i 2, eq_ix3 i⟩
  rw [val_main_v21_apply, v20_at, v18_at x0 x1 x2 x3 x4 x5 h0 h1 h2 h3, Ideal.addf_def]
  rfl

end Cert.RefIsSpec

end
-- ==== Proof.LibFiniteEntry.lean ====
/-
  One "every entry is finite" test of a precondition, read back at an entry.

  A precondition "all float inputs are finite" is, per input, an and-reduction over all axes of the entrywise
  comparison |v| < +∞ (the bound the word 0x7F800000), started from true. When such a reduction is true every
  entry's comparison is true, and an extended real v with max(v, -v) < +∞ is neither +∞ nor -∞: it is a real number.
-/
import Idealize.ShloMosaic.PureOps.Ideal
import Idealize.ShloMosaic.Lib.ReduceAll
import Idealize.ShloMosaic.Lib.ValueIdx
import Idealize.ShloMosaic.Lib.IdealHost

noncomputable section

namespace Cert.Lib.FiniteEntry

open Idealize.ShloMosaic Idealize.ShloMosaic.ValueIdx

/-- The comparison bound's word denotes +∞. -/
theorem inf_eq : Ideal.ofBits .f32 0x7F800000#32 = ⊤ := by
  simp [Ideal.ofBits, Ideal.ieee]

/-- |v| < +∞ came out true: v is a real number. -/
theorem real_of_abs_lt_inf (v : EReal)
    (h : FloatOps.cmpf (F := Ideal) (φ := .f32) .olt (FloatOps.hostAbsf v) (Ideal.ofBits .f32 0x7F800000#32) = 1#1) :
    ∃ r : ℝ, v = (r : EReal) := by
  have hlt : max v (-v) < ⊤ := by
    by_contra hn
    have h0 : FloatOps.cmpf (F := Ideal) (φ := .f32) .olt (FloatOps.hostAbsf v) (Ideal.ofBits .f32 0x7F800000#32) = 0#1 := by
      show BitVec.ofBool (decide (max v (-v) < Ideal.ofBits .f32 0x7F800000#32)) = 0#1
      rw [inf_eq, decide_eq_false hn]
      rfl
    rw [h0] at h
    exact absurd h (by decide)
  have h1 : v ≠ ⊤ := fun e => by rw [e] at hlt; simp at hlt
  have h2 : v ≠ ⊥ := fun e => by rw [e] at hlt; simp at hlt
  exact ⟨v.toReal, (EReal.coe_toReal h1 h2).symm⟩

/-- A rank-0 array has one index. -/
instance : Subsingleton (⟨0, ![]⟩ : Shape).Idx := ⟨fun a b => funext fun d => d.elim0⟩

/-- The whole test read back: if the and-reduction over all axes of "|a| < +∞" (the bound broadcast from a scalar
    constant) is true, every entry of a is a real number. -/
theorem all_real {s : Shape} {axes : List (Fin s.rank)} (a : FVec Ideal s .f32)
    (hb : (⟨0, ![]⟩ : Shape).BroadcastsInDim s ![]) (hr : s.ReducesTo axes ⟨0, ![]⟩) (hn : 0 < (⟨0, ![]⟩ : Shape).numel)
    (init : IVec ⟨0, ![]⟩ 1)
    (h : Host.reduce IntOp.andi
        (cmpf .olt (Host.absf a) (broadcastInDim s ![] hb (constant (F := Ideal) ⟨0, ![]⟩ .f32 0x7F800000#32))) init hr hn ix0 = 1#1)
    (i : s.Idx) : ∃ r : ℝ, a i = (r : EReal) := by
  have e := Host.reduce_andi_all _ _ _ _ ix0 h i
  rw [cmpf_apply, broadcastInDim_scalar_apply] at e
  exact real_of_abs_lt_inf (a i) e

end Cert.Lib.FiniteEntry

end
-- ==== Proof.PreFinite.lean ====
/-
  From the precondition to "every entry is a real number".

  The precondition is the conjunction, over the seven argument arrays, of "every entry v has |v| < +∞", each conjunct
  an and-reduction over all axes of the entrywise comparison. When the conjunction is true each reduction is true,
  so every entry of every array is a real number. Stated here for the four arrays the scores read.
-/
import proofs.«147508_j77403900608902_2_alg».proof.Defs
import proofs.«147508_j77403900608902_2_alg».proof.Proof.Gen.Pre_finite_inputs
import proofs.«147508_j77403900608902_2_alg».proof.Proof.LibFiniteEntry
import Idealize.ShloMosaic.Lib.ReduceAll
import Idealize.ShloMosaic.Lib.Affine
import Idealize.ShloMosaic.Lib.ValueIdx

noncomputable section

namespace Cert.PreFinite

open Idealize.ShloMosaic Idealize.ShloMosaic.ValueIdx Idealize.SL.Sem Cert.Lib.FiniteEntry

/-- Under the precondition, x, context, Wq and Wk hold real numbers only. -/
theorem finite_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c.tc : Thread Cert.KernelIdeal.nD Cert.KernelIdeal.τ).loc Cert.KernelIdeal.main_arg0)
        : Cert.KernelIdeal.S16x2048x1024.Idx → EReal) i = (r : EReal))
    ∧ (∀ i, ∃ r : ℝ, (m ((c.tc : Thread Cert.KernelIdeal.nD Cert.KernelIdeal.τ).loc Cert.KernelIdeal.main_arg1)
        : Cert.KernelIdeal.S16x2048x1024.Idx → EReal) i = (r : EReal))
    ∧ (∀ i, ∃ r : ℝ, (m ((c.tc : Thread Cert.KernelIdeal.nD Cert.KernelIdeal.τ).loc Cert.KernelIdeal.main_arg2)
        : Cert.KernelIdeal.S1024x1024.Idx → EReal) i = (r : EReal))
    ∧ (∀ i, ∃ r : ℝ, (m ((c.tc : Thread Cert.KernelIdeal.nD Cert.KernelIdeal.τ).loc Cert.KernelIdeal.main_arg3)
        : Cert.KernelIdeal.S1024x1024.Idx → EReal) i = (r : EReal)) := by
  have e := congrFun (h c) ix0
  dsimp only [Cert.Pre_finite_inputs.fn, Cert.Pre_finite_inputs.fn_part1, andi] at e
  simp only [IntOp.andi_eq_one] at e
  obtain ⟨⟨⟨⟨⟨⟨e0, e1⟩, e2⟩, e3⟩, _⟩, _⟩, _⟩ := e
  exact ⟨all_real _ _ _ _ _ e0, all_real _ _ _ _ _ e1, all_real _ _ _ _ _ e2, all_real _ _ _ _ _ e3⟩

end Cert.PreFinite

end
-- ==== Proof.lean ====
/-
  Fused attention against its plain reference: the certificate's claims.

  The kernel computes, per batch of 2048 rows and per tile of 256 query rows, the projections Q = context · Wqᵀ,
  K = x · Wkᵀ, V = x · Wvᵀ, the scores Q · Kᵀ scaled by 1/32 (= 1/√1024, an exact binary fraction), their row softmax
  (each row's maximum subtracted, the exponentials multiplied by the reciprocal of their sum), the mix of the values by
  those weights, and the output projection with its bias; it returns the output and the attention weights. The keys
  (transposed) and values of a batch are computed once, at the batch's first tile, 256 rows at a time, kept in two scratch
  buffers and read back by the batch's other seven tiles. The reference computes the same quantities with whole-array
  contractions, divides the scores by 32 and the exponentials by their row sum.

  Over the extended reals, where a change of float format is the identity and a sum has no order, the two agree index by
  index: tiling, chunking and the transposed copies only rename the terms of the same finite sums; dividing by 32 is
  multiplying by the word of 1/32 on every extended real; and p / L is p · (1 / L) as soon as L ≠ 0. That last fact is
  where the precondition is used: with x, the context, Wq and Wk finite every score is a real number, so is each row's
  maximum, every exponential is a positive real, and the row sum L is positive. (Wv, Wo and the bias may hold anything.)

  The three frames: each kernel program runs point by point over its 16 × 8 grid — at a batch's first tile the body
  rebuilds both scratch buffers, at the others it finds them as the point before left them — and leaves every argument
  array as it was; the reference is a straight line of array operations. The idealized kernel is the kernel's own text
  read at the extended reals: nothing was rewritten, so there is nothing to preserve.
-/
import proofs.«147508_j77403900608902_2_alg».proof.Defs
import proofs.«147508_j77403900608902_2_alg».proof.Proof.Gen.Kernel
import proofs.«147508_j77403900608902_2_alg».proof.Proof.Gen.KernelIdeal
import proofs.«147508_j77403900608902_2_alg».proof.Proof.Gen.ReferenceIdeal
import proofs.«147508_j77403900608902_2_alg».proof.Proof.Gen.Pre_finite_inputs
import proofs.«147508_j77403900608902_2_alg».proof.Proof.Gen.ReferenceIdeal.Run
import proofs.«147508_j77403900608902_2_alg».proof.Proof.Gen.ReferenceIdeal.Read
import proofs.«147508_j77403900608902_2_alg».proof.Proof.WordBody.Frame
import proofs.«147508_j77403900608902_2_alg».proof.Proof.IdealBody.Frame
import proofs.«147508_j77403900608902_2_alg».proof.Proof.IdealValue.Final
import proofs.«147508_j77403900608902_2_alg».proof.Proof.RefIsSpec
import proofs.«147508_j77403900608902_2_alg».proof.Proof.PreFinite
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel (hKernel := Cert.Kernel.Gen.facts) (hPre_finite_inputs := Cert.Pre_finite_inputs.Gen.facts) :=
  fun m ρ _ => Cert.Kernel.Body.frame (F := Bits) m ρ

/-- So does the kernel read at the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Body.frame (F := Ideal) m ρ

/-- The reference runs and keeps its arguments: its run with the two results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- Both programs end with the specification's output and attention arrays of the (agreeing) arguments: the kernel's by
    its blocks covering the arrays, the reference's by reading its operations index by index — the quotient by the row sum
    met by the product with its reciprocal because the row sum is positive under the precondition. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.BodyValue.outM m c, fun c => Cert.KernelIdeal.BodyValue.attM m c,
    Cert.KernelIdeal.BodyValue.run_values m ρ, ?_⟩
  refine (θ_run Cert.ReferenceIdeal.defs _ _).mono (fun _ h c => ?_) (Cert.ReferenceIdeal.Value.run (F := Ideal) m' ρ')
  obtain ⟨f0, f1, f2, f3⟩ := Cert.PreFinite.finite_of_pre m hpre c
  obtain ⟨a0, a1, a2, a3, a4, a5, a6⟩ := hagree c
  refine ⟨?_, ?_, (h c).2.2⟩
  · rw [(h c).1, Cert.ReferenceIdeal.Read.val_main_v21_eq, a0, a1, a2, a3, a4, a5, a6]
    exact Cert.RefIsSpec.out_eq _ _ _ _ _ _ _ f0 f1 f2 f3
  · rw [(h c).2.1, Cert.ReferenceIdeal.Read.val_main_v16_eq, a0, a1, a2, a3]
    exact Cert.RefIsSpec.att_eq _ _ _ _ f0 f1 f2 f3

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
